-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 132
  | .vmem => 64
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S50000, .f32⟩
  | 32 => ⟨S50000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x1, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x1, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S1x128, .f32⟩
  | 91 => ⟨S50000x128, .f32⟩
  | 92 => ⟨S50000x128, .f32⟩
  | 93 => ⟨S50000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x1, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S1x128, .f32⟩
  | 111 => ⟨S50000x128, .f32⟩
  | 112 => ⟨S50000x64, .f32⟩
  | 113 => ⟨S50000x64, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x64, .f32⟩
  | 123 => ⟨S800000x1, .f32⟩
  | 124 => ⟨S800000x64, .f32⟩
  | 125 => ⟨S800000x64, .f32⟩
  | 126 => ⟨S_, .f32⟩
  | 127 => ⟨S50000x64, .f32⟩
  | _ => ⟨S50000x128, .f32⟩

abbrev hbmTy0_1 (i : Nat) : BufTy := match i % 128 with
  | 0 => ⟨S800000x1, .i32⟩
  | 1 => ⟨S50000x64, .f32⟩
  | 2 => ⟨S1x64, .f32⟩
  | 3 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x64, .f32⟩
  | .local _ .vmem, ⟨51, _⟩ => ⟨S5000x1, .f32⟩
  | .local _ .vmem, ⟨52, _⟩ => ⟨S5000x1, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65_0 : Ref sig .tc := ⟨.hbm, 92, rfl⟩
abbrev main_v65_1 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81_0 : Ref sig .tc := ⟨.hbm, 112, rfl⟩
abbrev main_v81_1 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_18 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg3_1 : Ref sig .tc := ⟨.vmem, 54, rfl⟩
abbrev cc6_stg4_0 : Ref sig .tc := ⟨.vmem, 55, rfl⟩
abbrev cc6_stg4_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg3_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc4_sem4_0 : DmaSem sig := 39
abbrev cc4_sem4_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem3_1 : DmaSem sig := 54
abbrev cc6_sem4_0 : DmaSem sig := 55
abbrev cc6_sem4_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem3_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  broadcasts_S5000x1_S5000x64 : S5000x1.Broadcasts S5000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S50000x64.size a
  hwx6_4 : ∀ i : grid6.Coords, EltTy.bits .f32 = 32 ∨ (Rect.block (s := S50000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v49_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v65_1) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v78) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65_1) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v79) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v80) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v17) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v81_0) S5000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v81_1) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v94) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v81_1) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v95) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v96) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 216
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S800000x1, .f32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S50000, .f32⟩
  | 115 => ⟨S50000x1, .f32⟩
  | 116 => ⟨S50000x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000, .f32⟩
  | 16 => ⟨S800000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S800000x1, .f32⟩
  | 27 => ⟨S800000x128, .f32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S50000, .f32⟩
  | 34 => ⟨S50000x1, .f32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x64, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000, .f32⟩
  | 63 => ⟨S800000, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S800000x1, .f32⟩
  | 74 => ⟨S800000x64, .f32⟩
  | 75 => ⟨S800000x64, .f32⟩
  | 76 => ⟨S_, .f32⟩
  | 77 => ⟨S50000x64, .f32⟩
  | 78 => ⟨S800000x1, .i32⟩
  | 79 => ⟨S50000x64, .f32⟩
  | 80 => ⟨S50000, .f32⟩
  | 81 => ⟨S50000x1, .f32⟩
  | 82 => ⟨S50000x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call1_cst : Ref sig .tc := ⟨.hbm, 122, rfl⟩
abbrev main_call1_v0 : Ref sig .tc := ⟨.hbm, 123, rfl⟩
abbrev main_v91 : Ref sig .tc := ⟨.hbm, 124, rfl⟩
abbrev main_v92 : Ref sig .tc := ⟨.hbm, 125, rfl⟩
abbrev main_c_17 : Ref sig .tc := ⟨.hbm, 126, rfl⟩
abbrev main_v93 : Ref sig .tc := ⟨.hbm, 127, rfl⟩
abbrev main_v94 : Ref sig .tc := ⟨.hbm, 128, rfl⟩
abbrev main_c_18 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_19 : Ref sig .tc := ⟨.hbm, 135, rfl⟩
abbrev main_v100 : Ref sig .tc := ⟨.hbm, 136, rfl⟩
abbrev main_v101 : Ref sig .tc := ⟨.hbm, 137, rfl⟩
abbrev main_c_20 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_c_21 : Ref sig .tc := ⟨.hbm, 145, rfl⟩
abbrev main_v108 : Ref sig .tc := ⟨.hbm, 146, rfl⟩
abbrev main_v109 : Ref sig .tc := ⟨.hbm, 147, rfl⟩
abbrev main_c_22 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_23 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_call2_cst : Ref sig .tc := ⟨.hbm, 169, rfl⟩
abbrev main_call2_v0 : Ref sig .tc := ⟨.hbm, 170, rfl⟩
abbrev main_v129 : Ref sig .tc := ⟨.hbm, 171, rfl⟩
abbrev main_v130 : Ref sig .tc := ⟨.hbm, 172, rfl⟩
abbrev main_c_24 : Ref sig .tc := ⟨.hbm, 173, rfl⟩
abbrev main_v131 : Ref sig .tc := ⟨.hbm, 174, rfl⟩
abbrev main_v132 : Ref sig .tc := ⟨.hbm, 175, rfl⟩
abbrev main_c_25 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_26 : Ref sig .tc := ⟨.hbm, 182, rfl⟩
abbrev main_v138 : Ref sig .tc := ⟨.hbm, 183, rfl⟩
abbrev main_v139 : Ref sig .tc := ⟨.hbm, 184, rfl⟩
abbrev main_c_27 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_c_28 : Ref sig .tc := ⟨.hbm, 192, rfl⟩
abbrev main_v146 : Ref sig .tc := ⟨.hbm, 193, rfl⟩
abbrev main_v147 : Ref sig .tc := ⟨.hbm, 194, rfl⟩
abbrev main_c_29 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_30 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The kernel program's run with the result array kept.

  The program is thirteen segments: five stretches of host operations and eight tiled calls. The contents
  of every buffer at each segment boundary are a fold from the launch memory; after the last segment every
  unscoped buffer holds the last fold's contents. Read at the result buffer and at the ten arguments this
  gives: every fair execution terminates without a fault, the result array holds the last fold's contents
  at its buffer, and the arguments are unchanged.
-/
import proofs.«102909_j69947837382767_1_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution from a memory with zero counters terminates without a fault; the result array ends
    at the last boundary's contents of its buffer, and the ten argument arrays end as launched. -/
theorem run_result : θ_run defs (onTc (τ := τ) (main (F := F))) ⟨m, fun _ => 0, ρ⟩ (fun r => ∀ c : Dev nD,
      r.2.mem ((c.tc : Thread nD τ).loc main_v96) = W13 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v96 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Layers

end
-- ==== Proof.Spec.lean ====
/-
  One graph-convolution layer on the extended reals, index by index.

  A layer takes node features A (N × K), a weight matrix W (K × C), a bias b (length C), the squared
  inverse-square-root degrees d2 (length N) and a neighbourhood aggregation 𝒜 acting on N × C arrays.
  With H = A · W (entry (r, c) the finite sum over k of A (r, k) * W (k, c)) the layer's entry at (r, c) is

      (𝒜 H (r, c) + H (r, c) * d2 r) + b c,

  followed, for an inner layer, by the maximum with zero. The sum is bracketed exactly like this on both
  sides of the comparison, so no algebraic law of the extended reals is needed beyond reading each
  operation at an index.
-/
import Idealize.ShloMosaic.PureOps.Ideal.Laws
import Idealize.ShloMosaic.Lib.ValueIdx

noncomputable section

open scoped BigOperators

namespace Cert.Gcn

open Idealize.ShloMosaic Idealize.ShloMosaic.ValueIdx

/-- An R × C array of extended reals. -/
abbrev Mat (R C : ℕ) := (⟨2, ![R, C]⟩ : Shape).Idx → EReal

/-- A length-n array of extended reals. -/
abbrev Arr (n : ℕ) := (⟨1, ![n]⟩ : Shape).Idx → EReal

/-- The matrix product: entry (r, c) is the sum over the shared axis. -/
def lin {N K C : ℕ} (A : Mat N K) (W : Mat K C) : Mat N C :=
  fun i => ∑ k : Fin K, A (ix2 (i 0) k) * W (ix2 k (i 1))

/-- The product scaled row by row: entry (r, c) times d2 r. -/
def scaled {N K C : ℕ} (d2 : Arr N) (A : Mat N K) (W : Mat K C) : Mat N C :=
  fun i => FloatOps.mulf (F := Ideal) (φ := .f32) (lin A W i) (d2 (ix1 (i 0)))

/-- Aggregated neighbours plus the scaled self term plus the bias, bracketed in that order. -/
def pre {N C : ℕ} (b : Arr C) (G S : Mat N C) : Mat N C :=
  fun i => FloatOps.addf (F := Ideal) (φ := .f32) (FloatOps.addf (F := Ideal) (φ := .f32) (G i) (S i)) (b (ix1 (i 1)))

/-- The same followed by the maximum with zero (the zero kept as its binary word). -/
def preRelu {N C : ℕ} (b : Arr C) (G S : Mat N C) : Mat N C :=
  fun i => FloatOps.maximumf (F := Ideal) (φ := .f32) (pre b G S i) (FloatOps.ofBits (F := Ideal) .f32 0x00000000#32)

/-- An outer layer: no maximum. -/
def layer {N K C : ℕ} (𝒜 : Mat N C → Mat N C) (d2 : Arr N) (b : Arr C) (A : Mat N K) (W : Mat K C) : Mat N C :=
  pre b (𝒜 (lin A W)) (scaled d2 A W)

/-- An inner layer: the maximum with zero applied. -/
def layerRelu {N K C : ℕ} (𝒜 : Mat N C → Mat N C) (d2 : Arr N) (b : Arr C) (A : Mat N K) (W : Mat K C) : Mat N C :=
  preRelu b (𝒜 (lin A W)) (scaled d2 A W)

end Cert.Gcn

end
-- ==== Proof.KHost.lean ====
/-
  The host steps around the tiled calls, as functions of the arrays they read.

  From the edge list (a 2 × E integer array: row 0 the sources, row 1 the targets) the program computes,
  once, the inverse square roots of the in-degrees-plus-one, their squares as an N × 1 column, and the
  per-edge weight (source entry times target entry). Before each combining call it gathers the rows of the
  layer's product at the sources, scales row e by edge e's weight, and sums the rows into their targets.
  Negative indices are read from the end (the program adds N to them). These steps are opaque here: they
  are the same operations in both programs and are only ever compared, never opened.

  Also: a length-n array reshaped to 1 × n read at (0, q) is the array at q, and reshaped to n × 1 read at
  (r, 0) is the array at r.
-/
import proofs.«102909_j69947837382767_1_alg».proof.Proof.Gen.KernelIdeal
import Idealize.ShloMosaic.Lib.Pipeline.Value
import Idealize.ShloMosaic.Lib.ValueIdx

noncomputable section

namespace Cert.KernelIdeal.Layers

open Idealize.ShloMosaic Idealize.ShloMosaic.ValueIdx
open Cert.KernelIdeal Cert.KernelIdeal.Facts₀ Cert.KernelIdeal.Facts

/-- The sources: row 0 of the edge list. -/
def srcOf (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The targets: row 1 of the edge list. -/
def dstOf (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- Indices with the negative ones counted from the end, as an E × 1 column of start indices. -/
def wrapIdx (x : (⟨S800000, .i32⟩ : BufTy).Contents (Elt Ideal)) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The inverse square roots of the in-degrees plus one. -/
def disOf (dst : (⟨S800000, .i32⟩ : BufTy).Contents (Elt Ideal)) : FVec Ideal S50000 .f32 :=
  Host.rsqrt (F := Ideal) (addf (F := Ideal)
    (Host.scatterAdd (F := Ideal) scatter_S50000_S800000x1_S800000_n_0_0_1
      (broadcastInDim S50000 ![] bcast_S_S50000 (constant (F := Ideal) S_ .f32 0x00000000#32))
      (wrapIdx dst)
      (broadcastInDim S800000 ![] bcast_S_S800000 (constant (F := Ideal) S_ .f32 0x3F800000#32)))
    (broadcastInDim S50000 ![] bcast_S_S50000 (constant (F := Ideal) S_ .f32 0x3F800000#32)))

/-- The per-edge weight: the source's entry times the target's entry. -/
def normOf (src dst : (⟨S800000, .i32⟩ : BufTy).Contents (Elt Ideal)) : FVec Ideal S800000 .f32 :=
  mulf (F := Ideal) (Host.gather gather_S50000_S800000x1_S800000_n_0_n_n_0_1_1 (disOf dst) (wrapIdx src))
    (Host.gather gather_S50000_S800000x1_S800000_n_0_n_n_0_1_1 (disOf dst) (wrapIdx dst))

/-- The squared entries as an N × 1 column. -/
def d2colOf (dst : (⟨S800000, .i32⟩ : BufTy).Contents (Elt Ideal)) : FVec Ideal S50000x1 .f32 :=
  shapeCast _ (mulf (F := Ideal) (disOf dst) (disOf dst)) shapeCasts_S50000_S50000x1

/-- Neighbourhood aggregation of an N × 128 array: gather at the sources, scale by the edge weights, sum into the targets. -/
def agg128 (src dst : (⟨S800000, .i32⟩ : BufTy).Contents (Elt Ideal)) (ne : FVec Ideal S800000 .f32)
    (H : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (F := Ideal) (Host.gather gather_S50000x128_S800000x1_S800000x128_1_0_n_n_0_1_1128 H (wrapIdx src))
      (broadcastInDim S800000x128 ![0, 1] bcast_S800000x1_S800000x128_0_1 (broadcastInDim S800000x1 ![0] bcast_S800000_S800000x1_0 ne)))

/-- The same for an N × 64 array. -/
def agg64 (src dst : (⟨S800000, .i32⟩ : BufTy).Contents (Elt Ideal)) (ne : FVec Ideal S800000 .f32)
    (H : FVec Ideal S50000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (F := Ideal) (Host.gather gather_S50000x64_S800000x1_S800000x64_1_0_n_n_0_1_164 H (wrapIdx src))
      (broadcastInDim S800000x64 ![0, 1] bcast_S800000x1_S800000x64_0_1 (broadcastInDim S800000x1 ![0] bcast_S800000_S800000x1_0 ne)))

/-- The zero offset of a rank-2 rectangle, in the form the block lemmas take. -/
theorem hz2 : (![0, 0] : Fin 2 → Nat) = fun _ => 0 := funext fun a => by fin_cases a <;> rfl

/-- A length-n array reshaped to 1 × n, read at (0, q), is the array at q. -/
theorem row_of_reshape {n : ℕ} {α : Type} (b : (⟨1, ![n]⟩ : Shape).Idx → α) (h : (⟨1, ![n]⟩ : Shape).ShapeCasts ⟨2, ![1, n]⟩) :
    (fun j : (⟨1, ![n]⟩ : Shape).Idx => shapeCast ⟨2, ![1, n]⟩ b h (ix2 0 (j 0))) = b := by
  funext j
  refine shapeCast_apply b h _ j ?_
  rw [Shape.rowMajor_val_two, Shape.rowMajor_val_one]
  show (j 0).val = 0 * n + (j 0).val
  omega

/-- A length-n array reshaped to n × 1, read at (r, 0), is the array at r. -/
theorem col_of_reshape {n : ℕ} {α : Type} (b : (⟨1, ![n]⟩ : Shape).Idx → α) (h : (⟨1, ![n]⟩ : Shape).ShapeCasts ⟨2, ![n, 1]⟩) :
    (fun j : (⟨1, ![n]⟩ : Shape).Idx => shapeCast ⟨2, ![n, 1]⟩ b h (ix2 (j 0) 0)) = b := by
  funext j
  refine shapeCast_apply b h _ j ?_
  rw [Shape.rowMajor_val_two, Shape.rowMajor_val_one]
  show (j 0).val = (j 0).val * 1 + 0
  omega

end Cert.KernelIdeal.Layers

end
-- ==== Proof.LibPlainDot.lean ====
/-
  A contraction of an M×K array with a K×N array over their shared axis, read at one position.

  Both the accelerator's matrix product into a zero accumulator and the host's general dot product, at the
  exact extended-real values, are at position (r, c) the finite sum over k of lhs (r, k) * rhs (k, c):
  no rounding and no order of accumulation is left in them. The dimension numbers are the plain ones
  (left operand contracted on its last axis, right operand on its first, no batch axes); any record with
  those numbers is the plain record, whatever proof of well-formedness it carries.
-/
import Idealize.ShloMosaic.PureOps.Ideal.Laws
import Idealize.ShloMosaic.Lib.ValueIdx

noncomputable section

open scoped BigOperators

namespace Cert.PlainDot

open Idealize.ShloMosaic Idealize.ShloMosaic.ValueIdx

/-- The contraction shape of a plain M×K by K×N product has one axis. -/
theorem contr_rank (M K N : ℕ) : (DotDims.plain M K N).contr.rank = 1 := rfl

/-- That axis has the shared extent K. -/
theorem contr_size (M K N : ℕ) : (DotDims.plain M K N).contr.size ⟨0, by rw [contr_rank]; exact Nat.one_pos⟩ = K := rfl

/-- The left operand's position for output position (r, c) and contraction coordinate k is (r, k). -/
theorem lhsIdx_eq {M K N : ℕ} (r : Fin M) (c : Fin N) (k : Fin K) :
    (DotDims.plain M K N).lhsIdx (ix2 r c) ((contrEquiv1 (DotDims.plain M K N) K (contr_rank M K N) (contr_size M K N)).symm k)
      = ix2 r k := by
  funext a
  refine Fin.ext ?_
  match a with
  | ⟨0, _⟩ => rfl
  | ⟨1, _⟩ =>
    exact ((DotDims.plain M K N).lhsIdx_val_of_single (cl := (1 : Fin 2)) rfl _ _).trans
      (contrEquiv1_symm_val (DotDims.plain M K N) K (contr_rank M K N) (contr_size M K N) k)

/-- The right operand's position is (k, c). -/
theorem rhsIdx_eq {M K N : ℕ} (r : Fin M) (c : Fin N) (k : Fin K) :
    (DotDims.plain M K N).rhsIdx (ix2 r c) ((contrEquiv1 (DotDims.plain M K N) K (contr_rank M K N) (contr_size M K N)).symm k)
      = ix2 k c := by
  funext a
  refine Fin.ext ?_
  match a with
  | ⟨0, _⟩ =>
    exact ((DotDims.plain M K N).rhsIdx_val_of_single (cr := (0 : Fin 2)) rfl _ _).trans
      (contrEquiv1_symm_val (DotDims.plain M K N) K (contr_rank M K N) (contr_size M K N) k)
  | ⟨1, _⟩ => rfl

/-- The contraction's sum over its index set is the sum over k < K of the products along row r and column c. -/
theorem sum_eq {M K N : ℕ} (f : (⟨2, ![M, K]⟩ : Shape).Idx → EReal) (g : (⟨2, ![K, N]⟩ : Shape).Idx → EReal)
    (r : Fin M) (c : Fin N) :
    ∑ k : (DotDims.plain M K N).contr.Idx,
        f ((DotDims.plain M K N).lhsIdx (ix2 r c) k) * g ((DotDims.plain M K N).rhsIdx (ix2 r c) k)
      = ∑ k : Fin K, f (ix2 r k) * g (ix2 k c) := by
  rw [← Equiv.sum_comp (contrEquiv1 (DotDims.plain M K N) K (contr_rank M K N) (contr_size M K N)).symm]
  refine Finset.sum_congr rfl fun k _ => ?_
  rw [lhsIdx_eq, rhsIdx_eq]

/-- The accelerator's matrix product into the zero accumulator, at (r, c). -/
theorem matmul_zero_apply {M K N : ℕ} (d : DotDims ⟨2, ![M, K]⟩ ⟨2, ![K, N]⟩ ⟨2, ![M, N]⟩) (hd : d = DotDims.plain M K N)
    (prec : Option ContractPrecision) (lhs : FVec Ideal ⟨2, ![M, K]⟩ .f32) (rhs : FVec Ideal ⟨2, ![K, N]⟩ .f32)
    (r : Fin M) (c : Fin N) :
    FloatOps.matmul d prec lhs rhs (constant ⟨2, ![M, N]⟩ .f32 0x00000000#32) (ix2 r c)
      = ∑ k : Fin K, lhs (ix2 r k) * rhs (ix2 k c) := by
  subst hd
  rw [Ideal.matmul_constant_zero_apply]
  exact sum_eq lhs rhs r c

/-- The host's general dot product, at (r, c), whatever its schedule. -/
theorem dotGeneral_apply {M K N : ℕ} (d : DotDims ⟨2, ![M, K]⟩ ⟨2, ![K, N]⟩ ⟨2, ![M, N]⟩) (hd : d = DotDims.plain M K N)
    (prec : Option ContractPrecision) (sched : HostSchedule) (lhs : FVec Ideal ⟨2, ![M, K]⟩ .f32) (rhs : FVec Ideal ⟨2, ![K, N]⟩ .f32)
    (r : Fin M) (c : Fin N) :
    FloatOps.dotGeneral d prec sched lhs rhs (ix2 r c) = ∑ k : Fin K, lhs (ix2 r k) * rhs (ix2 k c) := by
  subst hd
  rw [Ideal.dotGeneral_apply]
  exact sum_eq lhs rhs r c

end Cert.PlainDot

end
-- ==== Proof.KReg0.lean ====
/-
  The first product call: the node features times a weight matrix, and that product scaled row by row.

  The grid has ten points; point t holds rows 5000 t … 5000 t + 4999 of the left array and of the column of
  row scales, and the whole weight matrix. It writes rows 5000 t … of two result arrays: entry (r, c) of the
  first is the sum over k of left (r, k) * weight (k, c) (the narrowing to the short format is the identity
  on extended reals and the accumulator starts at zero), and entry (r, c) of the second is that sum times
  the scale of row r. The ten row blocks tile the arrays, so each result array is one function of the
  arrays the call found.
-/
import proofs.«102909_j69947837382767_1_alg».proof.Proof.Gen.KernelIdeal.Frame
import proofs.«102909_j69947837382767_1_alg».proof.Proof.LibPlainDot
import proofs.«102909_j69947837382767_1_alg».proof.Proof.Spec
import proofs.«102909_j69947837382767_1_alg».proof.Proof.KHost
import Idealize.ShloMosaic.Lib.Pipeline.Value
import Idealize.ShloMosaic.Lib.ValueLayout

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Call 0: the product with a weight matrix, and the product scaled row by row -/

/-- The product payload at (p, q): the sum over k of the left block's (p, k) times the right block's (k, q). -/
theorem k0_pay1_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.PlainDot.matmul_zero_apply dot_S5000x128_S128x128_S5000x128_1_0_0_1_n_n rfl none _ _ p q

/-- The scaled payload at (p, q): that sum times the scale column's entry of row p. -/
theorem k0_pay2_apply (x0 : Vec Ideal S5000x128 .f32) (x1 : Vec Ideal S128x128 .f32) (x2 : Vec Ideal S5000x1 .f32) (p : Fin 5000) (q : Fin 128) :
    k0_pay2 x0 x1 x2 (ix2 p q) = FloatOps.mulf (F := Ideal) (φ := .f32) (∑ k : Fin 128, x0 (ix2 p k) * x1 (ix2 k q)) (x2 (ix2 p 0)) := by
  unfold k0_pay2
  simp only [shapeCast_self]
  show FloatOps.mulf (F := Ideal) (φ := .f32) (k0_pay1 x0 x1 (ix2 p q)) (broadcastTo S5000x128 x2 broadcasts_S5000x1_S5000x128 (ix2 p q)) = _
  rw [k0_pay1_apply, broadcastTo_apply x2 broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])]

/-- The printed index maps over the grid: the row-blocked windows sit at block (t, 0), the weight at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The left operand's block at point t is rows 5000 t … of its array. -/
theorem iblk0_0_apply (c : Dev nD) (t : Fin cfg0.N) (p : Fin 5000) (k : Fin 128) (i : S50000x128.Idx)
    (h0 : (i 0).val = 5000 * t.val + p.val) (h1 : (i 1).val = k.val) :
    (iblk0 V c 0 t : Vec Ideal S5000x128 .f32) (ix2 p k) = (V c main_arg0 : S50000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = (i 0).val; rw [e0, h0]; omega
  | ⟨1, _⟩ => show win0_0.index t 1 * 128 + 1 * k.val = (i 1).val; rw [e1, h1]; omega

/-- The weight's block at every point is the whole weight matrix. -/
theorem iblk0_1_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t 0 * 128 + 1 * k.val = k.val; rw [e0]; omega
  | ⟨1, _⟩ => show win0_1.index t 1 * 128 + 1 * q.val = q.val; rw [e1]; omega

/-- The scale column's block at point t is rows 5000 t … of the column. -/
theorem iblk0_2_apply (c : Dev nD) (t : Fin cfg0.N) (p : Fin 5000) (i : S50000x1.Idx)
    (h0 : (i 0).val = 5000 * t.val + p.val) :
    (iblk0 V c 2 t : Vec Ideal S5000x1 .f32) (ix2 p 0) = (V c main_v17 : S50000x1.Idx → EReal) i := by
  obtain ⟨-, -, -, -, e0, e1, -⟩ := idx_facts0 t
  unfold iblk0
  rw [View.read_apply]
  show V c main_v17 _ = V c main_v17 _
  congr 1
  funext a
  apply Fin.ext
  match a with
  | ⟨0, _⟩ => show win0_2.index t 0 * 5000 + 1 * p.val = (i 0).val; rw [e0, h0]; omega
  | ⟨1, _⟩ => show win0_2.index t 1 * 1 + 1 * 0 = (i 1).val; have := (i 1).isLt; rw [e1]; show 0 * 1 + 1 * 0 = (i 1).val; have h : (i 1).val < 1 := (i 1).isLt; omega

/-- What point t writes back through result window 3 is block t of one whole-array function. -/
theorem flushed0_3_eq (c : Dev nD) (t : Fin cfg0.N) :
    (dat0 V c).flushed 3 t = ((cfg0.win 3).blk t).view.read (Elt Ideal) (Cert.Gcn.lin (V c main_arg0 : S50000x128.Idx → EReal) (V c main_arg2 : S128x128.Idx → EReal) : S50000x128.Idx → EReal) := by
  obtain ⟨-, -, -, -, -, -, e30, e31, e40, e41⟩ := idx_facts0 t
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S5000x1) hz2]
  funext j
  obtain ⟨p, q, rfl⟩ : ∃ (p : Fin 5000) (q : Fin 128), j = ix2 p q := ⟨j 0, j 1, eq_ix2 j⟩
  have hi0 : ((((cfg0.win 3).blk t).view.emb (ix2 p q) : S50000x128.Idx) 0).val = 5000 * t.val + p.val := by
    show win0_3.index t 0 * 5000 + 1 * p.val = _; rw [e30]; omega
  have hq : (((cfg0.win 3).blk t).view.emb (ix2 p q) : S50000x128.Idx) 1 = q := by
    apply Fin.ext; show win0_3.index t 1 * 128 + 1 * q.val = _; rw [e31]; omega
  show k0_pay1 (iblk0 V c 0 t) (iblk0 V c 1 t) (ix2 p q) = (Cert.Gcn.lin (V c main_arg0 : S50000x128.Idx → EReal) (V c main_arg2 : S128x128.Idx → EReal) : S50000x128.Idx → EReal) (((cfg0.win 3).blk t).view.emb (ix2 p q))
  refine (k0_pay1_apply _ _ p q).trans ?_
  unfold Cert.Gcn.lin
  refine Finset.sum_congr rfl fun k _ => ?_
  rw [iblk0_0_apply V c t p k (ix2 ((((cfg0.win 3).blk t).view.emb (ix2 p q) : S50000x128.Idx) 0) k) hi0 rfl, iblk0_1_apply V c t k q, hq]

/-- What point t writes back through result window 4 is block t of one whole-array function. -/
theorem flushed0_4_eq (c : Dev nD) (t : Fin cfg0.N) :
    (dat0 V c).flushed 4 t = ((cfg0.win 4).blk t).view.read (Elt Ideal) (Cert.Gcn.scaled (fun j => (V c main_v17 : S50000x1.Idx → EReal) (ix2 (j 0) 0)) (V c main_arg0 : S50000x128.Idx → EReal) (V c main_arg2 : S128x128.Idx → EReal) : S50000x128.Idx → EReal) := by
  obtain ⟨-, -, -, -, -, -, e30, e31, e40, e41⟩ := idx_facts0 t
  show (cfg0.win 4).cut (grid0.coords t) ((dat0 V c).after 4 t) = _
  rw [after0_4]
  unfold out0_4
  rw [View.canon_unit_zero hz2]
  simp only [View.ld_unit_zero (S := S5000x128) hz2, View.ld_unit_zero (S := S128x128) hz2, View.ld_unit_zero (S := S5000x1) hz2]
  funext j
  obtain ⟨p, q, rfl⟩ : ∃ (p : Fin 5000) (q : Fin 128), j = ix2 p q := ⟨j 0, j 1, eq_ix2 j⟩
  have hi0 : ((((cfg0.win 4).blk t).view.emb (ix2 p q) : S50000x128.Idx) 0).val = 5000 * t.val + p.val := by
    show win0_4.index t 0 * 5000 + 1 * p.val = _; rw [e40]; omega
  have hq : (((cfg0.win 4).blk t).view.emb (ix2 p q) : S50000x128.Idx) 1 = q := by
    apply Fin.ext; show win0_4.index t 1 * 128 + 1 * q.val = _; rw [e41]; omega
  show k0_pay2 (iblk0 V c 0 t) (iblk0 V c 1 t) (iblk0 V c 2 t) (ix2 p q) = (Cert.Gcn.scaled (fun j => (V c main_v17 : S50000x1.Idx → EReal) (ix2 (j 0) 0)) (V c main_arg0 : S50000x128.Idx → EReal) (V c main_arg2 : S128x128.Idx → EReal) : S50000x128.Idx → EReal) (((cfg0.win 4).blk t).view.emb (ix2 p q))
  refine (k0_pay2_apply _ _ _ p q).trans ?_
  unfold Cert.Gcn.scaled Cert.Gcn.lin
  rw [iblk0_2_apply V c t p (ix2 ((((cfg0.win 4).blk t).view.emb (ix2 p q) : S50000x128.Idx) 0) 0) hi0]
  refine congrArg (fun z => FloatOps.mulf (F := Ideal) (φ := .f32) z ((V c main_v17 : S50000x1.Idx → EReal) (ix2 ((((cfg0.win 4).blk t).view.emb (ix2 p q) : S50000x128.Idx) 0) 0))) ?_
  refine Finset.sum_congr rfl fun k _ => ?_
  rw [iblk0_0_apply V c t p k (ix2 ((((cfg0.win 4).blk t).view.emb (ix2 p q) : S50000x128.Idx) 0) k) hi0 rfl, iblk0_1_apply V c t k q, hq]

/-- The ten row blocks of result window 3 tile its array: row r lies in block r / 5000. -/
theorem cover0_3 (i : S50000x128.Idx) : ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  have ht : t.val = (i 0).val / 5000 := rfl
  obtain ⟨-, -, -, -, -, -, e30, e31, e40, e41⟩ := idx_facts0 t
  refine ⟨t, flush0_3 t, ?_⟩
  show i ∈ ((View.whole main_v33_0).slice (win0_3.rect t)).set
  rw [View.set_slice_whole, Rect.mem_set_unit]
  intro a
  match a with
  | ⟨0, _⟩ => show win0_3.index t 0 * 5000 ≤ (i 0).val ∧ (i 0).val < win0_3.index t 0 * 5000 + 5000; rw [e30, ht]; omega
  | ⟨1, _⟩ => show win0_3.index t 1 * 128 ≤ (i 1).val ∧ (i 1).val < win0_3.index t 1 * 128 + 128; rw [e31]; omega

/-- The ten row blocks of result window 4 tile its array: row r lies in block r / 5000. -/
theorem cover0_4 (i : S50000x128.Idx) : ∃ t : Fin cfg0.N, (cfg0.win 4).flush t = true ∧ i ∈ ((cfg0.win 4).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  have ht : t.val = (i 0).val / 5000 := rfl
  obtain ⟨-, -, -, -, -, -, e30, e31, e40, e41⟩ := idx_facts0 t
  refine ⟨t, flush0_4 t, ?_⟩
  show i ∈ ((View.whole main_v33_1).slice (win0_4.rect t)).set
  rw [View.set_slice_whole, Rect.mem_set_unit]
  intro a
  match a with
  | ⟨0, _⟩ => show win0_4.index t 0 * 5000 ≤ (i 0).val ∧ (i 0).val < win0_4.index t 0 * 5000 + 5000; rw [e40, ht]; omega
  | ⟨1, _⟩ => show win0_4.index t 1 * 128 ≤ (i 1).val ∧ (i 1).val < win0_4.index t 1 * 128 + 128; rw [e41]; omega

/-- The product array after the call: the matrix product of the two arrays the call found. -/
theorem prod0 (c : Dev nD) : (dat0 V c).arrAt 3 cfg0.N = (Cert.Gcn.lin (V c main_arg0 : S50000x128.Idx → EReal) (V c main_arg2 : S128x128.Idx → EReal) : S50000x128.Idx → EReal) :=
  (dat0 V c).arrAt_eq_of_cover 3 _ (fun t _ => flushed0_3_eq V c t) (cover0_3)

/-- The scaled array after the call: the product with each row multiplied by that row's scale. -/
theorem scal0 (c : Dev nD) : (dat0 V c).arrAt 4 cfg0.N = (Cert.Gcn.scaled (fun j => (V c main_v17 : S50000x1.Idx → EReal) (ix2 (j 0) 0)) (V c main_arg0 : S50000x128.Idx → EReal) (V c main_arg2 : S128x128.Idx → EReal) : S50000x128.Idx → EReal) :=
  (dat0 V c).arrAt_eq_of_cover 4 _ (fun t _ => flushed0_4_eq V c t) (cover0_4)

end Cert.KernelIdeal.Layers

end
-- ==== Proof.KReg1.lean ====
/-
  The first combining call: point t holds rows 5000 t … 5000 t + 4999 of the aggregated-neighbours array and
  of the scaled product, and the whole 1 × C bias row; it writes the same rows of the result, entry (r, c)
  being (aggregated (r, c) + scaled (r, c)) + bias (0, c), followed by the maximum with zero. The ten row
  blocks tile the result array, so it is one function of the three arrays the call found.
-/
import proofs.«102909_j69947837382767_1_alg».proof.Proof.Gen.KernelIdeal.Frame
import proofs.«102909_j69947837382767_1_alg».proof.Proof.Spec
import proofs.«102909_j69947837382767_1_alg».proof.Proof.KHost
import Idealize.ShloMosaic.Lib.Pipeline.Value
import Idealize.ShloMosaic.Lib.ValueLayout

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Call 1: aggregated neighbours plus the scaled self term plus the bias, then the maximum with zero -/

/-- The payload at (p, q), bracketed as the body computes it. -/
theorem k1_pay1_apply (x0 x1 : Vec Ideal S5000x128 .f32) (x2 : Vec Ideal S1x128 .f32) (p : Fin 5000) (q : Fin 128) :
    k1_pay1 x0 x1 x2 (ix2 p q) = FloatOps.maximumf (F := Ideal) (φ := .f32) (FloatOps.addf (F := Ideal) (φ := .f32) (FloatOps.addf (F := Ideal) (φ := .f32) (x0 (ix2 p q)) (x1 (ix2 p q))) (x2 (ix2 0 q))) (FloatOps.ofBits (F := Ideal) .f32 0x00000000#32) := by
  unfold k1_pay1
  simp only [shapeCast_self]
  show FloatOps.maximumf (F := Ideal) (φ := .f32) (FloatOps.addf (F := Ideal) (φ := .f32) (FloatOps.addf (F := Ideal) (φ := .f32) (x0 (ix2 p q)) (x1 (ix2 p q))) (broadcastTo S5000x128 x2 broadcasts_S1x128_S5000x128 (ix2 p q))) (FloatOps.ofBits (F := Ideal) .f32 0x00000000#32) = _
  rw [broadcastTo_apply x2 broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])]

/-- The printed index maps over the grid: the row-blocked windows sit at block (t, 0), the bias row at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point t is rows 5000 t … of its array. -/
theorem iblk1_0_apply (c : Dev nD) (t : Fin cfg1.N) (p : Fin 5000) (q : Fin 128) (i : S50000x128.Idx)
    (h0 : (i 0).val = 5000 * t.val + p.val) (h1 : (i 1).val = q.val) :
    (iblk1 V c 0 t : Vec Ideal S5000x128 .f32) (ix2 p q) = (V c main_v46 : S50000x128.Idx → EReal) i := by
  obtain ⟨e00, e01, e10, e11, -⟩ := idx_facts1 t
  unfold iblk1
  rw [View.read_apply]
  show V c main_v46 _ = V c main_v46 _
  congr 1
  funext a
  apply Fin.ext
  match a with
  | ⟨0, _⟩ => show win1_0.index t 0 * 5000 + 1 * p.val = (i 0).val; rw [e00, h0]; omega
  | ⟨1, _⟩ => show win1_0.index t 1 * 128 + 1 * q.val = (i 1).val; rw [e01, h1]; omega

/-- Window 1's block at point t is rows 5000 t … of its array. -/
theorem iblk1_1_apply (c : Dev nD) (t : Fin cfg1.N) (p : Fin 5000) (q : Fin 128) (i : S50000x128.Idx)
    (h0 : (i 0).val = 5000 * t.val + p.val) (h1 : (i 1).val = q.val) :
    (iblk1 V c 1 t : Vec Ideal S5000x128 .f32) (ix2 p q) = (V c main_v33_1 : S50000x128.Idx → EReal) i := by
  obtain ⟨e00, e01, e10, e11, -⟩ := idx_facts1 t
  unfold iblk1
  rw [View.read_apply]
  show V c main_v33_1 _ = V c main_v33_1 _
  congr 1
  funext a
  apply Fin.ext
  match a with
  | ⟨0, _⟩ => show win1_1.index t 0 * 5000 + 1 * p.val = (i 0).val; rw [e10, h0]; omega
  | ⟨1, _⟩ => show win1_1.index t 1 * 128 + 1 * q.val = (i 1).val; rw [e11, h1]; omega

/-- The bias row's block at every point is the whole row. -/
theorem iblk1_2_apply (c : Dev nD) (t : Fin cfg1.N) (q : Fin 128) :
    (iblk1 V c 2 t : Vec Ideal S1x128 .f32) (ix2 0 q) = (V c main_v47 : S1x128.Idx → EReal) (ix2 0 q) := by
  obtain ⟨-, -, -, -, e0, e1, -⟩ := idx_facts1 t
  unfold iblk1
  rw [View.read_apply]
  show V c main_v47 _ = V c main_v47 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- What point t writes back is block t of one whole-array function. -/
theorem flushed1_3_eq (c : Dev nD) (t : Fin cfg1.N) :
    (dat1 V c).flushed 3 t = ((cfg1.win 3).blk t).view.read (Elt Ideal) (Cert.Gcn.preRelu (fun j => (V c main_v47 : S1x128.Idx → EReal) (ix2 0 (j 0))) (V c main_v46 : S50000x128.Idx → EReal) (V c main_v33_1 : S50000x128.Idx → EReal) : S50000x128.Idx → EReal) := by
  obtain ⟨-, -, -, -, -, -, e30, e31⟩ := idx_facts1 t
  show (cfg1.win 3).cut (grid1.coords t) ((dat1 V c).after 3 t) = _
  rw [after1_3]
  unfold out1_3
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  have hi0 : ((((cfg1.win 3).blk t).view.emb (ix2 p q) : S50000x128.Idx) 0).val = 5000 * t.val + p.val := by
    show win1_3.index t 0 * 5000 + 1 * p.val = _; rw [e30]; omega
  have hi1 : ((((cfg1.win 3).blk t).view.emb (ix2 p q) : S50000x128.Idx) 1).val = q.val := by
    show win1_3.index t 1 * 128 + 1 * q.val = _; rw [e31]; omega
  have hq : (((cfg1.win 3).blk t).view.emb (ix2 p q) : S50000x128.Idx) 1 = q := Fin.ext hi1
  show k1_pay1 (iblk1 V c 0 t) (iblk1 V c 1 t) (iblk1 V c 2 t) (ix2 p q) = (Cert.Gcn.preRelu (fun j => (V c main_v47 : S1x128.Idx → EReal) (ix2 0 (j 0))) (V c main_v46 : S50000x128.Idx → EReal) (V c main_v33_1 : S50000x128.Idx → EReal) : S50000x128.Idx → EReal) (((cfg1.win 3).blk t).view.emb (ix2 p q))
  refine (k1_pay1_apply _ _ _ p q).trans ?_
  unfold Cert.Gcn.preRelu Cert.Gcn.pre
  rw [iblk1_0_apply V c t p q _ hi0 hi1, iblk1_1_apply V c t p q _ hi0 hi1, iblk1_2_apply V c t q]
  show _ = FloatOps.maximumf (F := Ideal) (φ := .f32) (FloatOps.addf (F := Ideal) (φ := .f32) (FloatOps.addf (F := Ideal) (φ := .f32) (_) (_)) ((V c main_v47 : S1x128.Idx → EReal) (ix2 0 ((((cfg1.win 3).blk t).view.emb (ix2 p q) : S50000x128.Idx) 1)))) (FloatOps.ofBits (F := Ideal) .f32 0x00000000#32)
  rw [hq]

/-- The ten row blocks tile the result array: row r lies in block r / 5000. -/
theorem cover1_3 (i : S50000x128.Idx) : ∃ t : Fin cfg1.N, (cfg1.win 3).flush t = true ∧ i ∈ ((cfg1.win 3).blk t).view.set := by
  have hN : cfg1.N = 10 := N_1
  have hi0 : (i 0).val < 50000 := (i 0).isLt
  have hi1 : (i 1).val < 128 := (i 1).isLt
  let t : Fin cfg1.N := ⟨(i 0).val / 5000, by rw [hN]; omega⟩
  have ht : t.val = (i 0).val / 5000 := rfl
  obtain ⟨-, -, -, -, -, -, e30, e31⟩ := idx_facts1 t
  refine ⟨t, flush1_3 t, ?_⟩
  show i ∈ ((View.whole main_v48).slice (win1_3.rect t)).set
  rw [View.set_slice_whole, Rect.mem_set_unit]
  intro a
  match a with
  | ⟨0, _⟩ => show win1_3.index t 0 * 5000 ≤ (i 0).val ∧ (i 0).val < win1_3.index t 0 * 5000 + 5000; rw [e30, ht]; omega
  | ⟨1, _⟩ => show win1_3.index t 1 * 128 ≤ (i 1).val ∧ (i 1).val < win1_3.index t 1 * 128 + 128; rw [e31]; omega

/-- The result array after the call, as one function of the three arrays the call found. -/
theorem comb1 (c : Dev nD) : (dat1 V c).arrAt 3 cfg1.N = (Cert.Gcn.preRelu (fun j => (V c main_v47 : S1x128.Idx → EReal) (ix2 0 (j 0))) (V c main_v46 : S50000x128.Idx → EReal) (V c main_v33_1 : S50000x128.Idx → EReal) : S50000x128.Idx → EReal) :=
  (dat1 V c).arrAt_eq_of_cover 3 _ (fun t _ => flushed1_3_eq V c t) (cover1_3)

end Cert.KernelIdeal.Layers

end
-- ==== Proof.KReg2.lean ====
/-
  The second product call: the first layer's output times a weight matrix, and that product scaled row by row.

  The grid has ten points; point t holds rows 5000 t … 5000 t + 4999 of the left array and of the column of
  row scales, and the whole weight matrix. It writes rows 5000 t … of two result arrays: entry (r, c) of the
  first is the sum over k of left (r, k) * weight (k, c) (the narrowing to the short format is the identity
  on extended reals and the accumulator starts at zero), and entry (r, c) of the second is that sum times
  the scale of row r. The ten row blocks tile the arrays, so each result array is one function of the
  arrays the call found.
-/
import proofs.«102909_j69947837382767_1_alg».proof.Proof.Gen.KernelIdeal.Frame
import proofs.«102909_j69947837382767_1_alg».proof.Proof.LibPlainDot
import proofs.«102909_j69947837382767_1_alg».proof.Proof.Spec
import proofs.«102909_j69947837382767_1_alg».proof.Proof.KHost
import Idealize.ShloMosaic.Lib.Pipeline.Value
import Idealize.ShloMosaic.Lib.ValueLayout

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Call 2: the product with a weight matrix, and the product scaled row by row -/

/-- The product payload at (p, q): the sum over k of the left block's (p, k) times the right block's (k, q). -/
theorem k2_pay1_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [shapeCast_self]
  exact Cert.PlainDot.matmul_zero_apply dot_S5000x128_S128x128_S5000x128_1_0_0_1_n_n rfl none _ _ p q

/-- The scaled payload at (p, q): that sum times the scale column's entry of row p. -/
theorem k2_pay2_apply (x0 : Vec Ideal S5000x128 .f32) (x1 : Vec Ideal S128x128 .f32) (x2 : Vec Ideal S5000x1 .f32) (p : Fin 5000) (q : Fin 128) :
    k2_pay2 x0 x1 x2 (ix2 p q) = FloatOps.mulf (F := Ideal) (φ := .f32) (∑ k : Fin 128, x0 (ix2 p k) * x1 (ix2 k q)) (x2 (ix2 p 0)) := by
  unfold k2_pay2
  simp only [shapeCast_self]
  show FloatOps.mulf (F := Ideal) (φ := .f32) (k2_pay1 x0 x1 (ix2 p q)) (broadcastTo S5000x128 x2 broadcasts_S5000x1_S5000x128 (ix2 p q)) = _
  rw [k2_pay1_apply, broadcastTo_apply x2 broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])]

/-- The printed index maps over the grid: the row-blocked windows sit at block (t, 0), the weight at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The left operand's block at point t is rows 5000 t … of its array. -/
theorem iblk2_0_apply (c : Dev nD) (t : Fin cfg2.N) (p : Fin 5000) (k : Fin 128) (i : S50000x128.Idx)
    (h0 : (i 0).val = 5000 * t.val + p.val) (h1 : (i 1).val = k.val) :
    (iblk2 V c 0 t : Vec Ideal S5000x128 .f32) (ix2 p k) = (V c main_v48 : S50000x128.Idx → EReal) i := by
  obtain ⟨e0, e1, -⟩ := idx_facts2 t
  unfold iblk2
  rw [View.read_apply]
  show V c main_v48 _ = V c main_v48 _
  congr 1
  funext a
  apply Fin.ext
  match a with
  | ⟨0, _⟩ => show win2_0.index t 0 * 5000 + 1 * p.val = (i 0).val; rw [e0, h0]; omega
  | ⟨1, _⟩ => show win2_0.index t 1 * 128 + 1 * k.val = (i 1).val; rw [e1, h1]; omega

/-- The weight's block at every point is the whole weight matrix. -/
theorem iblk2_1_apply (c : Dev nD) (t : Fin cfg2.N) (k : Fin 128) (q : Fin 128) :
    (iblk2 V c 1 t : Vec Ideal S128x128 .f32) (ix2 k q) = (V c main_arg4 : S128x128.Idx → EReal) (ix2 k q) := by
  obtain ⟨-, -, e0, e1, -⟩ := idx_facts2 t
  unfold iblk2
  rw [View.read_apply]
  show V c main_arg4 _ = V c main_arg4 _
  congr 1
  funext a
  apply Fin.ext
  match a with
  | ⟨0, _⟩ => show win2_1.index t 0 * 128 + 1 * k.val = k.val; rw [e0]; omega
  | ⟨1, _⟩ => show win2_1.index t 1 * 128 + 1 * q.val = q.val; rw [e1]; omega

/-- The scale column's block at point t is rows 5000 t … of the column. -/
theorem iblk2_2_apply (c : Dev nD) (t : Fin cfg2.N) (p : Fin 5000) (i : S50000x1.Idx)
    (h0 : (i 0).val = 5000 * t.val + p.val) :
    (iblk2 V c 2 t : Vec Ideal S5000x1 .f32) (ix2 p 0) = (V c main_v17 : S50000x1.Idx → EReal) i := by
  obtain ⟨-, -, -, -, e0, e1, -⟩ := idx_facts2 t
  unfold iblk2
  rw [View.read_apply]
  show V c main_v17 _ = V c main_v17 _
  congr 1
  funext a
  apply Fin.ext
  match a with
  | ⟨0, _⟩ => show win2_2.index t 0 * 5000 + 1 * p.val = (i 0).val; rw [e0, h0]; omega
  | ⟨1, _⟩ => show win2_2.index t 1 * 1 + 1 * 0 = (i 1).val; have := (i 1).isLt; rw [e1]; show 0 * 1 + 1 * 0 = (i 1).val; have h : (i 1).val < 1 := (i 1).isLt; omega

/-- What point t writes back through result window 3 is block t of one whole-array function. -/
theorem flushed2_3_eq (c : Dev nD) (t : Fin cfg2.N) :
    (dat2 V c).flushed 3 t = ((cfg2.win 3).blk t).view.read (Elt Ideal) (Cert.Gcn.lin (V c main_v48 : S50000x128.Idx → EReal) (V c main_arg4 : S128x128.Idx → EReal) : S50000x128.Idx → EReal) := by
  obtain ⟨-, -, -, -, -, -, e30, e31, e40, e41⟩ := idx_facts2 t
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2, View.ld_unit_zero (S := S5000x1) hz2]
  funext j
  obtain ⟨p, q, rfl⟩ : ∃ (p : Fin 5000) (q : Fin 128), j = ix2 p q := ⟨j 0, j 1, eq_ix2 j⟩
  have hi0 : ((((cfg2.win 3).blk t).view.emb (ix2 p q) : S50000x128.Idx) 0).val = 5000 * t.val + p.val := by
    show win2_3.index t 0 * 5000 + 1 * p.val = _; rw [e30]; omega
  have hq : (((cfg2.win 3).blk t).view.emb (ix2 p q) : S50000x128.Idx) 1 = q := by
    apply Fin.ext; show win2_3.index t 1 * 128 + 1 * q.val = _; rw [e31]; omega
  show k2_pay1 (iblk2 V c 0 t) (iblk2 V c 1 t) (ix2 p q) = (Cert.Gcn.lin (V c main_v48 : S50000x128.Idx → EReal) (V c main_arg4 : S128x128.Idx → EReal) : S50000x128.Idx → EReal) (((cfg2.win 3).blk t).view.emb (ix2 p q))
  refine (k2_pay1_apply _ _ p q).trans ?_
  unfold Cert.Gcn.lin
  refine Finset.sum_congr rfl fun k _ => ?_
  rw [iblk2_0_apply V c t p k (ix2 ((((cfg2.win 3).blk t).view.emb (ix2 p q) : S50000x128.Idx) 0) k) hi0 rfl, iblk2_1_apply V c t k q, hq]

/-- What point t writes back through result window 4 is block t of one whole-array function. -/
theorem flushed2_4_eq (c : Dev nD) (t : Fin cfg2.N) :
    (dat2 V c).flushed 4 t = ((cfg2.win 4).blk t).view.read (Elt Ideal) (Cert.Gcn.scaled (fun j => (V c main_v17 : S50000x1.Idx → EReal) (ix2 (j 0) 0)) (V c main_v48 : S50000x128.Idx → EReal) (V c main_arg4 : S128x128.Idx → EReal) : S50000x128.Idx → EReal) := by
  obtain ⟨-, -, -, -, -, -, e30, e31, e40, e41⟩ := idx_facts2 t
  show (cfg2.win 4).cut (grid2.coords t) ((dat2 V c).after 4 t) = _
  rw [after2_4]
  unfold out2_4
  rw [View.canon_unit_zero hz2]
  simp only [View.ld_unit_zero (S := S5000x128) hz2, View.ld_unit_zero (S := S128x128) hz2, View.ld_unit_zero (S := S5000x1) hz2]
  funext j
  obtain ⟨p, q, rfl⟩ : ∃ (p : Fin 5000) (q : Fin 128), j = ix2 p q := ⟨j 0, j 1, eq_ix2 j⟩
  have hi0 : ((((cfg2.win 4).blk t).view.emb (ix2 p q) : S50000x128.Idx) 0).val = 5000 * t.val + p.val := by
    show win2_4.index t 0 * 5000 + 1 * p.val = _; rw [e40]; omega
  have hq : (((cfg2.win 4).blk t).view.emb (ix2 p q) : S50000x128.Idx) 1 = q := by
    apply Fin.ext; show win2_4.index t 1 * 128 + 1 * q.val = _; rw [e41]; omega
  show k2_pay2 (iblk2 V c 0 t) (iblk2 V c 1 t) (iblk2 V c 2 t) (ix2 p q) = (Cert.Gcn.scaled (fun j => (V c main_v17 : S50000x1.Idx → EReal) (ix2 (j 0) 0)) (V c main_v48 : S50000x128.Idx → EReal) (V c main_arg4 : S128x128.Idx → EReal) : S50000x128.Idx → EReal) (((cfg2.win 4).blk t).view.emb (ix2 p q))
  refine (k2_pay2_apply _ _ _ p q).trans ?_
  unfold Cert.Gcn.scaled Cert.Gcn.lin
  rw [iblk2_2_apply V c t p (ix2 ((((cfg2.win 4).blk t).view.emb (ix2 p q) : S50000x128.Idx) 0) 0) hi0]
  refine congrArg (fun z => FloatOps.mulf (F := Ideal) (φ := .f32) z ((V c main_v17 : S50000x1.Idx → EReal) (ix2 ((((cfg2.win 4).blk t).view.emb (ix2 p q) : S50000x128.Idx) 0) 0))) ?_
  refine Finset.sum_congr rfl fun k _ => ?_
  rw [iblk2_0_apply V c t p k (ix2 ((((cfg2.win 4).blk t).view.emb (ix2 p q) : S50000x128.Idx) 0) k) hi0 rfl, iblk2_1_apply V c t k q, hq]

/-- The ten row blocks of result window 3 tile its array: row r lies in block r / 5000. -/
theorem cover2_3 (i : S50000x128.Idx) : ∃ t : Fin cfg2.N, (cfg2.win 3).flush t = true ∧ i ∈ ((cfg2.win 3).blk t).view.set := by
  have hN : cfg2.N = 10 := N_2
  have hi0 : (i 0).val < 50000 := (i 0).isLt
  have hi1 : (i 1).val < 128 := (i 1).isLt
  let t : Fin cfg2.N := ⟨(i 0).val / 5000, by rw [hN]; omega⟩
  have ht : t.val = (i 0).val / 5000 := rfl
  obtain ⟨-, -, -, -, -, -, e30, e31, e40, e41⟩ := idx_facts2 t
  refine ⟨t, flush2_3 t, ?_⟩
  show i ∈ ((View.whole main_v49_0).slice (win2_3.rect t)).set
  rw [View.set_slice_whole, Rect.mem_set_unit]
  intro a
  match a with
  | ⟨0, _⟩ => show win2_3.index t 0 * 5000 ≤ (i 0).val ∧ (i 0).val < win2_3.index t 0 * 5000 + 5000; rw [e30, ht]; omega
  | ⟨1, _⟩ => show win2_3.index t 1 * 128 ≤ (i 1).val ∧ (i 1).val < win2_3.index t 1 * 128 + 128; rw [e31]; omega

/-- The ten row blocks of result window 4 tile its array: row r lies in block r / 5000. -/
theorem cover2_4 (i : S50000x128.Idx) : ∃ t : Fin cfg2.N, (cfg2.win 4).flush t = true ∧ i ∈ ((cfg2.win 4).blk t).view.set := by
  have hN : cfg2.N = 10 := N_2
  have hi0 : (i 0).val < 50000 := (i 0).isLt
  have hi1 : (i 1).val < 128 := (i 1).isLt
  let t : Fin cfg2.N := ⟨(i 0).val / 5000, by rw [hN]; omega⟩
  have ht : t.val = (i 0).val / 5000 := rfl
  obtain ⟨-, -, -, -, -, -, e30, e31, e40, e41⟩ := idx_facts2 t
  refine ⟨t, flush2_4 t, ?_⟩
  show i ∈ ((View.whole main_v49_1).slice (win2_4.rect t)).set
  rw [View.set_slice_whole, Rect.mem_set_unit]
  intro a
  match a with
  | ⟨0, _⟩ => show win2_4.index t 0 * 5000 ≤ (i 0).val ∧ (i 0).val < win2_4.index t 0 * 5000 + 5000; rw [e40, ht]; omega
  | ⟨1, _⟩ => show win2_4.index t 1 * 128 ≤ (i 1).val ∧ (i 1).val < win2_4.index t 1 * 128 + 128; rw [e41]; omega

/-- The product array after the call: the matrix product of the two arrays the call found. -/
theorem prod2 (c : Dev nD) : (dat2 V c).arrAt 3 cfg2.N = (Cert.Gcn.lin (V c main_v48 : S50000x128.Idx → EReal) (V c main_arg4 : S128x128.Idx → EReal) : S50000x128.Idx → EReal) :=
  (dat2 V c).arrAt_eq_of_cover 3 _ (fun t _ => flushed2_3_eq V c t) (cover2_3)

/-- The scaled array after the call: the product with each row multiplied by that row's scale. -/
theorem scal2 (c : Dev nD) : (dat2 V c).arrAt 4 cfg2.N = (Cert.Gcn.scaled (fun j => (V c main_v17 : S50000x1.Idx → EReal) (ix2 (j 0) 0)) (V c main_v48 : S50000x128.Idx → EReal) (V c main_arg4 : S128x128.Idx → EReal) : S50000x128.Idx → EReal) :=
  (dat2 V c).arrAt_eq_of_cover 4 _ (fun t _ => flushed2_4_eq V c t) (cover2_4)

end Cert.KernelIdeal.Layers

end
-- ==== Proof.KReg3.lean ====
/-
  The second combining call: point t holds rows 5000 t … 5000 t + 4999 of the aggregated-neighbours array and
  of the scaled product, and the whole 1 × C bias row; it writes the same rows of the result, entry (r, c)
  being (aggregated (r, c) + scaled (r, c)) + bias (0, c), followed by the maximum with zero. The ten row
  blocks tile the result array, so it is one function of the three arrays the call found.
-/
import proofs.«102909_j69947837382767_1_alg».proof.Proof.Gen.KernelIdeal.Frame
import proofs.«102909_j69947837382767_1_alg».proof.Proof.Spec
import proofs.«102909_j69947837382767_1_alg».proof.Proof.KHost
import Idealize.ShloMosaic.Lib.Pipeline.Value
import Idealize.ShloMosaic.Lib.ValueLayout

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Call 3: aggregated neighbours plus the scaled self term plus the bias, then the maximum with zero -/

/-- The payload at (p, q), bracketed as the body computes it. -/
theorem k3_pay1_apply (x0 x1 : Vec Ideal S5000x128 .f32) (x2 : Vec Ideal S1x128 .f32) (p : Fin 5000) (q : Fin 128) :
    k3_pay1 x0 x1 x2 (ix2 p q) = FloatOps.maximumf (F := Ideal) (φ := .f32) (FloatOps.addf (F := Ideal) (φ := .f32) (FloatOps.addf (F := Ideal) (φ := .f32) (x0 (ix2 p q)) (x1 (ix2 p q))) (x2 (ix2 0 q))) (FloatOps.ofBits (F := Ideal) .f32 0x00000000#32) := by
  unfold k3_pay1
  simp only [shapeCast_self]
  show FloatOps.maximumf (F := Ideal) (φ := .f32) (FloatOps.addf (F := Ideal) (φ := .f32) (FloatOps.addf (F := Ideal) (φ := .f32) (x0 (ix2 p q)) (x1 (ix2 p q))) (broadcastTo S5000x128 x2 broadcasts_S1x128_S5000x128 (ix2 p q))) (FloatOps.ofBits (F := Ideal) .f32 0x00000000#32) = _
  rw [broadcastTo_apply x2 broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])]

/-- The printed index maps over the grid: the row-blocked windows sit at block (t, 0), the bias row at (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Window 0's block at point t is rows 5000 t … of its array. -/
theorem iblk3_0_apply (c : Dev nD) (t : Fin cfg3.N) (p : Fin 5000) (q : Fin 128) (i : S50000x128.Idx)
    (h0 : (i 0).val = 5000 * t.val + p.val) (h1 : (i 1).val = q.val) :
    (iblk3 V c 0 t : Vec Ideal S5000x128 .f32) (ix2 p q) = (V c main_v62 : S50000x128.Idx → EReal) i := by
  obtain ⟨e00, e01, e10, e11, -⟩ := idx_facts3 t
  unfold iblk3
  rw [View.read_apply]
  show V c main_v62 _ = V c main_v62 _
  congr 1
  funext a
  apply Fin.ext
  match a with
  | ⟨0, _⟩ => show win3_0.index t 0 * 5000 + 1 * p.val = (i 0).val; rw [e00, h0]; omega
  | ⟨1, _⟩ => show win3_0.index t 1 * 128 + 1 * q.val = (i 1).val; rw [e01, h1]; omega

/-- Window 1's block at point t is rows 5000 t … of its array. -/
theorem iblk3_1_apply (c : Dev nD) (t : Fin cfg3.N) (p : Fin 5000) (q : Fin 128) (i : S50000x128.Idx)
    (h0 : (i 0).val = 5000 * t.val + p.val) (h1 : (i 1).val = q.val) :
    (iblk3 V c 1 t : Vec Ideal S5000x128 .f32) (ix2 p q) = (V c main_v49_1 : S50000x128.Idx → EReal) i := by
  obtain ⟨e00, e01, e10, e11, -⟩ := idx_facts3 t
  unfold iblk3
  rw [View.read_apply]
  show V c main_v49_1 _ = V c main_v49_1 _
  congr 1
  funext a
  apply Fin.ext
  match a with
  | ⟨0, _⟩ => show win3_1.index t 0 * 5000 + 1 * p.val = (i 0).val; rw [e10, h0]; omega
  | ⟨1, _⟩ => show win3_1.index t 1 * 128 + 1 * q.val = (i 1).val; rw [e11, h1]; omega

/-- The bias row's block at every point is the whole row. -/
theorem iblk3_2_apply (c : Dev nD) (t : Fin cfg3.N) (q : Fin 128) :
    (iblk3 V c 2 t : Vec Ideal S1x128 .f32) (ix2 0 q) = (V c main_v63 : S1x128.Idx → EReal) (ix2 0 q) := by
  obtain ⟨-, -, -, -, e0, e1, -⟩ := idx_facts3 t
  unfold iblk3
  rw [View.read_apply]
  show V c main_v63 _ = V c main_v63 _
  congr 1
  funext a
  apply Fin.ext
  match a with
  | ⟨0, _⟩ => show win3_2.index t 0 * 1 + 1 * 0 = 0; rw [e0]
  | ⟨1, _⟩ => show win3_2.index t 1 * 128 + 1 * q.val = q.val; rw [e1]; omega

/-- What point t writes back is block t of one whole-array function. -/
theorem flushed3_3_eq (c : Dev nD) (t : Fin cfg3.N) :
    (dat3 V c).flushed 3 t = ((cfg3.win 3).blk t).view.read (Elt Ideal) (Cert.Gcn.preRelu (fun j => (V c main_v63 : S1x128.Idx → EReal) (ix2 0 (j 0))) (V c main_v62 : S50000x128.Idx → EReal) (V c main_v49_1 : S50000x128.Idx → EReal) : S50000x128.Idx → EReal) := by
  obtain ⟨-, -, -, -, -, -, e30, e31⟩ := idx_facts3 t
  show (cfg3.win 3).cut (grid3.coords t) ((dat3 V c).after 3 t) = _
  rw [after3_3]
  unfold out3_3
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  have hi0 : ((((cfg3.win 3).blk t).view.emb (ix2 p q) : S50000x128.Idx) 0).val = 5000 * t.val + p.val := by
    show win3_3.index t 0 * 5000 + 1 * p.val = _; rw [e30]; omega
  have hi1 : ((((cfg3.win 3).blk t).view.emb (ix2 p q) : S50000x128.Idx) 1).val = q.val := by
    show win3_3.index t 1 * 128 + 1 * q.val = _; rw [e31]; omega
  have hq : (((cfg3.win 3).blk t).view.emb (ix2 p q) : S50000x128.Idx) 1 = q := Fin.ext hi1
  show k3_pay1 (iblk3 V c 0 t) (iblk3 V c 1 t) (iblk3 V c 2 t) (ix2 p q) = (Cert.Gcn.preRelu (fun j => (V c main_v63 : S1x128.Idx → EReal) (ix2 0 (j 0))) (V c main_v62 : S50000x128.Idx → EReal) (V c main_v49_1 : S50000x128.Idx → EReal) : S50000x128.Idx → EReal) (((cfg3.win 3).blk t).view.emb (ix2 p q))
  refine (k3_pay1_apply _ _ _ p q).trans ?_
  unfold Cert.Gcn.preRelu Cert.Gcn.pre
  rw [iblk3_0_apply V c t p q _ hi0 hi1, iblk3_1_apply V c t p q _ hi0 hi1, iblk3_2_apply V c t q]
  show _ = FloatOps.maximumf (F := Ideal) (φ := .f32) (FloatOps.addf (F := Ideal) (φ := .f32) (FloatOps.addf (F := Ideal) (φ := .f32) (_) (_)) ((V c main_v63 : S1x128.Idx → EReal) (ix2 0 ((((cfg3.win 3).blk t).view.emb (ix2 p q) : S50000x128.Idx) 1)))) (FloatOps.ofBits (F := Ideal) .f32 0x00000000#32)
  rw [hq]

/-- The ten row blocks tile the result array: row r lies in block r / 5000. -/
theorem cover3_3 (i : S50000x128.Idx) : ∃ t : Fin cfg3.N, (cfg3.win 3).flush t = true ∧ i ∈ ((cfg3.win 3).blk t).view.set := by
  have hN : cfg3.N = 10 := N_3
  have hi0 : (i 0).val < 50000 := (i 0).isLt
  have hi1 : (i 1).val < 128 := (i 1).isLt
  let t : Fin cfg3.N := ⟨(i 0).val / 5000, by rw [hN]; omega⟩
  have ht : t.val = (i 0).val / 5000 := rfl
  obtain ⟨-, -, -, -, -, -, e30, e31⟩ := idx_facts3 t
  refine ⟨t, flush3_3 t, ?_⟩
  show i ∈ ((View.whole main_v64).slice (win3_3.rect t)).set
  rw [View.set_slice_whole, Rect.mem_set_unit]
  intro a
  match a with
  | ⟨0, _⟩ => show win3_3.index t 0 * 5000 ≤ (i 0).val ∧ (i 0).val < win3_3.index t 0 * 5000 + 5000; rw [e30, ht]; omega
  | ⟨1, _⟩ => show win3_3.index t 1 * 128 ≤ (i 1).val ∧ (i 1).val < win3_3.index t 1 * 128 + 128; rw [e31]; omega

/-- The result array after the call, as one function of the three arrays the call found. -/
theorem comb3 (c : Dev nD) : (dat3 V c).arrAt 3 cfg3.N = (Cert.Gcn.preRelu (fun j => (V c main_v63 : S1x128.Idx → EReal) (ix2 0 (j 0))) (V c main_v62 : S50000x128.Idx → EReal) (V c main_v49_1 : S50000x128.Idx → EReal) : S50000x128.Idx → EReal) :=
  (dat3 V c).arrAt_eq_of_cover 3 _ (fun t _ => flushed3_3_eq V c t) (cover3_3)

end Cert.KernelIdeal.Layers

end
-- ==== Proof.KReg4.lean ====
/-
  The third product call: the second layer's output times a weight matrix, and that product scaled row by row.

  The grid has ten points; point t holds rows 5000 t … 5000 t + 4999 of the left array and of the column of
  row scales, and the whole weight matrix. It writes rows 5000 t … of two result arrays: entry (r, c) of the
  first is the sum over k of left (r, k) * weight (k, c) (the narrowing to the short format is the identity
  on extended reals and the accumulator starts at zero), and entry (r, c) of the second is that sum times
  the scale of row r. The ten row blocks tile the arrays, so each result array is one function of the
  arrays the call found.
-/
import proofs.«102909_j69947837382767_1_alg».proof.Proof.Gen.KernelIdeal.Frame
import proofs.«102909_j69947837382767_1_alg».proof.Proof.LibPlainDot
import proofs.«102909_j69947837382767_1_alg».proof.Proof.Spec
import proofs.«102909_j69947837382767_1_alg».proof.Proof.KHost
import Idealize.ShloMosaic.Lib.Pipeline.Value
import Idealize.ShloMosaic.Lib.ValueLayout

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Call 4: the product with a weight matrix, and the product scaled row by row -/

/-- The product payload at (p, q): the sum over k of the left block's (p, k) times the right block's (k, q). -/
theorem k4_pay1_apply (x0 : Vec Ideal S5000x128 .f32) (x1 : Vec Ideal S128x128 .f32) (p : Fin 5000) (q : Fin 128) :
    k4_pay1 x0 x1 (ix2 p q) = ∑ k : Fin 128, x0 (ix2 p k) * x1 (ix2 k q) := by
  unfold k4_pay1
  simp only [shapeCast_self]
  exact Cert.PlainDot.matmul_zero_apply dot_S5000x128_S128x128_S5000x128_1_0_0_1_n_n rfl none _ _ p q

/-- The scaled payload at (p, q): that sum times the scale column's entry of row p. -/
theorem k4_pay2_apply (x0 : Vec Ideal S5000x128 .f32) (x1 : Vec Ideal S128x128 .f32) (x2 : Vec Ideal S5000x1 .f32) (p : Fin 5000) (q : Fin 128) :
    k4_pay2 x0 x1 x2 (ix2 p q) = FloatOps.mulf (F := Ideal) (φ := .f32) (∑ k : Fin 128, x0 (ix2 p k) * x1 (ix2 k q)) (x2 (ix2 p 0)) := by
  unfold k4_pay2
  simp only [shapeCast_self]
  show FloatOps.mulf (F := Ideal) (φ := .f32) (k4_pay1 x0 x1 (ix2 p q)) (broadcastTo S5000x128 x2 broadcasts_S5000x1_S5000x128 (ix2 p q)) = _
  rw [k4_pay1_apply, broadcastTo_apply x2 broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])]

/-- The printed index maps over the grid: the row-blocked windows sit at block (t, 0), the weight at (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The left operand's block at point t is rows 5000 t … of its array. -/
theorem iblk4_0_apply (c : Dev nD) (t : Fin cfg4.N) (p : Fin 5000) (k : Fin 128) (i : S50000x128.Idx)
    (h0 : (i 0).val = 5000 * t.val + p.val) (h1 : (i 1).val = k.val) :
    (iblk4 V c 0 t : Vec Ideal S5000x128 .f32) (ix2 p k) = (V c main_v64 : S50000x128.Idx → EReal) i := by
  obtain ⟨e0, e1, -⟩ := idx_facts4 t
  unfold iblk4
  rw [View.read_apply]
  show V c main_v64 _ = V c main_v64 _
  congr 1
  funext a
  apply Fin.ext
  match a with
  | ⟨0, _⟩ => show win4_0.index t 0 * 5000 + 1 * p.val = (i 0).val; rw [e0, h0]; omega
  | ⟨1, _⟩ => show win4_0.index t 1 * 128 + 1 * k.val = (i 1).val; rw [e1, h1]; omega

/-- The weight's block at every point is the whole weight matrix. -/
theorem iblk4_1_apply (c : Dev nD) (t : Fin cfg4.N) (k : Fin 128) (q : Fin 128) :
    (iblk4 V c 1 t : Vec Ideal S128x128 .f32) (ix2 k q) = (V c main_arg6 : S128x128.Idx → EReal) (ix2 k q) := by
  obtain ⟨-, -, e0, e1, -⟩ := idx_facts4 t
  unfold iblk4
  rw [View.read_apply]
  show V c main_arg6 _ = V c main_arg6 _
  congr 1
  funext a
  apply Fin.ext
  match a with
  | ⟨0, _⟩ => show win4_1.index t 0 * 128 + 1 * k.val = k.val; rw [e0]; omega
  | ⟨1, _⟩ => show win4_1.index t 1 * 128 + 1 * q.val = q.val; rw [e1]; omega

/-- The scale column's block at point t is rows 5000 t … of the column. -/
theorem iblk4_2_apply (c : Dev nD) (t : Fin cfg4.N) (p : Fin 5000) (i : S50000x1.Idx)
    (h0 : (i 0).val = 5000 * t.val + p.val) :
    (iblk4 V c 2 t : Vec Ideal S5000x1 .f32) (ix2 p 0) = (V c main_v17 : S50000x1.Idx → EReal) i := by
  obtain ⟨-, -, -, -, e0, e1, -⟩ := idx_facts4 t
  unfold iblk4
  rw [View.read_apply]
  show V c main_v17 _ = V c main_v17 _
  congr 1
  funext a
  apply Fin.ext
  match a with
  | ⟨0, _⟩ => show win4_2.index t 0 * 5000 + 1 * p.val = (i 0).val; rw [e0, h0]; omega
  | ⟨1, _⟩ => show win4_2.index t 1 * 1 + 1 * 0 = (i 1).val; have := (i 1).isLt; rw [e1]; show 0 * 1 + 1 * 0 = (i 1).val; have h : (i 1).val < 1 := (i 1).isLt; omega

/-- What point t writes back through result window 3 is block t of one whole-array function. -/
theorem flushed4_3_eq (c : Dev nD) (t : Fin cfg4.N) :
    (dat4 V c).flushed 3 t = ((cfg4.win 3).blk t).view.read (Elt Ideal) (Cert.Gcn.lin (V c main_v64 : S50000x128.Idx → EReal) (V c main_arg6 : S128x128.Idx → EReal) : S50000x128.Idx → EReal) := by
  obtain ⟨-, -, -, -, -, -, e30, e31, e40, e41⟩ := idx_facts4 t
  show (cfg4.win 3).cut (grid4.coords t) ((dat4 V c).after 3 t) = _
  rw [after4_3]
  unfold out4_3
  rw [View.canon_unit_zero hz2]
  simp only [View.ld_unit_zero (S := S5000x128) hz2, View.ld_unit_zero (S := S128x128) hz2, View.ld_unit_zero (S := S5000x1) hz2]
  funext j
  obtain ⟨p, q, rfl⟩ : ∃ (p : Fin 5000) (q : Fin 128), j = ix2 p q := ⟨j 0, j 1, eq_ix2 j⟩
  have hi0 : ((((cfg4.win 3).blk t).view.emb (ix2 p q) : S50000x128.Idx) 0).val = 5000 * t.val + p.val := by
    show win4_3.index t 0 * 5000 + 1 * p.val = _; rw [e30]; omega
  have hq : (((cfg4.win 3).blk t).view.emb (ix2 p q) : S50000x128.Idx) 1 = q := by
    apply Fin.ext; show win4_3.index t 1 * 128 + 1 * q.val = _; rw [e31]; omega
  show k4_pay1 (iblk4 V c 0 t) (iblk4 V c 1 t) (ix2 p q) = (Cert.Gcn.lin (V c main_v64 : S50000x128.Idx → EReal) (V c main_arg6 : S128x128.Idx → EReal) : S50000x128.Idx → EReal) (((cfg4.win 3).blk t).view.emb (ix2 p q))
  refine (k4_pay1_apply _ _ p q).trans ?_
  unfold Cert.Gcn.lin
  refine Finset.sum_congr rfl fun k _ => ?_
  rw [iblk4_0_apply V c t p k (ix2 ((((cfg4.win 3).blk t).view.emb (ix2 p q) : S50000x128.Idx) 0) k) hi0 rfl, iblk4_1_apply V c t k q, hq]

/-- What point t writes back through result window 4 is block t of one whole-array function. -/
theorem flushed4_4_eq (c : Dev nD) (t : Fin cfg4.N) :
    (dat4 V c).flushed 4 t = ((cfg4.win 4).blk t).view.read (Elt Ideal) (Cert.Gcn.scaled (fun j => (V c main_v17 : S50000x1.Idx → EReal) (ix2 (j 0) 0)) (V c main_v64 : S50000x128.Idx → EReal) (V c main_arg6 : S128x128.Idx → EReal) : S50000x128.Idx → EReal) := by
  obtain ⟨-, -, -, -, -, -, e30, e31, e40, e41⟩ := idx_facts4 t
  show (cfg4.win 4).cut (grid4.coords t) ((dat4 V c).after 4 t) = _
  rw [after4_4]
  unfold out4_4
  rw [View.canon_unit_zero hz2]
  simp only [View.ld_unit_zero (S := S5000x128) hz2, View.ld_unit_zero (S := S128x128) hz2, View.ld_unit_zero (S := S5000x1) hz2]
  funext j
  obtain ⟨p, q, rfl⟩ : ∃ (p : Fin 5000) (q : Fin 128), j = ix2 p q := ⟨j 0, j 1, eq_ix2 j⟩
  have hi0 : ((((cfg4.win 4).blk t).view.emb (ix2 p q) : S50000x128.Idx) 0).val = 5000 * t.val + p.val := by
    show win4_4.index t 0 * 5000 + 1 * p.val = _; rw [e40]; omega
  have hq : (((cfg4.win 4).blk t).view.emb (ix2 p q) : S50000x128.Idx) 1 = q := by
    apply Fin.ext; show win4_4.index t 1 * 128 + 1 * q.val = _; rw [e41]; omega
  show k4_pay2 (iblk4 V c 0 t) (iblk4 V c 1 t) (iblk4 V c 2 t) (ix2 p q) = (Cert.Gcn.scaled (fun j => (V c main_v17 : S50000x1.Idx → EReal) (ix2 (j 0) 0)) (V c main_v64 : S50000x128.Idx → EReal) (V c main_arg6 : S128x128.Idx → EReal) : S50000x128.Idx → EReal) (((cfg4.win 4).blk t).view.emb (ix2 p q))
  refine (k4_pay2_apply _ _ _ p q).trans ?_
  unfold Cert.Gcn.scaled Cert.Gcn.lin
  rw [iblk4_2_apply V c t p (ix2 ((((cfg4.win 4).blk t).view.emb (ix2 p q) : S50000x128.Idx) 0) 0) hi0]
  refine congrArg (fun z => FloatOps.mulf (F := Ideal) (φ := .f32) z ((V c main_v17 : S50000x1.Idx → EReal) (ix2 ((((cfg4.win 4).blk t).view.emb (ix2 p q) : S50000x128.Idx) 0) 0))) ?_
  refine Finset.sum_congr rfl fun k _ => ?_
  rw [iblk4_0_apply V c t p k (ix2 ((((cfg4.win 4).blk t).view.emb (ix2 p q) : S50000x128.Idx) 0) k) hi0 rfl, iblk4_1_apply V c t k q, hq]

/-- The ten row blocks of result window 3 tile its array: row r lies in block r / 5000. -/
theorem cover4_3 (i : S50000x128.Idx) : ∃ t : Fin cfg4.N, (cfg4.win 3).flush t = true ∧ i ∈ ((cfg4.win 3).blk t).view.set := by
  have hN : cfg4.N = 10 := N_4
  have hi0 : (i 0).val < 50000 := (i 0).isLt
  have hi1 : (i 1).val < 128 := (i 1).isLt
  let t : Fin cfg4.N := ⟨(i 0).val / 5000, by rw [hN]; omega⟩
  have ht : t.val = (i 0).val / 5000 := rfl
  obtain ⟨-, -, -, -, -, -, e30, e31, e40, e41⟩ := idx_facts4 t
  refine ⟨t, flush4_3 t, ?_⟩
  show i ∈ ((View.whole main_v65_0).slice (win4_3.rect t)).set
  rw [View.set_slice_whole, Rect.mem_set_unit]
  intro a
  match a with
  | ⟨0, _⟩ => show win4_3.index t 0 * 5000 ≤ (i 0).val ∧ (i 0).val < win4_3.index t 0 * 5000 + 5000; rw [e30, ht]; omega
  | ⟨1, _⟩ => show win4_3.index t 1 * 128 ≤ (i 1).val ∧ (i 1).val < win4_3.index t 1 * 128 + 128; rw [e31]; omega

/-- The ten row blocks of result window 4 tile its array: row r lies in block r / 5000. -/
theorem cover4_4 (i : S50000x128.Idx) : ∃ t : Fin cfg4.N, (cfg4.win 4).flush t = true ∧ i ∈ ((cfg4.win 4).blk t).view.set := by
  have hN : cfg4.N = 10 := N_4
  have hi0 : (i 0).val < 50000 := (i 0).isLt
  have hi1 : (i 1).val < 128 := (i 1).isLt
  let t : Fin cfg4.N := ⟨(i 0).val / 5000, by rw [hN]; omega⟩
  have ht : t.val = (i 0).val / 5000 := rfl
  obtain ⟨-, -, -, -, -, -, e30, e31, e40, e41⟩ := idx_facts4 t
  refine ⟨t, flush4_4 t, ?_⟩
  show i ∈ ((View.whole main_v65_1).slice (win4_4.rect t)).set
  rw [View.set_slice_whole, Rect.mem_set_unit]
  intro a
  match a with
  | ⟨0, _⟩ => show win4_4.index t 0 * 5000 ≤ (i 0).val ∧ (i 0).val < win4_4.index t 0 * 5000 + 5000; rw [e40, ht]; omega
  | ⟨1, _⟩ => show win4_4.index t 1 * 128 ≤ (i 1).val ∧ (i 1).val < win4_4.index t 1 * 128 + 128; rw [e41]; omega

/-- The product array after the call: the matrix product of the two arrays the call found. -/
theorem prod4 (c : Dev nD) : (dat4 V c).arrAt 3 cfg4.N = (Cert.Gcn.lin (V c main_v64 : S50000x128.Idx → EReal) (V c main_arg6 : S128x128.Idx → EReal) : S50000x128.Idx → EReal) :=
  (dat4 V c).arrAt_eq_of_cover 3 _ (fun t _ => flushed4_3_eq V c t) (cover4_3)

/-- The scaled array after the call: the product with each row multiplied by that row's scale. -/
theorem scal4 (c : Dev nD) : (dat4 V c).arrAt 4 cfg4.N = (Cert.Gcn.scaled (fun j => (V c main_v17 : S50000x1.Idx → EReal) (ix2 (j 0) 0)) (V c main_v64 : S50000x128.Idx → EReal) (V c main_arg6 : S128x128.Idx → EReal) : S50000x128.Idx → EReal) :=
  (dat4 V c).arrAt_eq_of_cover 4 _ (fun t _ => flushed4_4_eq V c t) (cover4_4)

end Cert.KernelIdeal.Layers

end
-- ==== Proof.KReg5.lean ====
/-
  The third combining call: point t holds rows 5000 t … 5000 t + 4999 of the aggregated-neighbours array and
  of the scaled product, and the whole 1 × C bias row; it writes the same rows of the result, entry (r, c)
  being (aggregated (r, c) + scaled (r, c)) + bias (0, c), followed by the maximum with zero. The ten row
  blocks tile the result array, so it is one function of the three arrays the call found.
-/
import proofs.«102909_j69947837382767_1_alg».proof.Proof.Gen.KernelIdeal.Frame
import proofs.«102909_j69947837382767_1_alg».proof.Proof.Spec
import proofs.«102909_j69947837382767_1_alg».proof.Proof.KHost
import Idealize.ShloMosaic.Lib.Pipeline.Value
import Idealize.ShloMosaic.Lib.ValueLayout

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Call 5: aggregated neighbours plus the scaled self term plus the bias, then the maximum with zero -/

/-- The payload at (p, q), bracketed as the body computes it. -/
theorem k5_pay1_apply (x0 x1 : Vec Ideal S5000x128 .f32) (x2 : Vec Ideal S1x128 .f32) (p : Fin 5000) (q : Fin 128) :
    k5_pay1 x0 x1 x2 (ix2 p q) = FloatOps.maximumf (F := Ideal) (φ := .f32) (FloatOps.addf (F := Ideal) (φ := .f32) (FloatOps.addf (F := Ideal) (φ := .f32) (x0 (ix2 p q)) (x1 (ix2 p q))) (x2 (ix2 0 q))) (FloatOps.ofBits (F := Ideal) .f32 0x00000000#32) := by
  unfold k5_pay1
  simp only [shapeCast_self]
  show FloatOps.maximumf (F := Ideal) (φ := .f32) (FloatOps.addf (F := Ideal) (φ := .f32) (FloatOps.addf (F := Ideal) (φ := .f32) (x0 (ix2 p q)) (x1 (ix2 p q))) (broadcastTo S5000x128 x2 broadcasts_S1x128_S5000x128 (ix2 p q))) (FloatOps.ofBits (F := Ideal) .f32 0x00000000#32) = _
  rw [broadcastTo_apply x2 broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])]

/-- The printed index maps over the grid: the row-blocked windows sit at block (t, 0), the bias row at (0, 0). -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Window 0's block at point t is rows 5000 t … of its array. -/
theorem iblk5_0_apply (c : Dev nD) (t : Fin cfg5.N) (p : Fin 5000) (q : Fin 128) (i : S50000x128.Idx)
    (h0 : (i 0).val = 5000 * t.val + p.val) (h1 : (i 1).val = q.val) :
    (iblk5 V c 0 t : Vec Ideal S5000x128 .f32) (ix2 p q) = (V c main_v78 : S50000x128.Idx → EReal) i := by
  obtain ⟨e00, e01, e10, e11, -⟩ := idx_facts5 t
  unfold iblk5
  rw [View.read_apply]
  show V c main_v78 _ = V c main_v78 _
  congr 1
  funext a
  apply Fin.ext
  match a with
  | ⟨0, _⟩ => show win5_0.index t 0 * 5000 + 1 * p.val = (i 0).val; rw [e00, h0]; omega
  | ⟨1, _⟩ => show win5_0.index t 1 * 128 + 1 * q.val = (i 1).val; rw [e01, h1]; omega

/-- Window 1's block at point t is rows 5000 t … of its array. -/
theorem iblk5_1_apply (c : Dev nD) (t : Fin cfg5.N) (p : Fin 5000) (q : Fin 128) (i : S50000x128.Idx)
    (h0 : (i 0).val = 5000 * t.val + p.val) (h1 : (i 1).val = q.val) :
    (iblk5 V c 1 t : Vec Ideal S5000x128 .f32) (ix2 p q) = (V c main_v65_1 : S50000x128.Idx → EReal) i := by
  obtain ⟨e00, e01, e10, e11, -⟩ := idx_facts5 t
  unfold iblk5
  rw [View.read_apply]
  show V c main_v65_1 _ = V c main_v65_1 _
  congr 1
  funext a
  apply Fin.ext
  match a with
  | ⟨0, _⟩ => show win5_1.index t 0 * 5000 + 1 * p.val = (i 0).val; rw [e10, h0]; omega
  | ⟨1, _⟩ => show win5_1.index t 1 * 128 + 1 * q.val = (i 1).val; rw [e11, h1]; omega

/-- The bias row's block at every point is the whole row. -/
theorem iblk5_2_apply (c : Dev nD) (t : Fin cfg5.N) (q : Fin 128) :
    (iblk5 V c 2 t : Vec Ideal S1x128 .f32) (ix2 0 q) = (V c main_v79 : S1x128.Idx → EReal) (ix2 0 q) := by
  obtain ⟨-, -, -, -, e0, e1, -⟩ := idx_facts5 t
  unfold iblk5
  rw [View.read_apply]
  show V c main_v79 _ = V c main_v79 _
  congr 1
  funext a
  apply Fin.ext
  match a with
  | ⟨0, _⟩ => show win5_2.index t 0 * 1 + 1 * 0 = 0; rw [e0]
  | ⟨1, _⟩ => show win5_2.index t 1 * 128 + 1 * q.val = q.val; rw [e1]; omega

/-- What point t writes back is block t of one whole-array function. -/
theorem flushed5_3_eq (c : Dev nD) (t : Fin cfg5.N) :
    (dat5 V c).flushed 3 t = ((cfg5.win 3).blk t).view.read (Elt Ideal) (Cert.Gcn.preRelu (fun j => (V c main_v79 : S1x128.Idx → EReal) (ix2 0 (j 0))) (V c main_v78 : S50000x128.Idx → EReal) (V c main_v65_1 : S50000x128.Idx → EReal) : S50000x128.Idx → EReal) := by
  obtain ⟨-, -, -, -, -, -, e30, e31⟩ := idx_facts5 t
  show (cfg5.win 3).cut (grid5.coords t) ((dat5 V c).after 3 t) = _
  rw [after5_3]
  unfold out5_3
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  have hi0 : ((((cfg5.win 3).blk t).view.emb (ix2 p q) : S50000x128.Idx) 0).val = 5000 * t.val + p.val := by
    show win5_3.index t 0 * 5000 + 1 * p.val = _; rw [e30]; omega
  have hi1 : ((((cfg5.win 3).blk t).view.emb (ix2 p q) : S50000x128.Idx) 1).val = q.val := by
    show win5_3.index t 1 * 128 + 1 * q.val = _; rw [e31]; omega
  have hq : (((cfg5.win 3).blk t).view.emb (ix2 p q) : S50000x128.Idx) 1 = q := Fin.ext hi1
  show k5_pay1 (iblk5 V c 0 t) (iblk5 V c 1 t) (iblk5 V c 2 t) (ix2 p q) = (Cert.Gcn.preRelu (fun j => (V c main_v79 : S1x128.Idx → EReal) (ix2 0 (j 0))) (V c main_v78 : S50000x128.Idx → EReal) (V c main_v65_1 : S50000x128.Idx → EReal) : S50000x128.Idx → EReal) (((cfg5.win 3).blk t).view.emb (ix2 p q))
  refine (k5_pay1_apply _ _ _ p q).trans ?_
  unfold Cert.Gcn.preRelu Cert.Gcn.pre
  rw [iblk5_0_apply V c t p q _ hi0 hi1, iblk5_1_apply V c t p q _ hi0 hi1, iblk5_2_apply V c t q]
  show _ = FloatOps.maximumf (F := Ideal) (φ := .f32) (FloatOps.addf (F := Ideal) (φ := .f32) (FloatOps.addf (F := Ideal) (φ := .f32) (_) (_)) ((V c main_v79 : S1x128.Idx → EReal) (ix2 0 ((((cfg5.win 3).blk t).view.emb (ix2 p q) : S50000x128.Idx) 1)))) (FloatOps.ofBits (F := Ideal) .f32 0x00000000#32)
  rw [hq]

/-- The ten row blocks tile the result array: row r lies in block r / 5000. -/
theorem cover5_3 (i : S50000x128.Idx) : ∃ t : Fin cfg5.N, (cfg5.win 3).flush t = true ∧ i ∈ ((cfg5.win 3).blk t).view.set := by
  have hN : cfg5.N = 10 := N_5
  have hi0 : (i 0).val < 50000 := (i 0).isLt
  have hi1 : (i 1).val < 128 := (i 1).isLt
  let t : Fin cfg5.N := ⟨(i 0).val / 5000, by rw [hN]; omega⟩
  have ht : t.val = (i 0).val / 5000 := rfl
  obtain ⟨-, -, -, -, -, -, e30, e31⟩ := idx_facts5 t
  refine ⟨t, flush5_3 t, ?_⟩
  show i ∈ ((View.whole main_v80).slice (win5_3.rect t)).set
  rw [View.set_slice_whole, Rect.mem_set_unit]
  intro a
  match a with
  | ⟨0, _⟩ => show win5_3.index t 0 * 5000 ≤ (i 0).val ∧ (i 0).val < win5_3.index t 0 * 5000 + 5000; rw [e30, ht]; omega
  | ⟨1, _⟩ => show win5_3.index t 1 * 128 ≤ (i 1).val ∧ (i 1).val < win5_3.index t 1 * 128 + 128; rw [e31]; omega

/-- The result array after the call, as one function of the three arrays the call found. -/
theorem comb5 (c : Dev nD) : (dat5 V c).arrAt 3 cfg5.N = (Cert.Gcn.preRelu (fun j => (V c main_v79 : S1x128.Idx → EReal) (ix2 0 (j 0))) (V c main_v78 : S50000x128.Idx → EReal) (V c main_v65_1 : S50000x128.Idx → EReal) : S50000x128.Idx → EReal) :=
  (dat5 V c).arrAt_eq_of_cover 3 _ (fun t _ => flushed5_3_eq V c t) (cover5_3)

end Cert.KernelIdeal.Layers

end
-- ==== Proof.KReg6.lean ====
/-
  The fourth product call: the third layer's output times a weight matrix, and that product scaled row by row.

  The grid has ten points; point t holds rows 5000 t … 5000 t + 4999 of the left array and of the column of
  row scales, and the whole weight matrix. It writes rows 5000 t … of two result arrays: entry (r, c) of the
  first is the sum over k of left (r, k) * weight (k, c) (the narrowing to the short format is the identity
  on extended reals and the accumulator starts at zero), and entry (r, c) of the second is that sum times
  the scale of row r. The ten row blocks tile the arrays, so each result array is one function of the
  arrays the call found.
-/
import proofs.«102909_j69947837382767_1_alg».proof.Proof.Gen.KernelIdeal.Frame
import proofs.«102909_j69947837382767_1_alg».proof.Proof.LibPlainDot
import proofs.«102909_j69947837382767_1_alg».proof.Proof.Spec
import proofs.«102909_j69947837382767_1_alg».proof.Proof.KHost
import Idealize.ShloMosaic.Lib.Pipeline.Value
import Idealize.ShloMosaic.Lib.ValueLayout

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Call 6: the product with a weight matrix, and the product scaled row by row -/

/-- The product payload at (p, q): the sum over k of the left block's (p, k) times the right block's (k, q). -/
theorem k6_pay1_apply (x0 : Vec Ideal S5000x128 .f32) (x1 : Vec Ideal S128x64 .f32) (p : Fin 5000) (q : Fin 64) :
    k6_pay1 x0 x1 (ix2 p q) = ∑ k : Fin 128, x0 (ix2 p k) * x1 (ix2 k q) := by
  unfold k6_pay1
  simp only [shapeCast_self]
  exact Cert.PlainDot.matmul_zero_apply dot_S5000x128_S128x64_S5000x64_1_0_0_1_n_n rfl none _ _ p q

/-- The scaled payload at (p, q): that sum times the scale column's entry of row p. -/
theorem k6_pay2_apply (x0 : Vec Ideal S5000x128 .f32) (x1 : Vec Ideal S128x64 .f32) (x2 : Vec Ideal S5000x1 .f32) (p : Fin 5000) (q : Fin 64) :
    k6_pay2 x0 x1 x2 (ix2 p q) = FloatOps.mulf (F := Ideal) (φ := .f32) (∑ k : Fin 128, x0 (ix2 p k) * x1 (ix2 k q)) (x2 (ix2 p 0)) := by
  unfold k6_pay2
  simp only [shapeCast_self]
  show FloatOps.mulf (F := Ideal) (φ := .f32) (k6_pay1 x0 x1 (ix2 p q)) (broadcastTo S5000x64 x2 broadcasts_S5000x1_S5000x64 (ix2 p q)) = _
  rw [k6_pay1_apply, broadcastTo_apply x2 broadcasts_S5000x1_S5000x64 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])]

/-- The printed index maps over the grid: the row-blocked windows sit at block (t, 0), the weight at (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The left operand's block at point t is rows 5000 t … of its array. -/
theorem iblk6_0_apply (c : Dev nD) (t : Fin cfg6.N) (p : Fin 5000) (k : Fin 128) (i : S50000x128.Idx)
    (h0 : (i 0).val = 5000 * t.val + p.val) (h1 : (i 1).val = k.val) :
    (iblk6 V c 0 t : Vec Ideal S5000x128 .f32) (ix2 p k) = (V c main_v80 : S50000x128.Idx → EReal) i := by
  obtain ⟨e0, e1, -⟩ := idx_facts6 t
  unfold iblk6
  rw [View.read_apply]
  show V c main_v80 _ = V c main_v80 _
  congr 1
  funext a
  apply Fin.ext
  match a with
  | ⟨0, _⟩ => show win6_0.index t 0 * 5000 + 1 * p.val = (i 0).val; rw [e0, h0]; omega
  | ⟨1, _⟩ => show win6_0.index t 1 * 128 + 1 * k.val = (i 1).val; rw [e1, h1]; omega

/-- The weight's block at every point is the whole weight matrix. -/
theorem iblk6_1_apply (c : Dev nD) (t : Fin cfg6.N) (k : Fin 128) (q : Fin 64) :
    (iblk6 V c 1 t : Vec Ideal S128x64 .f32) (ix2 k q) = (V c main_arg8 : S128x64.Idx → EReal) (ix2 k q) := by
  obtain ⟨-, -, e0, e1, -⟩ := idx_facts6 t
  unfold iblk6
  rw [View.read_apply]
  show V c main_arg8 _ = V c main_arg8 _
  congr 1
  funext a
  apply Fin.ext
  match a with
  | ⟨0, _⟩ => show win6_1.index t 0 * 128 + 1 * k.val = k.val; rw [e0]; omega
  | ⟨1, _⟩ => show win6_1.index t 1 * 64 + 1 * q.val = q.val; rw [e1]; omega

/-- The scale column's block at point t is rows 5000 t … of the column. -/
theorem iblk6_2_apply (c : Dev nD) (t : Fin cfg6.N) (p : Fin 5000) (i : S50000x1.Idx)
    (h0 : (i 0).val = 5000 * t.val + p.val) :
    (iblk6 V c 2 t : Vec Ideal S5000x1 .f32) (ix2 p 0) = (V c main_v17 : S50000x1.Idx → EReal) i := by
  obtain ⟨-, -, -, -, e0, e1, -⟩ := idx_facts6 t
  unfold iblk6
  rw [View.read_apply]
  show V c main_v17 _ = V c main_v17 _
  congr 1
  funext a
  apply Fin.ext
  match a with
  | ⟨0, _⟩ => show win6_2.index t 0 * 5000 + 1 * p.val = (i 0).val; rw [e0, h0]; omega
  | ⟨1, _⟩ => show win6_2.index t 1 * 1 + 1 * 0 = (i 1).val; have := (i 1).isLt; rw [e1]; show 0 * 1 + 1 * 0 = (i 1).val; have h : (i 1).val < 1 := (i 1).isLt; omega

/-- What point t writes back through result window 3 is block t of one whole-array function. -/
theorem flushed6_3_eq (c : Dev nD) (t : Fin cfg6.N) :
    (dat6 V c).flushed 3 t = ((cfg6.win 3).blk t).view.read (Elt Ideal) (Cert.Gcn.lin (V c main_v80 : S50000x128.Idx → EReal) (V c main_arg8 : S128x64.Idx → EReal) : S50000x64.Idx → EReal) := by
  obtain ⟨-, -, -, -, -, -, e30, e31, e40, e41⟩ := idx_facts6 t
  show (cfg6.win 3).cut (grid6.coords t) ((dat6 V c).after 3 t) = _
  rw [after6_3]
  unfold out6_3
  rw [View.canon_unit_zero hz2]
  simp only [View.ld_unit_zero (S := S5000x128) hz2, View.ld_unit_zero (S := S128x64) hz2, View.ld_unit_zero (S := S5000x1) hz2]
  funext j
  obtain ⟨p, q, rfl⟩ : ∃ (p : Fin 5000) (q : Fin 64), j = ix2 p q := ⟨j 0, j 1, eq_ix2 j⟩
  have hi0 : ((((cfg6.win 3).blk t).view.emb (ix2 p q) : S50000x64.Idx) 0).val = 5000 * t.val + p.val := by
    show win6_3.index t 0 * 5000 + 1 * p.val = _; rw [e30]; omega
  have hq : (((cfg6.win 3).blk t).view.emb (ix2 p q) : S50000x64.Idx) 1 = q := by
    apply Fin.ext; show win6_3.index t 1 * 64 + 1 * q.val = _; rw [e31]; omega
  show k6_pay1 (iblk6 V c 0 t) (iblk6 V c 1 t) (ix2 p q) = (Cert.Gcn.lin (V c main_v80 : S50000x128.Idx → EReal) (V c main_arg8 : S128x64.Idx → EReal) : S50000x64.Idx → EReal) (((cfg6.win 3).blk t).view.emb (ix2 p q))
  refine (k6_pay1_apply _ _ p q).trans ?_
  unfold Cert.Gcn.lin
  refine Finset.sum_congr rfl fun k _ => ?_
  rw [iblk6_0_apply V c t p k (ix2 ((((cfg6.win 3).blk t).view.emb (ix2 p q) : S50000x64.Idx) 0) k) hi0 rfl, iblk6_1_apply V c t k q, hq]

/-- What point t writes back through result window 4 is block t of one whole-array function. -/
theorem flushed6_4_eq (c : Dev nD) (t : Fin cfg6.N) :
    (dat6 V c).flushed 4 t = ((cfg6.win 4).blk t).view.read (Elt Ideal) (Cert.Gcn.scaled (fun j => (V c main_v17 : S50000x1.Idx → EReal) (ix2 (j 0) 0)) (V c main_v80 : S50000x128.Idx → EReal) (V c main_arg8 : S128x64.Idx → EReal) : S50000x64.Idx → EReal) := by
  obtain ⟨-, -, -, -, -, -, e30, e31, e40, e41⟩ := idx_facts6 t
  show (cfg6.win 4).cut (grid6.coords t) ((dat6 V c).after 4 t) = _
  rw [after6_4]
  unfold out6_4
  rw [View.canon_unit_zero hz2]
  simp only [View.ld_unit_zero (S := S5000x128) hz2, View.ld_unit_zero (S := S128x64) hz2, View.ld_unit_zero (S := S5000x1) hz2]
  funext j
  obtain ⟨p, q, rfl⟩ : ∃ (p : Fin 5000) (q : Fin 64), j = ix2 p q := ⟨j 0, j 1, eq_ix2 j⟩
  have hi0 : ((((cfg6.win 4).blk t).view.emb (ix2 p q) : S50000x64.Idx) 0).val = 5000 * t.val + p.val := by
    show win6_4.index t 0 * 5000 + 1 * p.val = _; rw [e40]; omega
  have hq : (((cfg6.win 4).blk t).view.emb (ix2 p q) : S50000x64.Idx) 1 = q := by
    apply Fin.ext; show win6_4.index t 1 * 64 + 1 * q.val = _; rw [e41]; omega
  show k6_pay2 (iblk6 V c 0 t) (iblk6 V c 1 t) (iblk6 V c 2 t) (ix2 p q) = (Cert.Gcn.scaled (fun j => (V c main_v17 : S50000x1.Idx → EReal) (ix2 (j 0) 0)) (V c main_v80 : S50000x128.Idx → EReal) (V c main_arg8 : S128x64.Idx → EReal) : S50000x64.Idx → EReal) (((cfg6.win 4).blk t).view.emb (ix2 p q))
  refine (k6_pay2_apply _ _ _ p q).trans ?_
  unfold Cert.Gcn.scaled Cert.Gcn.lin
  rw [iblk6_2_apply V c t p (ix2 ((((cfg6.win 4).blk t).view.emb (ix2 p q) : S50000x64.Idx) 0) 0) hi0]
  refine congrArg (fun z => FloatOps.mulf (F := Ideal) (φ := .f32) z ((V c main_v17 : S50000x1.Idx → EReal) (ix2 ((((cfg6.win 4).blk t).view.emb (ix2 p q) : S50000x64.Idx) 0) 0))) ?_
  refine Finset.sum_congr rfl fun k _ => ?_
  rw [iblk6_0_apply V c t p k (ix2 ((((cfg6.win 4).blk t).view.emb (ix2 p q) : S50000x64.Idx) 0) k) hi0 rfl, iblk6_1_apply V c t k q, hq]

/-- The ten row blocks of result window 3 tile its array: row r lies in block r / 5000. -/
theorem cover6_3 (i : S50000x64.Idx) : ∃ t : Fin cfg6.N, (cfg6.win 3).flush t = true ∧ i ∈ ((cfg6.win 3).blk t).view.set := by
  have hN : cfg6.N = 10 := N_6
  have hi0 : (i 0).val < 50000 := (i 0).isLt
  have hi1 : (i 1).val < 64 := (i 1).isLt
  let t : Fin cfg6.N := ⟨(i 0).val / 5000, by rw [hN]; omega⟩
  have ht : t.val = (i 0).val / 5000 := rfl
  obtain ⟨-, -, -, -, -, -, e30, e31, e40, e41⟩ := idx_facts6 t
  refine ⟨t, flush6_3 t, ?_⟩
  show i ∈ ((View.whole main_v81_0).slice (win6_3.rect t)).set
  rw [View.set_slice_whole, Rect.mem_set_unit]
  intro a
  match a with
  | ⟨0, _⟩ => show win6_3.index t 0 * 5000 ≤ (i 0).val ∧ (i 0).val < win6_3.index t 0 * 5000 + 5000; rw [e30, ht]; omega
  | ⟨1, _⟩ => show win6_3.index t 1 * 64 ≤ (i 1).val ∧ (i 1).val < win6_3.index t 1 * 64 + 64; rw [e31]; omega

/-- The ten row blocks of result window 4 tile its array: row r lies in block r / 5000. -/
theorem cover6_4 (i : S50000x64.Idx) : ∃ t : Fin cfg6.N, (cfg6.win 4).flush t = true ∧ i ∈ ((cfg6.win 4).blk t).view.set := by
  have hN : cfg6.N = 10 := N_6
  have hi0 : (i 0).val < 50000 := (i 0).isLt
  have hi1 : (i 1).val < 64 := (i 1).isLt
  let t : Fin cfg6.N := ⟨(i 0).val / 5000, by rw [hN]; omega⟩
  have ht : t.val = (i 0).val / 5000 := rfl
  obtain ⟨-, -, -, -, -, -, e30, e31, e40, e41⟩ := idx_facts6 t
  refine ⟨t, flush6_4 t, ?_⟩
  show i ∈ ((View.whole main_v81_1).slice (win6_4.rect t)).set
  rw [View.set_slice_whole, Rect.mem_set_unit]
  intro a
  match a with
  | ⟨0, _⟩ => show win6_4.index t 0 * 5000 ≤ (i 0).val ∧ (i 0).val < win6_4.index t 0 * 5000 + 5000; rw [e40, ht]; omega
  | ⟨1, _⟩ => show win6_4.index t 1 * 64 ≤ (i 1).val ∧ (i 1).val < win6_4.index t 1 * 64 + 64; rw [e41]; omega

/-- The product array after the call: the matrix product of the two arrays the call found. -/
theorem prod6 (c : Dev nD) : (dat6 V c).arrAt 3 cfg6.N = (Cert.Gcn.lin (V c main_v80 : S50000x128.Idx → EReal) (V c main_arg8 : S128x64.Idx → EReal) : S50000x64.Idx → EReal) :=
  (dat6 V c).arrAt_eq_of_cover 3 _ (fun t _ => flushed6_3_eq V c t) (cover6_3)

/-- The scaled array after the call: the product with each row multiplied by that row's scale. -/
theorem scal6 (c : Dev nD) : (dat6 V c).arrAt 4 cfg6.N = (Cert.Gcn.scaled (fun j => (V c main_v17 : S50000x1.Idx → EReal) (ix2 (j 0) 0)) (V c main_v80 : S50000x128.Idx → EReal) (V c main_arg8 : S128x64.Idx → EReal) : S50000x64.Idx → EReal) :=
  (dat6 V c).arrAt_eq_of_cover 4 _ (fun t _ => flushed6_4_eq V c t) (cover6_4)

end Cert.KernelIdeal.Layers

end
-- ==== Proof.KReg7.lean ====
/-
  The fourth combining call: point t holds rows 5000 t … 5000 t + 4999 of the aggregated-neighbours array and
  of the scaled product, and the whole 1 × C bias row; it writes the same rows of the result, entry (r, c)
  being (aggregated (r, c) + scaled (r, c)) + bias (0, c) (the last layer: no maximum). The ten row
  blocks tile the result array, so it is one function of the three arrays the call found.
-/
import proofs.«102909_j69947837382767_1_alg».proof.Proof.Gen.KernelIdeal.Frame
import proofs.«102909_j69947837382767_1_alg».proof.Proof.Spec
import proofs.«102909_j69947837382767_1_alg».proof.Proof.KHost
import Idealize.ShloMosaic.Lib.Pipeline.Value
import Idealize.ShloMosaic.Lib.ValueLayout

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Call 7: aggregated neighbours plus the scaled self term plus the bias -/

/-- The payload at (p, q), bracketed as the body computes it. -/
theorem k7_pay1_apply (x0 x1 : Vec Ideal S5000x64 .f32) (x2 : Vec Ideal S1x64 .f32) (p : Fin 5000) (q : Fin 64) :
    k7_pay1 x0 x1 x2 (ix2 p q) = FloatOps.addf (F := Ideal) (φ := .f32) (FloatOps.addf (F := Ideal) (φ := .f32) (x0 (ix2 p q)) (x1 (ix2 p q))) (x2 (ix2 0 q)) := by
  unfold k7_pay1
  simp only [shapeCast_self]
  show FloatOps.addf (F := Ideal) (φ := .f32) (FloatOps.addf (F := Ideal) (φ := .f32) (x0 (ix2 p q)) (x1 (ix2 p q))) (broadcastTo S5000x64 x2 broadcasts_S1x64_S5000x64 (ix2 p q)) = _
  rw [broadcastTo_apply x2 broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])]

/-- The printed index maps over the grid: the row-blocked windows sit at block (t, 0), the bias row at (0, 0). -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Window 0's block at point t is rows 5000 t … of its array. -/
theorem iblk7_0_apply (c : Dev nD) (t : Fin cfg7.N) (p : Fin 5000) (q : Fin 64) (i : S50000x64.Idx)
    (h0 : (i 0).val = 5000 * t.val + p.val) (h1 : (i 1).val = q.val) :
    (iblk7 V c 0 t : Vec Ideal S5000x64 .f32) (ix2 p q) = (V c main_v94 : S50000x64.Idx → EReal) i := by
  obtain ⟨e00, e01, e10, e11, -⟩ := idx_facts7 t
  unfold iblk7
  rw [View.read_apply]
  show V c main_v94 _ = V c main_v94 _
  congr 1
  funext a
  apply Fin.ext
  match a with
  | ⟨0, _⟩ => show win7_0.index t 0 * 5000 + 1 * p.val = (i 0).val; rw [e00, h0]; omega
  | ⟨1, _⟩ => show win7_0.index t 1 * 64 + 1 * q.val = (i 1).val; rw [e01, h1]; omega

/-- Window 1's block at point t is rows 5000 t … of its array. -/
theorem iblk7_1_apply (c : Dev nD) (t : Fin cfg7.N) (p : Fin 5000) (q : Fin 64) (i : S50000x64.Idx)
    (h0 : (i 0).val = 5000 * t.val + p.val) (h1 : (i 1).val = q.val) :
    (iblk7 V c 1 t : Vec Ideal S5000x64 .f32) (ix2 p q) = (V c main_v81_1 : S50000x64.Idx → EReal) i := by
  obtain ⟨e00, e01, e10, e11, -⟩ := idx_facts7 t
  unfold iblk7
  rw [View.read_apply]
  show V c main_v81_1 _ = V c main_v81_1 _
  congr 1
  funext a
  apply Fin.ext
  match a with
  | ⟨0, _⟩ => show win7_1.index t 0 * 5000 + 1 * p.val = (i 0).val; rw [e10, h0]; omega
  | ⟨1, _⟩ => show win7_1.index t 1 * 64 + 1 * q.val = (i 1).val; rw [e11, h1]; omega

/-- The bias row's block at every point is the whole row. -/
theorem iblk7_2_apply (c : Dev nD) (t : Fin cfg7.N) (q : Fin 64) :
    (iblk7 V c 2 t : Vec Ideal S1x64 .f32) (ix2 0 q) = (V c main_v95 : S1x64.Idx → EReal) (ix2 0 q) := by
  obtain ⟨-, -, -, -, e0, e1, -⟩ := idx_facts7 t
  unfold iblk7
  rw [View.read_apply]
  show V c main_v95 _ = V c main_v95 _
  congr 1
  funext a
  apply Fin.ext
  match a with
  | ⟨0, _⟩ => show win7_2.index t 0 * 1 + 1 * 0 = 0; rw [e0]
  | ⟨1, _⟩ => show win7_2.index t 1 * 64 + 1 * q.val = q.val; rw [e1]; omega

/-- What point t writes back is block t of one whole-array function. -/
theorem flushed7_3_eq (c : Dev nD) (t : Fin cfg7.N) :
    (dat7 V c).flushed 3 t = ((cfg7.win 3).blk t).view.read (Elt Ideal) (Cert.Gcn.pre (fun j => (V c main_v95 : S1x64.Idx → EReal) (ix2 0 (j 0))) (V c main_v94 : S50000x64.Idx → EReal) (V c main_v81_1 : S50000x64.Idx → EReal) : S50000x64.Idx → EReal) := by
  obtain ⟨-, -, -, -, -, -, e30, e31⟩ := idx_facts7 t
  show (cfg7.win 3).cut (grid7.coords t) ((dat7 V c).after 3 t) = _
  rw [after7_3]
  unfold out7_3
  rw [View.canon_unit_zero hz2]
  simp only [View.ld_unit_zero (S := S5000x64) hz2, View.ld_unit_zero (S := S1x64) hz2]
  funext j
  obtain ⟨p, q, rfl⟩ : ∃ (p : Fin 5000) (q : Fin 64), j = ix2 p q := ⟨j 0, j 1, eq_ix2 j⟩
  have hi0 : ((((cfg7.win 3).blk t).view.emb (ix2 p q) : S50000x64.Idx) 0).val = 5000 * t.val + p.val := by
    show win7_3.index t 0 * 5000 + 1 * p.val = _; rw [e30]; omega
  have hi1 : ((((cfg7.win 3).blk t).view.emb (ix2 p q) : S50000x64.Idx) 1).val = q.val := by
    show win7_3.index t 1 * 64 + 1 * q.val = _; rw [e31]; omega
  have hq : (((cfg7.win 3).blk t).view.emb (ix2 p q) : S50000x64.Idx) 1 = q := Fin.ext hi1
  show k7_pay1 (iblk7 V c 0 t) (iblk7 V c 1 t) (iblk7 V c 2 t) (ix2 p q) = (Cert.Gcn.pre (fun j => (V c main_v95 : S1x64.Idx → EReal) (ix2 0 (j 0))) (V c main_v94 : S50000x64.Idx → EReal) (V c main_v81_1 : S50000x64.Idx → EReal) : S50000x64.Idx → EReal) (((cfg7.win 3).blk t).view.emb (ix2 p q))
  refine (k7_pay1_apply _ _ _ p q).trans ?_
  unfold Cert.Gcn.pre
  rw [iblk7_0_apply V c t p q _ hi0 hi1, iblk7_1_apply V c t p q _ hi0 hi1, iblk7_2_apply V c t q]
  show _ = FloatOps.addf (F := Ideal) (φ := .f32) (FloatOps.addf (F := Ideal) (φ := .f32) (_) (_)) ((V c main_v95 : S1x64.Idx → EReal) (ix2 0 ((((cfg7.win 3).blk t).view.emb (ix2 p q) : S50000x64.Idx) 1)))
  rw [hq]

/-- The ten row blocks tile the result array: row r lies in block r / 5000. -/
theorem cover7_3 (i : S50000x64.Idx) : ∃ t : Fin cfg7.N, (cfg7.win 3).flush t = true ∧ i ∈ ((cfg7.win 3).blk t).view.set := by
  have hN : cfg7.N = 10 := N_7
  have hi0 : (i 0).val < 50000 := (i 0).isLt
  have hi1 : (i 1).val < 64 := (i 1).isLt
  let t : Fin cfg7.N := ⟨(i 0).val / 5000, by rw [hN]; omega⟩
  have ht : t.val = (i 0).val / 5000 := rfl
  obtain ⟨-, -, -, -, -, -, e30, e31⟩ := idx_facts7 t
  refine ⟨t, flush7_3 t, ?_⟩
  show i ∈ ((View.whole main_v96).slice (win7_3.rect t)).set
  rw [View.set_slice_whole, Rect.mem_set_unit]
  intro a
  match a with
  | ⟨0, _⟩ => show win7_3.index t 0 * 5000 ≤ (i 0).val ∧ (i 0).val < win7_3.index t 0 * 5000 + 5000; rw [e30, ht]; omega
  | ⟨1, _⟩ => show win7_3.index t 1 * 64 ≤ (i 1).val ∧ (i 1).val < win7_3.index t 1 * 64 + 64; rw [e31]; omega

/-- The result array after the call, as one function of the three arrays the call found. -/
theorem comb7 (c : Dev nD) : (dat7 V c).arrAt 3 cfg7.N = (Cert.Gcn.pre (fun j => (V c main_v95 : S1x64.Idx → EReal) (ix2 0 (j 0))) (V c main_v94 : S50000x64.Idx → EReal) (V c main_v81_1 : S50000x64.Idx → EReal) : S50000x64.Idx → EReal) :=
  (dat7 V c).arrAt_eq_of_cover 3 _ (fun t _ => flushed7_3_eq V c t) (cover7_3)

end Cert.KernelIdeal.Layers

end
-- ==== Proof.KChain.lean ====
/-
  The kernel program's result as four layers of the launch memory.

  The buffer contents at the thirteen segment boundaries are followed from the launch to the return. A host
  stretch rewrites the buffers its operations write and keeps every other buffer; a tiled call replaces its
  result arrays by the closed forms proved for it and keeps every other buffer. The edge data (sources,
  targets, per-edge weights, the column of row scales) are computed once and kept to the end; each weight
  matrix and bias is kept from the launch until its layer reads it. Layer by layer: the product call leaves
  the product and the scaled product of the previous output; the host stretch aggregates the product over
  the edges and reshapes the bias to a row; the combining call adds the three (and, for the inner layers,
  takes the maximum with zero). The result buffer ends at the fourth layer's output.
-/
import proofs.«102909_j69947837382767_1_alg».proof.Proof.Gen.KernelIdeal.Frame
import proofs.«102909_j69947837382767_1_alg».proof.Proof.Spec
import proofs.«102909_j69947837382767_1_alg».proof.Proof.KHost
import proofs.«102909_j69947837382767_1_alg».proof.Proof.KReg0
import proofs.«102909_j69947837382767_1_alg».proof.Proof.KReg1
import proofs.«102909_j69947837382767_1_alg».proof.Proof.KReg2
import proofs.«102909_j69947837382767_1_alg».proof.Proof.KReg3
import proofs.«102909_j69947837382767_1_alg».proof.Proof.KReg4
import proofs.«102909_j69947837382767_1_alg».proof.Proof.KReg5
import proofs.«102909_j69947837382767_1_alg».proof.Proof.KReg6
import proofs.«102909_j69947837382767_1_alg».proof.Proof.KReg7
import Idealize.ShloMosaic.Lib.StableHlo.Run
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.StableHlo
open Cert.KernelIdeal Cert.KernelIdeal.Gen Cert.KernelIdeal.Facts₀ Cert.KernelIdeal.Facts

variable (m : (ℓ : Loc nD τ sig) → Buf (Elt Ideal) ℓ) (ρ : Dev nD → PrngReg) (c : Dev nD)

/-! ## Buffers a segment does not write keep their contents -/

theorem keep2_main_v1 : W2 m ρ c (Proc.devRef .tc main_v1) = W1 m ρ c (Proc.devRef .tc main_v1) := W2_of_ne m ρ c main_v1 (by decide)
theorem at2_main_v1 : W2 m ρ c (Proc.devRef .tc main_v1) = W1 m ρ c (Proc.devRef .tc main_v1) := keep2_main_v1 m ρ c
theorem keep3_main_v1 : W3 m ρ c (Proc.devRef .tc main_v1) = W2 m ρ c (Proc.devRef .tc main_v1) := by
  show StableHlo.after hostOps1 (W2 m ρ c) (Proc.devRef .tc main_v1) = _
  dsimp only [hostOps1]
  after_results
theorem at3_main_v1 : W3 m ρ c (Proc.devRef .tc main_v1) = W1 m ρ c (Proc.devRef .tc main_v1) := (keep3_main_v1 m ρ c).trans (at2_main_v1 m ρ c)
theorem keep4_main_v1 : W4 m ρ c (Proc.devRef .tc main_v1) = W3 m ρ c (Proc.devRef .tc main_v1) := W4_of_ne m ρ c main_v1 (by decide)
theorem at4_main_v1 : W4 m ρ c (Proc.devRef .tc main_v1) = W1 m ρ c (Proc.devRef .tc main_v1) := (keep4_main_v1 m ρ c).trans (at3_main_v1 m ρ c)
theorem keep5_main_v1 : W5 m ρ c (Proc.devRef .tc main_v1) = W4 m ρ c (Proc.devRef .tc main_v1) := W5_of_ne m ρ c main_v1 (by decide)
theorem at5_main_v1 : W5 m ρ c (Proc.devRef .tc main_v1) = W1 m ρ c (Proc.devRef .tc main_v1) := (keep5_main_v1 m ρ c).trans (at4_main_v1 m ρ c)
theorem keep6_main_v1 : W6 m ρ c (Proc.devRef .tc main_v1) = W5 m ρ c (Proc.devRef .tc main_v1) := by
  show StableHlo.after hostOps3 (W5 m ρ c) (Proc.devRef .tc main_v1) = _
  dsimp only [hostOps3]
  after_results
theorem at6_main_v1 : W6 m ρ c (Proc.devRef .tc main_v1) = W1 m ρ c (Proc.devRef .tc main_v1) := (keep6_main_v1 m ρ c).trans (at5_main_v1 m ρ c)
theorem keep7_main_v1 : W7 m ρ c (Proc.devRef .tc main_v1) = W6 m ρ c (Proc.devRef .tc main_v1) := W7_of_ne m ρ c main_v1 (by decide)
theorem at7_main_v1 : W7 m ρ c (Proc.devRef .tc main_v1) = W1 m ρ c (Proc.devRef .tc main_v1) := (keep7_main_v1 m ρ c).trans (at6_main_v1 m ρ c)
theorem keep8_main_v1 : W8 m ρ c (Proc.devRef .tc main_v1) = W7 m ρ c (Proc.devRef .tc main_v1) := W8_of_ne m ρ c main_v1 (by decide)
theorem at8_main_v1 : W8 m ρ c (Proc.devRef .tc main_v1) = W1 m ρ c (Proc.devRef .tc main_v1) := (keep8_main_v1 m ρ c).trans (at7_main_v1 m ρ c)
theorem keep9_main_v1 : W9 m ρ c (Proc.devRef .tc main_v1) = W8 m ρ c (Proc.devRef .tc main_v1) := by
  show StableHlo.after hostOps5 (W8 m ρ c) (Proc.devRef .tc main_v1) = _
  dsimp only [hostOps5]
  after_results
theorem at9_main_v1 : W9 m ρ c (Proc.devRef .tc main_v1) = W1 m ρ c (Proc.devRef .tc main_v1) := (keep9_main_v1 m ρ c).trans (at8_main_v1 m ρ c)
theorem keep10_main_v1 : W10 m ρ c (Proc.devRef .tc main_v1) = W9 m ρ c (Proc.devRef .tc main_v1) := W10_of_ne m ρ c main_v1 (by decide)
theorem at10_main_v1 : W10 m ρ c (Proc.devRef .tc main_v1) = W1 m ρ c (Proc.devRef .tc main_v1) := (keep10_main_v1 m ρ c).trans (at9_main_v1 m ρ c)
theorem keep11_main_v1 : W11 m ρ c (Proc.devRef .tc main_v1) = W10 m ρ c (Proc.devRef .tc main_v1) := W11_of_ne m ρ c main_v1 (by decide)
theorem at11_main_v1 : W11 m ρ c (Proc.devRef .tc main_v1) = W1 m ρ c (Proc.devRef .tc main_v1) := (keep11_main_v1 m ρ c).trans (at10_main_v1 m ρ c)

theorem keep2_main_v3 : W2 m ρ c (Proc.devRef .tc main_v3) = W1 m ρ c (Proc.devRef .tc main_v3) := W2_of_ne m ρ c main_v3 (by decide)
theorem at2_main_v3 : W2 m ρ c (Proc.devRef .tc main_v3) = W1 m ρ c (Proc.devRef .tc main_v3) := keep2_main_v3 m ρ c
theorem keep3_main_v3 : W3 m ρ c (Proc.devRef .tc main_v3) = W2 m ρ c (Proc.devRef .tc main_v3) := by
  show StableHlo.after hostOps1 (W2 m ρ c) (Proc.devRef .tc main_v3) = _
  dsimp only [hostOps1]
  after_results
theorem at3_main_v3 : W3 m ρ c (Proc.devRef .tc main_v3) = W1 m ρ c (Proc.devRef .tc main_v3) := (keep3_main_v3 m ρ c).trans (at2_main_v3 m ρ c)
theorem keep4_main_v3 : W4 m ρ c (Proc.devRef .tc main_v3) = W3 m ρ c (Proc.devRef .tc main_v3) := W4_of_ne m ρ c main_v3 (by decide)
theorem at4_main_v3 : W4 m ρ c (Proc.devRef .tc main_v3) = W1 m ρ c (Proc.devRef .tc main_v3) := (keep4_main_v3 m ρ c).trans (at3_main_v3 m ρ c)
theorem keep5_main_v3 : W5 m ρ c (Proc.devRef .tc main_v3) = W4 m ρ c (Proc.devRef .tc main_v3) := W5_of_ne m ρ c main_v3 (by decide)
theorem at5_main_v3 : W5 m ρ c (Proc.devRef .tc main_v3) = W1 m ρ c (Proc.devRef .tc main_v3) := (keep5_main_v3 m ρ c).trans (at4_main_v3 m ρ c)
theorem keep6_main_v3 : W6 m ρ c (Proc.devRef .tc main_v3) = W5 m ρ c (Proc.devRef .tc main_v3) := by
  show StableHlo.after hostOps3 (W5 m ρ c) (Proc.devRef .tc main_v3) = _
  dsimp only [hostOps3]
  after_results
theorem at6_main_v3 : W6 m ρ c (Proc.devRef .tc main_v3) = W1 m ρ c (Proc.devRef .tc main_v3) := (keep6_main_v3 m ρ c).trans (at5_main_v3 m ρ c)
theorem keep7_main_v3 : W7 m ρ c (Proc.devRef .tc main_v3) = W6 m ρ c (Proc.devRef .tc main_v3) := W7_of_ne m ρ c main_v3 (by decide)
theorem at7_main_v3 : W7 m ρ c (Proc.devRef .tc main_v3) = W1 m ρ c (Proc.devRef .tc main_v3) := (keep7_main_v3 m ρ c).trans (at6_main_v3 m ρ c)
theorem keep8_main_v3 : W8 m ρ c (Proc.devRef .tc main_v3) = W7 m ρ c (Proc.devRef .tc main_v3) := W8_of_ne m ρ c main_v3 (by decide)
theorem at8_main_v3 : W8 m ρ c (Proc.devRef .tc main_v3) = W1 m ρ c (Proc.devRef .tc main_v3) := (keep8_main_v3 m ρ c).trans (at7_main_v3 m ρ c)
theorem keep9_main_v3 : W9 m ρ c (Proc.devRef .tc main_v3) = W8 m ρ c (Proc.devRef .tc main_v3) := by
  show StableHlo.after hostOps5 (W8 m ρ c) (Proc.devRef .tc main_v3) = _
  dsimp only [hostOps5]
  after_results
theorem at9_main_v3 : W9 m ρ c (Proc.devRef .tc main_v3) = W1 m ρ c (Proc.devRef .tc main_v3) := (keep9_main_v3 m ρ c).trans (at8_main_v3 m ρ c)
theorem keep10_main_v3 : W10 m ρ c (Proc.devRef .tc main_v3) = W9 m ρ c (Proc.devRef .tc main_v3) := W10_of_ne m ρ c main_v3 (by decide)
theorem at10_main_v3 : W10 m ρ c (Proc.devRef .tc main_v3) = W1 m ρ c (Proc.devRef .tc main_v3) := (keep10_main_v3 m ρ c).trans (at9_main_v3 m ρ c)
theorem keep11_main_v3 : W11 m ρ c (Proc.devRef .tc main_v3) = W10 m ρ c (Proc.devRef .tc main_v3) := W11_of_ne m ρ c main_v3 (by decide)
theorem at11_main_v3 : W11 m ρ c (Proc.devRef .tc main_v3) = W1 m ρ c (Proc.devRef .tc main_v3) := (keep11_main_v3 m ρ c).trans (at10_main_v3 m ρ c)

theorem keep2_main_v32 : W2 m ρ c (Proc.devRef .tc main_v32) = W1 m ρ c (Proc.devRef .tc main_v32) := W2_of_ne m ρ c main_v32 (by decide)
theorem at2_main_v32 : W2 m ρ c (Proc.devRef .tc main_v32) = W1 m ρ c (Proc.devRef .tc main_v32) := keep2_main_v32 m ρ c
theorem keep3_main_v32 : W3 m ρ c (Proc.devRef .tc main_v32) = W2 m ρ c (Proc.devRef .tc main_v32) := by
  show StableHlo.after hostOps1 (W2 m ρ c) (Proc.devRef .tc main_v32) = _
  dsimp only [hostOps1]
  after_results
theorem at3_main_v32 : W3 m ρ c (Proc.devRef .tc main_v32) = W1 m ρ c (Proc.devRef .tc main_v32) := (keep3_main_v32 m ρ c).trans (at2_main_v32 m ρ c)
theorem keep4_main_v32 : W4 m ρ c (Proc.devRef .tc main_v32) = W3 m ρ c (Proc.devRef .tc main_v32) := W4_of_ne m ρ c main_v32 (by decide)
theorem at4_main_v32 : W4 m ρ c (Proc.devRef .tc main_v32) = W1 m ρ c (Proc.devRef .tc main_v32) := (keep4_main_v32 m ρ c).trans (at3_main_v32 m ρ c)
theorem keep5_main_v32 : W5 m ρ c (Proc.devRef .tc main_v32) = W4 m ρ c (Proc.devRef .tc main_v32) := W5_of_ne m ρ c main_v32 (by decide)
theorem at5_main_v32 : W5 m ρ c (Proc.devRef .tc main_v32) = W1 m ρ c (Proc.devRef .tc main_v32) := (keep5_main_v32 m ρ c).trans (at4_main_v32 m ρ c)
theorem keep6_main_v32 : W6 m ρ c (Proc.devRef .tc main_v32) = W5 m ρ c (Proc.devRef .tc main_v32) := by
  show StableHlo.after hostOps3 (W5 m ρ c) (Proc.devRef .tc main_v32) = _
  dsimp only [hostOps3]
  after_results
theorem at6_main_v32 : W6 m ρ c (Proc.devRef .tc main_v32) = W1 m ρ c (Proc.devRef .tc main_v32) := (keep6_main_v32 m ρ c).trans (at5_main_v32 m ρ c)
theorem keep7_main_v32 : W7 m ρ c (Proc.devRef .tc main_v32) = W6 m ρ c (Proc.devRef .tc main_v32) := W7_of_ne m ρ c main_v32 (by decide)
theorem at7_main_v32 : W7 m ρ c (Proc.devRef .tc main_v32) = W1 m ρ c (Proc.devRef .tc main_v32) := (keep7_main_v32 m ρ c).trans (at6_main_v32 m ρ c)
theorem keep8_main_v32 : W8 m ρ c (Proc.devRef .tc main_v32) = W7 m ρ c (Proc.devRef .tc main_v32) := W8_of_ne m ρ c main_v32 (by decide)
theorem at8_main_v32 : W8 m ρ c (Proc.devRef .tc main_v32) = W1 m ρ c (Proc.devRef .tc main_v32) := (keep8_main_v32 m ρ c).trans (at7_main_v32 m ρ c)
theorem keep9_main_v32 : W9 m ρ c (Proc.devRef .tc main_v32) = W8 m ρ c (Proc.devRef .tc main_v32) := by
  show StableHlo.after hostOps5 (W8 m ρ c) (Proc.devRef .tc main_v32) = _
  dsimp only [hostOps5]
  after_results
theorem at9_main_v32 : W9 m ρ c (Proc.devRef .tc main_v32) = W1 m ρ c (Proc.devRef .tc main_v32) := (keep9_main_v32 m ρ c).trans (at8_main_v32 m ρ c)
theorem keep10_main_v32 : W10 m ρ c (Proc.devRef .tc main_v32) = W9 m ρ c (Proc.devRef .tc main_v32) := W10_of_ne m ρ c main_v32 (by decide)
theorem at10_main_v32 : W10 m ρ c (Proc.devRef .tc main_v32) = W1 m ρ c (Proc.devRef .tc main_v32) := (keep10_main_v32 m ρ c).trans (at9_main_v32 m ρ c)
theorem keep11_main_v32 : W11 m ρ c (Proc.devRef .tc main_v32) = W10 m ρ c (Proc.devRef .tc main_v32) := W11_of_ne m ρ c main_v32 (by decide)
theorem at11_main_v32 : W11 m ρ c (Proc.devRef .tc main_v32) = W1 m ρ c (Proc.devRef .tc main_v32) := (keep11_main_v32 m ρ c).trans (at10_main_v32 m ρ c)

theorem keep2_main_v17 : W2 m ρ c (Proc.devRef .tc main_v17) = W1 m ρ c (Proc.devRef .tc main_v17) :=
  (W2_arr m ρ c 2).trans (((dat0 (V1 m ρ) c).arrAt_in 2 rfl _).trans (A_eq0 (V1 m ρ) c 2))
theorem at2_main_v17 : W2 m ρ c (Proc.devRef .tc main_v17) = W1 m ρ c (Proc.devRef .tc main_v17) := keep2_main_v17 m ρ c
theorem keep3_main_v17 : W3 m ρ c (Proc.devRef .tc main_v17) = W2 m ρ c (Proc.devRef .tc main_v17) := by
  show StableHlo.after hostOps1 (W2 m ρ c) (Proc.devRef .tc main_v17) = _
  dsimp only [hostOps1]
  after_results
theorem at3_main_v17 : W3 m ρ c (Proc.devRef .tc main_v17) = W1 m ρ c (Proc.devRef .tc main_v17) := (keep3_main_v17 m ρ c).trans (at2_main_v17 m ρ c)
theorem keep4_main_v17 : W4 m ρ c (Proc.devRef .tc main_v17) = W3 m ρ c (Proc.devRef .tc main_v17) := W4_of_ne m ρ c main_v17 (by decide)
theorem at4_main_v17 : W4 m ρ c (Proc.devRef .tc main_v17) = W1 m ρ c (Proc.devRef .tc main_v17) := (keep4_main_v17 m ρ c).trans (at3_main_v17 m ρ c)
theorem keep5_main_v17 : W5 m ρ c (Proc.devRef .tc main_v17) = W4 m ρ c (Proc.devRef .tc main_v17) :=
  (W5_arr m ρ c 2).trans (((dat2 (V4 m ρ) c).arrAt_in 2 rfl _).trans (A_eq2 (V4 m ρ) c 2))
theorem at5_main_v17 : W5 m ρ c (Proc.devRef .tc main_v17) = W1 m ρ c (Proc.devRef .tc main_v17) := (keep5_main_v17 m ρ c).trans (at4_main_v17 m ρ c)
theorem keep6_main_v17 : W6 m ρ c (Proc.devRef .tc main_v17) = W5 m ρ c (Proc.devRef .tc main_v17) := by
  show StableHlo.after hostOps3 (W5 m ρ c) (Proc.devRef .tc main_v17) = _
  dsimp only [hostOps3]
  after_results
theorem at6_main_v17 : W6 m ρ c (Proc.devRef .tc main_v17) = W1 m ρ c (Proc.devRef .tc main_v17) := (keep6_main_v17 m ρ c).trans (at5_main_v17 m ρ c)
theorem keep7_main_v17 : W7 m ρ c (Proc.devRef .tc main_v17) = W6 m ρ c (Proc.devRef .tc main_v17) := W7_of_ne m ρ c main_v17 (by decide)
theorem at7_main_v17 : W7 m ρ c (Proc.devRef .tc main_v17) = W1 m ρ c (Proc.devRef .tc main_v17) := (keep7_main_v17 m ρ c).trans (at6_main_v17 m ρ c)
theorem keep8_main_v17 : W8 m ρ c (Proc.devRef .tc main_v17) = W7 m ρ c (Proc.devRef .tc main_v17) :=
  (W8_arr m ρ c 2).trans (((dat4 (V7 m ρ) c).arrAt_in 2 rfl _).trans (A_eq4 (V7 m ρ) c 2))
theorem at8_main_v17 : W8 m ρ c (Proc.devRef .tc main_v17) = W1 m ρ c (Proc.devRef .tc main_v17) := (keep8_main_v17 m ρ c).trans (at7_main_v17 m ρ c)
theorem keep9_main_v17 : W9 m ρ c (Proc.devRef .tc main_v17) = W8 m ρ c (Proc.devRef .tc main_v17) := by
  show StableHlo.after hostOps5 (W8 m ρ c) (Proc.devRef .tc main_v17) = _
  dsimp only [hostOps5]
  after_results
theorem at9_main_v17 : W9 m ρ c (Proc.devRef .tc main_v17) = W1 m ρ c (Proc.devRef .tc main_v17) := (keep9_main_v17 m ρ c).trans (at8_main_v17 m ρ c)
theorem keep10_main_v17 : W10 m ρ c (Proc.devRef .tc main_v17) = W9 m ρ c (Proc.devRef .tc main_v17) := W10_of_ne m ρ c main_v17 (by decide)
theorem at10_main_v17 : W10 m ρ c (Proc.devRef .tc main_v17) = W1 m ρ c (Proc.devRef .tc main_v17) := (keep10_main_v17 m ρ c).trans (at9_main_v17 m ρ c)

theorem keep1_main_arg0 : W1 m ρ c (Proc.devRef .tc main_arg0) = W0 m ρ c (Proc.devRef .tc main_arg0) := by
  show StableHlo.after hostOps0 (W0 m ρ c) (Proc.devRef .tc main_arg0) = _
  dsimp only [hostOps0]
  after_results
theorem at1_main_arg0 : W1 m ρ c (Proc.devRef .tc main_arg0) = W0 m ρ c (Proc.devRef .tc main_arg0) := keep1_main_arg0 m ρ c

theorem keep1_main_arg2 : W1 m ρ c (Proc.devRef .tc main_arg2) = W0 m ρ c (Proc.devRef .tc main_arg2) := by
  show StableHlo.after hostOps0 (W0 m ρ c) (Proc.devRef .tc main_arg2) = _
  dsimp only [hostOps0]
  after_results
theorem at1_main_arg2 : W1 m ρ c (Proc.devRef .tc main_arg2) = W0 m ρ c (Proc.devRef .tc main_arg2) := keep1_main_arg2 m ρ c

theorem keep1_main_arg3 : W1 m ρ c (Proc.devRef .tc main_arg3) = W0 m ρ c (Proc.devRef .tc main_arg3) := by
  show StableHlo.after hostOps0 (W0 m ρ c) (Proc.devRef .tc main_arg3) = _
  dsimp only [hostOps0]
  after_results
theorem at1_main_arg3 : W1 m ρ c (Proc.devRef .tc main_arg3) = W0 m ρ c (Proc.devRef .tc main_arg3) := keep1_main_arg3 m ρ c
theorem keep2_main_arg3 : W2 m ρ c (Proc.devRef .tc main_arg3) = W1 m ρ c (Proc.devRef .tc main_arg3) := W2_of_ne m ρ c main_arg3 (by decide)
theorem at2_main_arg3 : W2 m ρ c (Proc.devRef .tc main_arg3) = W0 m ρ c (Proc.devRef .tc main_arg3) := (keep2_main_arg3 m ρ c).trans (at1_main_arg3 m ρ c)

theorem keep1_main_arg4 : W1 m ρ c (Proc.devRef .tc main_arg4) = W0 m ρ c (Proc.devRef .tc main_arg4) := by
  show StableHlo.after hostOps0 (W0 m ρ c) (Proc.devRef .tc main_arg4) = _
  dsimp only [hostOps0]
  after_results
theorem at1_main_arg4 : W1 m ρ c (Proc.devRef .tc main_arg4) = W0 m ρ c (Proc.devRef .tc main_arg4) := keep1_main_arg4 m ρ c
theorem keep2_main_arg4 : W2 m ρ c (Proc.devRef .tc main_arg4) = W1 m ρ c (Proc.devRef .tc main_arg4) := W2_of_ne m ρ c main_arg4 (by decide)
theorem at2_main_arg4 : W2 m ρ c (Proc.devRef .tc main_arg4) = W0 m ρ c (Proc.devRef .tc main_arg4) := (keep2_main_arg4 m ρ c).trans (at1_main_arg4 m ρ c)
theorem keep3_main_arg4 : W3 m ρ c (Proc.devRef .tc main_arg4) = W2 m ρ c (Proc.devRef .tc main_arg4) := by
  show StableHlo.after hostOps1 (W2 m ρ c) (Proc.devRef .tc main_arg4) = _
  dsimp only [hostOps1]
  after_results
theorem at3_main_arg4 : W3 m ρ c (Proc.devRef .tc main_arg4) = W0 m ρ c (Proc.devRef .tc main_arg4) := (keep3_main_arg4 m ρ c).trans (at2_main_arg4 m ρ c)
theorem keep4_main_arg4 : W4 m ρ c (Proc.devRef .tc main_arg4) = W3 m ρ c (Proc.devRef .tc main_arg4) := W4_of_ne m ρ c main_arg4 (by decide)
theorem at4_main_arg4 : W4 m ρ c (Proc.devRef .tc main_arg4) = W0 m ρ c (Proc.devRef .tc main_arg4) := (keep4_main_arg4 m ρ c).trans (at3_main_arg4 m ρ c)

theorem keep1_main_arg5 : W1 m ρ c (Proc.devRef .tc main_arg5) = W0 m ρ c (Proc.devRef .tc main_arg5) := by
  show StableHlo.after hostOps0 (W0 m ρ c) (Proc.devRef .tc main_arg5) = _
  dsimp only [hostOps0]
  after_results
theorem at1_main_arg5 : W1 m ρ c (Proc.devRef .tc main_arg5) = W0 m ρ c (Proc.devRef .tc main_arg5) := keep1_main_arg5 m ρ c
theorem keep2_main_arg5 : W2 m ρ c (Proc.devRef .tc main_arg5) = W1 m ρ c (Proc.devRef .tc main_arg5) := W2_of_ne m ρ c main_arg5 (by decide)
theorem at2_main_arg5 : W2 m ρ c (Proc.devRef .tc main_arg5) = W0 m ρ c (Proc.devRef .tc main_arg5) := (keep2_main_arg5 m ρ c).trans (at1_main_arg5 m ρ c)
theorem keep3_main_arg5 : W3 m ρ c (Proc.devRef .tc main_arg5) = W2 m ρ c (Proc.devRef .tc main_arg5) := by
  show StableHlo.after hostOps1 (W2 m ρ c) (Proc.devRef .tc main_arg5) = _
  dsimp only [hostOps1]
  after_results
theorem at3_main_arg5 : W3 m ρ c (Proc.devRef .tc main_arg5) = W0 m ρ c (Proc.devRef .tc main_arg5) := (keep3_main_arg5 m ρ c).trans (at2_main_arg5 m ρ c)
theorem keep4_main_arg5 : W4 m ρ c (Proc.devRef .tc main_arg5) = W3 m ρ c (Proc.devRef .tc main_arg5) := W4_of_ne m ρ c main_arg5 (by decide)
theorem at4_main_arg5 : W4 m ρ c (Proc.devRef .tc main_arg5) = W0 m ρ c (Proc.devRef .tc main_arg5) := (keep4_main_arg5 m ρ c).trans (at3_main_arg5 m ρ c)
theorem keep5_main_arg5 : W5 m ρ c (Proc.devRef .tc main_arg5) = W4 m ρ c (Proc.devRef .tc main_arg5) := W5_of_ne m ρ c main_arg5 (by decide)
theorem at5_main_arg5 : W5 m ρ c (Proc.devRef .tc main_arg5) = W0 m ρ c (Proc.devRef .tc main_arg5) := (keep5_main_arg5 m ρ c).trans (at4_main_arg5 m ρ c)

theorem keep1_main_arg6 : W1 m ρ c (Proc.devRef .tc main_arg6) = W0 m ρ c (Proc.devRef .tc main_arg6) := by
  show StableHlo.after hostOps0 (W0 m ρ c) (Proc.devRef .tc main_arg6) = _
  dsimp only [hostOps0]
  after_results
theorem at1_main_arg6 : W1 m ρ c (Proc.devRef .tc main_arg6) = W0 m ρ c (Proc.devRef .tc main_arg6) := keep1_main_arg6 m ρ c
theorem keep2_main_arg6 : W2 m ρ c (Proc.devRef .tc main_arg6) = W1 m ρ c (Proc.devRef .tc main_arg6) := W2_of_ne m ρ c main_arg6 (by decide)
theorem at2_main_arg6 : W2 m ρ c (Proc.devRef .tc main_arg6) = W0 m ρ c (Proc.devRef .tc main_arg6) := (keep2_main_arg6 m ρ c).trans (at1_main_arg6 m ρ c)
theorem keep3_main_arg6 : W3 m ρ c (Proc.devRef .tc main_arg6) = W2 m ρ c (Proc.devRef .tc main_arg6) := by
  show StableHlo.after hostOps1 (W2 m ρ c) (Proc.devRef .tc main_arg6) = _
  dsimp only [hostOps1]
  after_results
theorem at3_main_arg6 : W3 m ρ c (Proc.devRef .tc main_arg6) = W0 m ρ c (Proc.devRef .tc main_arg6) := (keep3_main_arg6 m ρ c).trans (at2_main_arg6 m ρ c)
theorem keep4_main_arg6 : W4 m ρ c (Proc.devRef .tc main_arg6) = W3 m ρ c (Proc.devRef .tc main_arg6) := W4_of_ne m ρ c main_arg6 (by decide)
theorem at4_main_arg6 : W4 m ρ c (Proc.devRef .tc main_arg6) = W0 m ρ c (Proc.devRef .tc main_arg6) := (keep4_main_arg6 m ρ c).trans (at3_main_arg6 m ρ c)
theorem keep5_main_arg6 : W5 m ρ c (Proc.devRef .tc main_arg6) = W4 m ρ c (Proc.devRef .tc main_arg6) := W5_of_ne m ρ c main_arg6 (by decide)
theorem at5_main_arg6 : W5 m ρ c (Proc.devRef .tc main_arg6) = W0 m ρ c (Proc.devRef .tc main_arg6) := (keep5_main_arg6 m ρ c).trans (at4_main_arg6 m ρ c)
theorem keep6_main_arg6 : W6 m ρ c (Proc.devRef .tc main_arg6) = W5 m ρ c (Proc.devRef .tc main_arg6) := by
  show StableHlo.after hostOps3 (W5 m ρ c) (Proc.devRef .tc main_arg6) = _
  dsimp only [hostOps3]
  after_results
theorem at6_main_arg6 : W6 m ρ c (Proc.devRef .tc main_arg6) = W0 m ρ c (Proc.devRef .tc main_arg6) := (keep6_main_arg6 m ρ c).trans (at5_main_arg6 m ρ c)
theorem keep7_main_arg6 : W7 m ρ c (Proc.devRef .tc main_arg6) = W6 m ρ c (Proc.devRef .tc main_arg6) := W7_of_ne m ρ c main_arg6 (by decide)
theorem at7_main_arg6 : W7 m ρ c (Proc.devRef .tc main_arg6) = W0 m ρ c (Proc.devRef .tc main_arg6) := (keep7_main_arg6 m ρ c).trans (at6_main_arg6 m ρ c)

theorem keep1_main_arg7 : W1 m ρ c (Proc.devRef .tc main_arg7) = W0 m ρ c (Proc.devRef .tc main_arg7) := by
  show StableHlo.after hostOps0 (W0 m ρ c) (Proc.devRef .tc main_arg7) = _
  dsimp only [hostOps0]
  after_results
theorem at1_main_arg7 : W1 m ρ c (Proc.devRef .tc main_arg7) = W0 m ρ c (Proc.devRef .tc main_arg7) := keep1_main_arg7 m ρ c
theorem keep2_main_arg7 : W2 m ρ c (Proc.devRef .tc main_arg7) = W1 m ρ c (Proc.devRef .tc main_arg7) := W2_of_ne m ρ c main_arg7 (by decide)
theorem at2_main_arg7 : W2 m ρ c (Proc.devRef .tc main_arg7) = W0 m ρ c (Proc.devRef .tc main_arg7) := (keep2_main_arg7 m ρ c).trans (at1_main_arg7 m ρ c)
theorem keep3_main_arg7 : W3 m ρ c (Proc.devRef .tc main_arg7) = W2 m ρ c (Proc.devRef .tc main_arg7) := by
  show StableHlo.after hostOps1 (W2 m ρ c) (Proc.devRef .tc main_arg7) = _
  dsimp only [hostOps1]
  after_results
theorem at3_main_arg7 : W3 m ρ c (Proc.devRef .tc main_arg7) = W0 m ρ c (Proc.devRef .tc main_arg7) := (keep3_main_arg7 m ρ c).trans (at2_main_arg7 m ρ c)
theorem keep4_main_arg7 : W4 m ρ c (Proc.devRef .tc main_arg7) = W3 m ρ c (Proc.devRef .tc main_arg7) := W4_of_ne m ρ c main_arg7 (by decide)
theorem at4_main_arg7 : W4 m ρ c (Proc.devRef .tc main_arg7) = W0 m ρ c (Proc.devRef .tc main_arg7) := (keep4_main_arg7 m ρ c).trans (at3_main_arg7 m ρ c)
theorem keep5_main_arg7 : W5 m ρ c (Proc.devRef .tc main_arg7) = W4 m ρ c (Proc.devRef .tc main_arg7) := W5_of_ne m ρ c main_arg7 (by decide)
theorem at5_main_arg7 : W5 m ρ c (Proc.devRef .tc main_arg7) = W0 m ρ c (Proc.devRef .tc main_arg7) := (keep5_main_arg7 m ρ c).trans (at4_main_arg7 m ρ c)
theorem keep6_main_arg7 : W6 m ρ c (Proc.devRef .tc main_arg7) = W5 m ρ c (Proc.devRef .tc main_arg7) := by
  show StableHlo.after hostOps3 (W5 m ρ c) (Proc.devRef .tc main_arg7) = _
  dsimp only [hostOps3]
  after_results
theorem at6_main_arg7 : W6 m ρ c (Proc.devRef .tc main_arg7) = W0 m ρ c (Proc.devRef .tc main_arg7) := (keep6_main_arg7 m ρ c).trans (at5_main_arg7 m ρ c)
theorem keep7_main_arg7 : W7 m ρ c (Proc.devRef .tc main_arg7) = W6 m ρ c (Proc.devRef .tc main_arg7) := W7_of_ne m ρ c main_arg7 (by decide)
theorem at7_main_arg7 : W7 m ρ c (Proc.devRef .tc main_arg7) = W0 m ρ c (Proc.devRef .tc main_arg7) := (keep7_main_arg7 m ρ c).trans (at6_main_arg7 m ρ c)
theorem keep8_main_arg7 : W8 m ρ c (Proc.devRef .tc main_arg7) = W7 m ρ c (Proc.devRef .tc main_arg7) := W8_of_ne m ρ c main_arg7 (by decide)
theorem at8_main_arg7 : W8 m ρ c (Proc.devRef .tc main_arg7) = W0 m ρ c (Proc.devRef .tc main_arg7) := (keep8_main_arg7 m ρ c).trans (at7_main_arg7 m ρ c)

theorem keep1_main_arg8 : W1 m ρ c (Proc.devRef .tc main_arg8) = W0 m ρ c (Proc.devRef .tc main_arg8) := by
  show StableHlo.after hostOps0 (W0 m ρ c) (Proc.devRef .tc main_arg8) = _
  dsimp only [hostOps0]
  after_results
theorem at1_main_arg8 : W1 m ρ c (Proc.devRef .tc main_arg8) = W0 m ρ c (Proc.devRef .tc main_arg8) := keep1_main_arg8 m ρ c
theorem keep2_main_arg8 : W2 m ρ c (Proc.devRef .tc main_arg8) = W1 m ρ c (Proc.devRef .tc main_arg8) := W2_of_ne m ρ c main_arg8 (by decide)
theorem at2_main_arg8 : W2 m ρ c (Proc.devRef .tc main_arg8) = W0 m ρ c (Proc.devRef .tc main_arg8) := (keep2_main_arg8 m ρ c).trans (at1_main_arg8 m ρ c)
theorem keep3_main_arg8 : W3 m ρ c (Proc.devRef .tc main_arg8) = W2 m ρ c (Proc.devRef .tc main_arg8) := by
  show StableHlo.after hostOps1 (W2 m ρ c) (Proc.devRef .tc main_arg8) = _
  dsimp only [hostOps1]
  after_results
theorem at3_main_arg8 : W3 m ρ c (Proc.devRef .tc main_arg8) = W0 m ρ c (Proc.devRef .tc main_arg8) := (keep3_main_arg8 m ρ c).trans (at2_main_arg8 m ρ c)
theorem keep4_main_arg8 : W4 m ρ c (Proc.devRef .tc main_arg8) = W3 m ρ c (Proc.devRef .tc main_arg8) := W4_of_ne m ρ c main_arg8 (by decide)
theorem at4_main_arg8 : W4 m ρ c (Proc.devRef .tc main_arg8) = W0 m ρ c (Proc.devRef .tc main_arg8) := (keep4_main_arg8 m ρ c).trans (at3_main_arg8 m ρ c)
theorem keep5_main_arg8 : W5 m ρ c (Proc.devRef .tc main_arg8) = W4 m ρ c (Proc.devRef .tc main_arg8) := W5_of_ne m ρ c main_arg8 (by decide)
theorem at5_main_arg8 : W5 m ρ c (Proc.devRef .tc main_arg8) = W0 m ρ c (Proc.devRef .tc main_arg8) := (keep5_main_arg8 m ρ c).trans (at4_main_arg8 m ρ c)
theorem keep6_main_arg8 : W6 m ρ c (Proc.devRef .tc main_arg8) = W5 m ρ c (Proc.devRef .tc main_arg8) := by
  show StableHlo.after hostOps3 (W5 m ρ c) (Proc.devRef .tc main_arg8) = _
  dsimp only [hostOps3]
  after_results
theorem at6_main_arg8 : W6 m ρ c (Proc.devRef .tc main_arg8) = W0 m ρ c (Proc.devRef .tc main_arg8) := (keep6_main_arg8 m ρ c).trans (at5_main_arg8 m ρ c)
theorem keep7_main_arg8 : W7 m ρ c (Proc.devRef .tc main_arg8) = W6 m ρ c (Proc.devRef .tc main_arg8) := W7_of_ne m ρ c main_arg8 (by decide)
theorem at7_main_arg8 : W7 m ρ c (Proc.devRef .tc main_arg8) = W0 m ρ c (Proc.devRef .tc main_arg8) := (keep7_main_arg8 m ρ c).trans (at6_main_arg8 m ρ c)
theorem keep8_main_arg8 : W8 m ρ c (Proc.devRef .tc main_arg8) = W7 m ρ c (Proc.devRef .tc main_arg8) := W8_of_ne m ρ c main_arg8 (by decide)
theorem at8_main_arg8 : W8 m ρ c (Proc.devRef .tc main_arg8) = W0 m ρ c (Proc.devRef .tc main_arg8) := (keep8_main_arg8 m ρ c).trans (at7_main_arg8 m ρ c)
theorem keep9_main_arg8 : W9 m ρ c (Proc.devRef .tc main_arg8) = W8 m ρ c (Proc.devRef .tc main_arg8) := by
  show StableHlo.after hostOps5 (W8 m ρ c) (Proc.devRef .tc main_arg8) = _
  dsimp only [hostOps5]
  after_results
theorem at9_main_arg8 : W9 m ρ c (Proc.devRef .tc main_arg8) = W0 m ρ c (Proc.devRef .tc main_arg8) := (keep9_main_arg8 m ρ c).trans (at8_main_arg8 m ρ c)
theorem keep10_main_arg8 : W10 m ρ c (Proc.devRef .tc main_arg8) = W9 m ρ c (Proc.devRef .tc main_arg8) := W10_of_ne m ρ c main_arg8 (by decide)
theorem at10_main_arg8 : W10 m ρ c (Proc.devRef .tc main_arg8) = W0 m ρ c (Proc.devRef .tc main_arg8) := (keep10_main_arg8 m ρ c).trans (at9_main_arg8 m ρ c)

theorem keep1_main_arg9 : W1 m ρ c (Proc.devRef .tc main_arg9) = W0 m ρ c (Proc.devRef .tc main_arg9) := by
  show StableHlo.after hostOps0 (W0 m ρ c) (Proc.devRef .tc main_arg9) = _
  dsimp only [hostOps0]
  after_results
theorem at1_main_arg9 : W1 m ρ c (Proc.devRef .tc main_arg9) = W0 m ρ c (Proc.devRef .tc main_arg9) := keep1_main_arg9 m ρ c
theorem keep2_main_arg9 : W2 m ρ c (Proc.devRef .tc main_arg9) = W1 m ρ c (Proc.devRef .tc main_arg9) := W2_of_ne m ρ c main_arg9 (by decide)
theorem at2_main_arg9 : W2 m ρ c (Proc.devRef .tc main_arg9) = W0 m ρ c (Proc.devRef .tc main_arg9) := (keep2_main_arg9 m ρ c).trans (at1_main_arg9 m ρ c)
theorem keep3_main_arg9 : W3 m ρ c (Proc.devRef .tc main_arg9) = W2 m ρ c (Proc.devRef .tc main_arg9) := by
  show StableHlo.after hostOps1 (W2 m ρ c) (Proc.devRef .tc main_arg9) = _
  dsimp only [hostOps1]
  after_results
theorem at3_main_arg9 : W3 m ρ c (Proc.devRef .tc main_arg9) = W0 m ρ c (Proc.devRef .tc main_arg9) := (keep3_main_arg9 m ρ c).trans (at2_main_arg9 m ρ c)
theorem keep4_main_arg9 : W4 m ρ c (Proc.devRef .tc main_arg9) = W3 m ρ c (Proc.devRef .tc main_arg9) := W4_of_ne m ρ c main_arg9 (by decide)
theorem at4_main_arg9 : W4 m ρ c (Proc.devRef .tc main_arg9) = W0 m ρ c (Proc.devRef .tc main_arg9) := (keep4_main_arg9 m ρ c).trans (at3_main_arg9 m ρ c)
theorem keep5_main_arg9 : W5 m ρ c (Proc.devRef .tc main_arg9) = W4 m ρ c (Proc.devRef .tc main_arg9) := W5_of_ne m ρ c main_arg9 (by decide)
theorem at5_main_arg9 : W5 m ρ c (Proc.devRef .tc main_arg9) = W0 m ρ c (Proc.devRef .tc main_arg9) := (keep5_main_arg9 m ρ c).trans (at4_main_arg9 m ρ c)
theorem keep6_main_arg9 : W6 m ρ c (Proc.devRef .tc main_arg9) = W5 m ρ c (Proc.devRef .tc main_arg9) := by
  show StableHlo.after hostOps3 (W5 m ρ c) (Proc.devRef .tc main_arg9) = _
  dsimp only [hostOps3]
  after_results
theorem at6_main_arg9 : W6 m ρ c (Proc.devRef .tc main_arg9) = W0 m ρ c (Proc.devRef .tc main_arg9) := (keep6_main_arg9 m ρ c).trans (at5_main_arg9 m ρ c)
theorem keep7_main_arg9 : W7 m ρ c (Proc.devRef .tc main_arg9) = W6 m ρ c (Proc.devRef .tc main_arg9) := W7_of_ne m ρ c main_arg9 (by decide)
theorem at7_main_arg9 : W7 m ρ c (Proc.devRef .tc main_arg9) = W0 m ρ c (Proc.devRef .tc main_arg9) := (keep7_main_arg9 m ρ c).trans (at6_main_arg9 m ρ c)
theorem keep8_main_arg9 : W8 m ρ c (Proc.devRef .tc main_arg9) = W7 m ρ c (Proc.devRef .tc main_arg9) := W8_of_ne m ρ c main_arg9 (by decide)
theorem at8_main_arg9 : W8 m ρ c (Proc.devRef .tc main_arg9) = W0 m ρ c (Proc.devRef .tc main_arg9) := (keep8_main_arg9 m ρ c).trans (at7_main_arg9 m ρ c)
theorem keep9_main_arg9 : W9 m ρ c (Proc.devRef .tc main_arg9) = W8 m ρ c (Proc.devRef .tc main_arg9) := by
  show StableHlo.after hostOps5 (W8 m ρ c) (Proc.devRef .tc main_arg9) = _
  dsimp only [hostOps5]
  after_results
theorem at9_main_arg9 : W9 m ρ c (Proc.devRef .tc main_arg9) = W0 m ρ c (Proc.devRef .tc main_arg9) := (keep9_main_arg9 m ρ c).trans (at8_main_arg9 m ρ c)
theorem keep10_main_arg9 : W10 m ρ c (Proc.devRef .tc main_arg9) = W9 m ρ c (Proc.devRef .tc main_arg9) := W10_of_ne m ρ c main_arg9 (by decide)
theorem at10_main_arg9 : W10 m ρ c (Proc.devRef .tc main_arg9) = W0 m ρ c (Proc.devRef .tc main_arg9) := (keep10_main_arg9 m ρ c).trans (at9_main_arg9 m ρ c)
theorem keep11_main_arg9 : W11 m ρ c (Proc.devRef .tc main_arg9) = W10 m ρ c (Proc.devRef .tc main_arg9) := W11_of_ne m ρ c main_arg9 (by decide)
theorem at11_main_arg9 : W11 m ρ c (Proc.devRef .tc main_arg9) = W0 m ρ c (Proc.devRef .tc main_arg9) := (keep11_main_arg9 m ρ c).trans (at10_main_arg9 m ρ c)

theorem keep3_main_v33_1 : W3 m ρ c (Proc.devRef .tc main_v33_1) = W2 m ρ c (Proc.devRef .tc main_v33_1) := by
  show StableHlo.after hostOps1 (W2 m ρ c) (Proc.devRef .tc main_v33_1) = _
  dsimp only [hostOps1]
  after_results
theorem at3_main_v33_1 : W3 m ρ c (Proc.devRef .tc main_v33_1) = W2 m ρ c (Proc.devRef .tc main_v33_1) := keep3_main_v33_1 m ρ c

theorem keep6_main_v49_1 : W6 m ρ c (Proc.devRef .tc main_v49_1) = W5 m ρ c (Proc.devRef .tc main_v49_1) := by
  show StableHlo.after hostOps3 (W5 m ρ c) (Proc.devRef .tc main_v49_1) = _
  dsimp only [hostOps3]
  after_results
theorem at6_main_v49_1 : W6 m ρ c (Proc.devRef .tc main_v49_1) = W5 m ρ c (Proc.devRef .tc main_v49_1) := keep6_main_v49_1 m ρ c

theorem keep9_main_v65_1 : W9 m ρ c (Proc.devRef .tc main_v65_1) = W8 m ρ c (Proc.devRef .tc main_v65_1) := by
  show StableHlo.after hostOps5 (W8 m ρ c) (Proc.devRef .tc main_v65_1) = _
  dsimp only [hostOps5]
  after_results
theorem at9_main_v65_1 : W9 m ρ c (Proc.devRef .tc main_v65_1) = W8 m ρ c (Proc.devRef .tc main_v65_1) := keep9_main_v65_1 m ρ c

theorem keep12_main_v81_1 : W12 m ρ c (Proc.devRef .tc main_v81_1) = W11 m ρ c (Proc.devRef .tc main_v81_1) := by
  show StableHlo.after hostOps7 (W11 m ρ c) (Proc.devRef .tc main_v81_1) = _
  dsimp only [hostOps7]
  after_results
theorem at12_main_v81_1 : W12 m ρ c (Proc.devRef .tc main_v81_1) = W11 m ρ c (Proc.devRef .tc main_v81_1) := keep12_main_v81_1 m ρ c

/-! ## The edge data and the layers' outputs, as functions of the launch memory -/

/-- The sources, as the program holds them. -/
abbrev srcK := srcOf (m ((c : Thread nD τ).loc main_arg1))
/-- The targets. -/
abbrev dstK := dstOf (m ((c : Thread nD τ).loc main_arg1))
/-- The per-edge weights. -/
abbrev neK := normOf (srcK m c) (dstK m c)
/-- The squared inverse-square-root degrees, one per node. -/
abbrev d2K : Cert.Gcn.Arr 50000 := mulf (F := Ideal) (disOf (dstK m c)) (disOf (dstK m c))

/-- The first layer's output. -/
def act1 : Cert.Gcn.Mat 50000 128 :=
  Cert.Gcn.layerRelu (agg128 (srcK m c) (dstK m c) (neK m c)) (d2K m c) (m ((c : Thread nD τ).loc main_arg3)) (m ((c : Thread nD τ).loc main_arg0)) (m ((c : Thread nD τ).loc main_arg2))
/-- The second layer's output. -/
def act2 : Cert.Gcn.Mat 50000 128 :=
  Cert.Gcn.layerRelu (agg128 (srcK m c) (dstK m c) (neK m c)) (d2K m c) (m ((c : Thread nD τ).loc main_arg5)) (act1 m c) (m ((c : Thread nD τ).loc main_arg4))
/-- The third layer's output. -/
def act3 : Cert.Gcn.Mat 50000 128 :=
  Cert.Gcn.layerRelu (agg128 (srcK m c) (dstK m c) (neK m c)) (d2K m c) (m ((c : Thread nD τ).loc main_arg7)) (act2 m c) (m ((c : Thread nD τ).loc main_arg6))
/-- The fourth layer's output: the program's result. -/
def act4 : Cert.Gcn.Mat 50000 64 :=
  Cert.Gcn.layer (agg64 (srcK m c) (dstK m c) (neK m c)) (d2K m c) (m ((c : Thread nD τ).loc main_arg9)) (act3 m c) (m ((c : Thread nD τ).loc main_arg8))

/-! ## The first stretch of host operations: the edge data -/

set_option maxHeartbeats 4000000 in
theorem val1_v1 : W1 m ρ c (Proc.devRef .tc main_v1) = srcK m c := by
  show StableHlo.after hostOps0 (W0 m ρ c) (Proc.devRef .tc main_v1) = _
  dsimp only [hostOps0]
  after_results_simp <;> rfl
set_option maxHeartbeats 4000000 in
theorem val1_v3 : W1 m ρ c (Proc.devRef .tc main_v3) = dstK m c := by
  show StableHlo.after hostOps0 (W0 m ρ c) (Proc.devRef .tc main_v3) = _
  dsimp only [hostOps0]
  after_results_simp <;> rfl
set_option maxHeartbeats 4000000 in
theorem val1_v32 : W1 m ρ c (Proc.devRef .tc main_v32) = neK m c := by
  show StableHlo.after hostOps0 (W0 m ρ c) (Proc.devRef .tc main_v32) = _
  dsimp only [hostOps0]
  after_results_simp <;> rfl
set_option maxHeartbeats 4000000 in
theorem val1_v17 : W1 m ρ c (Proc.devRef .tc main_v17) = d2colOf (dstK m c) := by
  show StableHlo.after hostOps0 (W0 m ρ c) (Proc.devRef .tc main_v17) = _
  dsimp only [hostOps0]
  after_results_simp <;> rfl
/-- The column of row scales, read at (r, 0), is the squared entry of node r. -/
theorem d2col_read : (fun j : (⟨1, ![50000]⟩ : Shape).Idx => (d2colOf (dstK m c) : S50000x1.Idx → EReal) (ix2 (j 0) 0)) = d2K m c :=
  col_of_reshape (mulf (F := Ideal) (disOf (dstK m c)) (disOf (dstK m c))) Facts₀.shapeCasts_S50000_S50000x1

/-! ## Layer 1 -/

/-- After the product call: the product array. -/
theorem lvl2_prod : W2 m ρ c (Proc.devRef .tc main_v33_0) = (Cert.Gcn.lin (m ((c : Thread nD τ).loc main_arg0)) (m ((c : Thread nD τ).loc main_arg2)) : S50000x128.Idx → EReal) := by
  refine (W2_arr m ρ c 3).trans ?_
  refine (prod0 (V1 m ρ) c).trans ?_
  rw [show V1 m ρ c main_arg0 = m ((c : Thread nD τ).loc main_arg0) from at1_main_arg0 m ρ c, show V1 m ρ c main_arg2 = m ((c : Thread nD τ).loc main_arg2) from at1_main_arg2 m ρ c]
/-- After the product call: the scaled array. -/
theorem lvl2_scal : W2 m ρ c (Proc.devRef .tc main_v33_1) = (Cert.Gcn.scaled (d2K m c) (m ((c : Thread nD τ).loc main_arg0)) (m ((c : Thread nD τ).loc main_arg2)) : S50000x128.Idx → EReal) := by
  refine (W2_arr m ρ c 4).trans ?_
  refine (scal0 (V1 m ρ) c).trans ?_
  rw [show V1 m ρ c main_arg0 = m ((c : Thread nD τ).loc main_arg0) from at1_main_arg0 m ρ c, show V1 m ρ c main_arg2 = m ((c : Thread nD τ).loc main_arg2) from at1_main_arg2 m ρ c, show V1 m ρ c main_v17 = d2colOf (dstK m c) from val1_v17 m ρ c, d2col_read m c]
set_option maxHeartbeats 4000000 in
/-- The host stretch's aggregation, read off its operations. -/
theorem val3_agg : W3 m ρ c (Proc.devRef .tc main_v46) = agg128 (W2 m ρ c (Proc.devRef .tc main_v1)) (W2 m ρ c (Proc.devRef .tc main_v3)) (W2 m ρ c (Proc.devRef .tc main_v32)) (W2 m ρ c (Proc.devRef .tc main_v33_0)) := by
  show StableHlo.after hostOps1 (W2 m ρ c) (Proc.devRef .tc main_v46) = _
  dsimp only [hostOps1]
  after_results_simp <;> rfl
/-- The aggregated neighbours of the product. -/
theorem lvl3_agg : W3 m ρ c (Proc.devRef .tc main_v46) = agg128 (srcK m c) (dstK m c) (neK m c) (Cert.Gcn.lin (m ((c : Thread nD τ).loc main_arg0)) (m ((c : Thread nD τ).loc main_arg2))) := by
  rw [val3_agg, at2_main_v1, val1_v1, at2_main_v3, val1_v3, at2_main_v32, val1_v32, lvl2_prod]
/-- The bias as a 1 × 128 row. -/
theorem lvl3_bias : W3 m ρ c (Proc.devRef .tc main_v47) = shapeCast _ (m ((c : Thread nD τ).loc main_arg3)) Facts₀.shapeCasts_S128_S1x128 := by
  have h : W3 m ρ c (Proc.devRef .tc main_v47) = shapeCast _ (W2 m ρ c (Proc.devRef .tc main_arg3)) Facts₀.shapeCasts_S128_S1x128 := by
    show StableHlo.after hostOps1 (W2 m ρ c) (Proc.devRef .tc main_v47) = _
    dsimp only [hostOps1]
    after_results_simp <;> rfl
  rw [h, at2_main_arg3]
/-- The scaled array is untouched by the host stretch. -/
theorem lvl3_scal : W3 m ρ c (Proc.devRef .tc main_v33_1) = (Cert.Gcn.scaled (d2K m c) (m ((c : Thread nD τ).loc main_arg0)) (m ((c : Thread nD τ).loc main_arg2)) : S50000x128.Idx → EReal) :=
  (keep3_main_v33_1 m ρ c).trans (lvl2_scal m ρ c)
/-- After the combining call: the layer's output. -/
theorem lvl4_out : W4 m ρ c (Proc.devRef .tc main_v48) = act1 m c := by
  refine (W4_arr m ρ c 3).trans ?_
  refine (comb1 (V3 m ρ) c).trans ?_
  rw [show V3 m ρ c main_v47 = _ from lvl3_bias m ρ c, show V3 m ρ c main_v46 = _ from lvl3_agg m ρ c, show V3 m ρ c main_v33_1 = _ from lvl3_scal m ρ c]
  rw [show (fun j : (⟨1, ![128]⟩ : Shape).Idx => (shapeCast _ (m ((c : Thread nD τ).loc main_arg3)) Facts₀.shapeCasts_S128_S1x128 : S1x128.Idx → EReal) (ix2 0 (j 0))) = m ((c : Thread nD τ).loc main_arg3) from row_of_reshape _ _]
  rfl

/-! ## Layer 2 -/

/-- After the product call: the product array. -/
theorem lvl5_prod : W5 m ρ c (Proc.devRef .tc main_v49_0) = (Cert.Gcn.lin (act1 m c) (m ((c : Thread nD τ).loc main_arg4)) : S50000x128.Idx → EReal) := by
  refine (W5_arr m ρ c 3).trans ?_
  refine (prod2 (V4 m ρ) c).trans ?_
  rw [show V4 m ρ c main_v48 = act1 m c from lvl4_out m ρ c, show V4 m ρ c main_arg4 = m ((c : Thread nD τ).loc main_arg4) from at4_main_arg4 m ρ c]
/-- After the product call: the scaled array. -/
theorem lvl5_scal : W5 m ρ c (Proc.devRef .tc main_v49_1) = (Cert.Gcn.scaled (d2K m c) (act1 m c) (m ((c : Thread nD τ).loc main_arg4)) : S50000x128.Idx → EReal) := by
  refine (W5_arr m ρ c 4).trans ?_
  refine (scal2 (V4 m ρ) c).trans ?_
  rw [show V4 m ρ c main_v48 = act1 m c from lvl4_out m ρ c, show V4 m ρ c main_arg4 = m ((c : Thread nD τ).loc main_arg4) from at4_main_arg4 m ρ c, show V4 m ρ c main_v17 = d2colOf (dstK m c) from (at4_main_v17 m ρ c).trans (val1_v17 m ρ c), d2col_read m c]
set_option maxHeartbeats 4000000 in
/-- The host stretch's aggregation, read off its operations. -/
theorem val6_agg : W6 m ρ c (Proc.devRef .tc main_v62) = agg128 (W5 m ρ c (Proc.devRef .tc main_v1)) (W5 m ρ c (Proc.devRef .tc main_v3)) (W5 m ρ c (Proc.devRef .tc main_v32)) (W5 m ρ c (Proc.devRef .tc main_v49_0)) := by
  show StableHlo.after hostOps3 (W5 m ρ c) (Proc.devRef .tc main_v62) = _
  dsimp only [hostOps3]
  after_results_simp <;> rfl
/-- The aggregated neighbours of the product. -/
theorem lvl6_agg : W6 m ρ c (Proc.devRef .tc main_v62) = agg128 (srcK m c) (dstK m c) (neK m c) (Cert.Gcn.lin (act1 m c) (m ((c : Thread nD τ).loc main_arg4))) := by
  rw [val6_agg, at5_main_v1, val1_v1, at5_main_v3, val1_v3, at5_main_v32, val1_v32, lvl5_prod]
/-- The bias as a 1 × 128 row. -/
theorem lvl6_bias : W6 m ρ c (Proc.devRef .tc main_v63) = shapeCast _ (m ((c : Thread nD τ).loc main_arg5)) Facts₀.shapeCasts_S128_S1x128 := by
  have h : W6 m ρ c (Proc.devRef .tc main_v63) = shapeCast _ (W5 m ρ c (Proc.devRef .tc main_arg5)) Facts₀.shapeCasts_S128_S1x128 := by
    show StableHlo.after hostOps3 (W5 m ρ c) (Proc.devRef .tc main_v63) = _
    dsimp only [hostOps3]
    after_results_simp <;> rfl
  rw [h, at5_main_arg5]
/-- The scaled array is untouched by the host stretch. -/
theorem lvl6_scal : W6 m ρ c (Proc.devRef .tc main_v49_1) = (Cert.Gcn.scaled (d2K m c) (act1 m c) (m ((c : Thread nD τ).loc main_arg4)) : S50000x128.Idx → EReal) :=
  (keep6_main_v49_1 m ρ c).trans (lvl5_scal m ρ c)
/-- After the combining call: the layer's output. -/
theorem lvl7_out : W7 m ρ c (Proc.devRef .tc main_v64) = act2 m c := by
  refine (W7_arr m ρ c 3).trans ?_
  refine (comb3 (V6 m ρ) c).trans ?_
  rw [show V6 m ρ c main_v63 = _ from lvl6_bias m ρ c, show V6 m ρ c main_v62 = _ from lvl6_agg m ρ c, show V6 m ρ c main_v49_1 = _ from lvl6_scal m ρ c]
  rw [show (fun j : (⟨1, ![128]⟩ : Shape).Idx => (shapeCast _ (m ((c : Thread nD τ).loc main_arg5)) Facts₀.shapeCasts_S128_S1x128 : S1x128.Idx → EReal) (ix2 0 (j 0))) = m ((c : Thread nD τ).loc main_arg5) from row_of_reshape _ _]
  rfl

/-! ## Layer 3 -/

/-- After the product call: the product array. -/
theorem lvl8_prod : W8 m ρ c (Proc.devRef .tc main_v65_0) = (Cert.Gcn.lin (act2 m c) (m ((c : Thread nD τ).loc main_arg6)) : S50000x128.Idx → EReal) := by
  refine (W8_arr m ρ c 3).trans ?_
  refine (prod4 (V7 m ρ) c).trans ?_
  rw [show V7 m ρ c main_v64 = act2 m c from lvl7_out m ρ c, show V7 m ρ c main_arg6 = m ((c : Thread nD τ).loc main_arg6) from at7_main_arg6 m ρ c]
/-- After the product call: the scaled array. -/
theorem lvl8_scal : W8 m ρ c (Proc.devRef .tc main_v65_1) = (Cert.Gcn.scaled (d2K m c) (act2 m c) (m ((c : Thread nD τ).loc main_arg6)) : S50000x128.Idx → EReal) := by
  refine (W8_arr m ρ c 4).trans ?_
  refine (scal4 (V7 m ρ) c).trans ?_
  rw [show V7 m ρ c main_v64 = act2 m c from lvl7_out m ρ c, show V7 m ρ c main_arg6 = m ((c : Thread nD τ).loc main_arg6) from at7_main_arg6 m ρ c, show V7 m ρ c main_v17 = d2colOf (dstK m c) from (at7_main_v17 m ρ c).trans (val1_v17 m ρ c), d2col_read m c]
set_option maxHeartbeats 4000000 in
/-- The host stretch's aggregation, read off its operations. -/
theorem val9_agg : W9 m ρ c (Proc.devRef .tc main_v78) = agg128 (W8 m ρ c (Proc.devRef .tc main_v1)) (W8 m ρ c (Proc.devRef .tc main_v3)) (W8 m ρ c (Proc.devRef .tc main_v32)) (W8 m ρ c (Proc.devRef .tc main_v65_0)) := by
  show StableHlo.after hostOps5 (W8 m ρ c) (Proc.devRef .tc main_v78) = _
  dsimp only [hostOps5]
  after_results_simp <;> rfl
/-- The aggregated neighbours of the product. -/
theorem lvl9_agg : W9 m ρ c (Proc.devRef .tc main_v78) = agg128 (srcK m c) (dstK m c) (neK m c) (Cert.Gcn.lin (act2 m c) (m ((c : Thread nD τ).loc main_arg6))) := by
  rw [val9_agg, at8_main_v1, val1_v1, at8_main_v3, val1_v3, at8_main_v32, val1_v32, lvl8_prod]
/-- The bias as a 1 × 128 row. -/
theorem lvl9_bias : W9 m ρ c (Proc.devRef .tc main_v79) = shapeCast _ (m ((c : Thread nD τ).loc main_arg7)) Facts₀.shapeCasts_S128_S1x128 := by
  have h : W9 m ρ c (Proc.devRef .tc main_v79) = shapeCast _ (W8 m ρ c (Proc.devRef .tc main_arg7)) Facts₀.shapeCasts_S128_S1x128 := by
    show StableHlo.after hostOps5 (W8 m ρ c) (Proc.devRef .tc main_v79) = _
    dsimp only [hostOps5]
    after_results_simp <;> rfl
  rw [h, at8_main_arg7]
/-- The scaled array is untouched by the host stretch. -/
theorem lvl9_scal : W9 m ρ c (Proc.devRef .tc main_v65_1) = (Cert.Gcn.scaled (d2K m c) (act2 m c) (m ((c : Thread nD τ).loc main_arg6)) : S50000x128.Idx → EReal) :=
  (keep9_main_v65_1 m ρ c).trans (lvl8_scal m ρ c)
/-- After the combining call: the layer's output. -/
theorem lvl10_out : W10 m ρ c (Proc.devRef .tc main_v80) = act3 m c := by
  refine (W10_arr m ρ c 3).trans ?_
  refine (comb5 (V9 m ρ) c).trans ?_
  rw [show V9 m ρ c main_v79 = _ from lvl9_bias m ρ c, show V9 m ρ c main_v78 = _ from lvl9_agg m ρ c, show V9 m ρ c main_v65_1 = _ from lvl9_scal m ρ c]
  rw [show (fun j : (⟨1, ![128]⟩ : Shape).Idx => (shapeCast _ (m ((c : Thread nD τ).loc main_arg7)) Facts₀.shapeCasts_S128_S1x128 : S1x128.Idx → EReal) (ix2 0 (j 0))) = m ((c : Thread nD τ).loc main_arg7) from row_of_reshape _ _]
  rfl

/-! ## Layer 4 -/

/-- After the product call: the product array. -/
theorem lvl11_prod : W11 m ρ c (Proc.devRef .tc main_v81_0) = (Cert.Gcn.lin (act3 m c) (m ((c : Thread nD τ).loc main_arg8)) : S50000x64.Idx → EReal) := by
  refine (W11_arr m ρ c 3).trans ?_
  refine (prod6 (V10 m ρ) c).trans ?_
  rw [show V10 m ρ c main_v80 = act3 m c from lvl10_out m ρ c, show V10 m ρ c main_arg8 = m ((c : Thread nD τ).loc main_arg8) from at10_main_arg8 m ρ c]
/-- After the product call: the scaled array. -/
theorem lvl11_scal : W11 m ρ c (Proc.devRef .tc main_v81_1) = (Cert.Gcn.scaled (d2K m c) (act3 m c) (m ((c : Thread nD τ).loc main_arg8)) : S50000x64.Idx → EReal) := by
  refine (W11_arr m ρ c 4).trans ?_
  refine (scal6 (V10 m ρ) c).trans ?_
  rw [show V10 m ρ c main_v80 = act3 m c from lvl10_out m ρ c, show V10 m ρ c main_arg8 = m ((c : Thread nD τ).loc main_arg8) from at10_main_arg8 m ρ c, show V10 m ρ c main_v17 = d2colOf (dstK m c) from (at10_main_v17 m ρ c).trans (val1_v17 m ρ c), d2col_read m c]
set_option maxHeartbeats 4000000 in
/-- The host stretch's aggregation, read off its operations. -/
theorem val12_agg : W12 m ρ c (Proc.devRef .tc main_v94) = agg64 (W11 m ρ c (Proc.devRef .tc main_v1)) (W11 m ρ c (Proc.devRef .tc main_v3)) (W11 m ρ c (Proc.devRef .tc main_v32)) (W11 m ρ c (Proc.devRef .tc main_v81_0)) := by
  show StableHlo.after hostOps7 (W11 m ρ c) (Proc.devRef .tc main_v94) = _
  dsimp only [hostOps7]
  after_results_simp <;> rfl
/-- The aggregated neighbours of the product. -/
theorem lvl12_agg : W12 m ρ c (Proc.devRef .tc main_v94) = agg64 (srcK m c) (dstK m c) (neK m c) (Cert.Gcn.lin (act3 m c) (m ((c : Thread nD τ).loc main_arg8))) := by
  rw [val12_agg, at11_main_v1, val1_v1, at11_main_v3, val1_v3, at11_main_v32, val1_v32, lvl11_prod]
/-- The bias as a 1 × 64 row. -/
theorem lvl12_bias : W12 m ρ c (Proc.devRef .tc main_v95) = shapeCast _ (m ((c : Thread nD τ).loc main_arg9)) Facts₀.shapeCasts_S64_S1x64 := by
  have h : W12 m ρ c (Proc.devRef .tc main_v95) = shapeCast _ (W11 m ρ c (Proc.devRef .tc main_arg9)) Facts₀.shapeCasts_S64_S1x64 := by
    show StableHlo.after hostOps7 (W11 m ρ c) (Proc.devRef .tc main_v95) = _
    dsimp only [hostOps7]
    after_results_simp <;> rfl
  rw [h, at11_main_arg9]
/-- The scaled array is untouched by the host stretch. -/
theorem lvl12_scal : W12 m ρ c (Proc.devRef .tc main_v81_1) = (Cert.Gcn.scaled (d2K m c) (act3 m c) (m ((c : Thread nD τ).loc main_arg8)) : S50000x64.Idx → EReal) :=
  (keep12_main_v81_1 m ρ c).trans (lvl11_scal m ρ c)
/-- After the combining call: the layer's output. -/
theorem lvl13_out : W13 m ρ c (Proc.devRef .tc main_v96) = act4 m c := by
  refine (W13_arr m ρ c 3).trans ?_
  refine (comb7 (V12 m ρ) c).trans ?_
  rw [show V12 m ρ c main_v95 = _ from lvl12_bias m ρ c, show V12 m ρ c main_v94 = _ from lvl12_agg m ρ c, show V12 m ρ c main_v81_1 = _ from lvl12_scal m ρ c]
  rw [show (fun j : (⟨1, ![64]⟩ : Shape).Idx => (shapeCast _ (m ((c : Thread nD τ).loc main_arg9)) Facts₀.shapeCasts_S64_S1x64 : S1x64.Idx → EReal) (ix2 0 (j 0))) = m ((c : Thread nD τ).loc main_arg9) from row_of_reshape _ _]
  rfl

end Cert.KernelIdeal.Layers

end
-- ==== Proof.RefValue.lean ====
/-
  The reference side: a four-layer graph convolution, one layer at a time.

  A layer takes node features A (N × K), a weight matrix W (K × C), a bias b (length C), the squared
  inverse-square-root degrees d2 (length N) and an aggregation over neighbours. With H = A · W, whose
  entry (r, c) is the finite sum over k of A (r, k) * W (k, c), the layer's entry at (r, c) is

      (agg H (r, c) + H (r, c) * d2 r) + b c,

  followed, in the three inner layers, by the maximum with zero; the last layer has no maximum.

  Every operation of the reference that computes one result element from one element of each operand
  is read at an index: the elementwise product, sum and maximum read both operands at the same index,
  and a broadcast reads its operand at the index with the added axes dropped, so broadcasting d2 along
  the columns reads it at the row coordinate and broadcasting b along the rows reads it at the column
  coordinate. The matrix product is read as its finite sum. Reading the stages of one layer outermost
  first gives exactly the bracketing above, so no algebraic law of the extended reals is used.

  Two kinds of term stay opaque. The aggregation gathers rows of H along the edge list, scales each
  gathered row by the edge's weight and scatter-adds the rows into a zero array; which elements it
  reads depends on the edge list's values, so it is kept as one function `aggR` of H (one per layer,
  built from that layer's own index and weight stages) and never read at an index. The zero of the
  maximum is kept as its binary word and never evaluated.
-/
import proofs.«102909_j69947837382767_1_alg».proof.Proof.Gen.ReferenceIdeal.Read
import proofs.«102909_j69947837382767_1_alg».proof.Proof.Spec
import proofs.«102909_j69947837382767_1_alg».proof.Proof.LibPlainDot

noncomputable section

open scoped BigOperators

namespace Cert.ReferenceIdeal.RefValue

open Cert.ReferenceIdeal Cert.ReferenceIdeal.Facts₀ Cert.ReferenceIdeal.Facts Cert.ReferenceIdeal.Read Idealize.ShloMosaic Idealize.ShloMosaic.ValueIdx

/-- Layer 1's aggregation as a function of the product H: gather rows of H along the edge sources,
    scale by the edge weights, scatter-add into zeros along the edge targets. -/
def aggR1 (x1 : (⟨S2x800000, .i32⟩ : BufTy).Contents (Elt Ideal)) (H : FVec Ideal S50000x128 .f32) : FVec Ideal S50000x128 .f32 :=
  Host.scatterAdd (F := Ideal) scatter_S50000x128_S800000x1_S800000x128_1_0_0_1 (val_main_v42 (F := Ideal)) (val_main_v43 (F := Ideal) x1)
    (mulf (F := Ideal) (Host.gather gather_S50000x128_S800000x1_S800000x128_1_0_n_n_0_1_1128 H (val_main_v37 (F := Ideal) x1)) (val_main_v40 (F := Ideal) x1))

/-- The first layer of the reference is the inner layer of the specification. -/
theorem layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) :
    val_main_v53 (F := Ideal) x0 x1 x2 x3
      = Cert.Gcn.layerRelu (aggR1 x1) (val_main_v45 (F := Ideal) x1) x3 x0 x2 := by
  -- the matrix product is the specification's finite sum
  have hlin : val_main_v16 (F := Ideal) x0 x2 = Cert.Gcn.lin x0 x2 := by
    funext i
    obtain ⟨r, c, rfl⟩ : ∃ r c, i = ix2 r c := ⟨i 0, i 1, eq_ix2 i⟩
    unfold val_main_v16
    simp only [Host.dotGeneral]
    exact Cert.PlainDot.dotGeneral_apply _ rfl none _ x0 x2 r c
  -- the aggregation is the opaque function of the product
  have hagg : val_main_v44 (F := Ideal) x0 x1 x2 = aggR1 x1 (val_main_v16 (F := Ideal) x0 x2) := rfl
  -- broadcasting d2 along the columns reads it at the row coordinate
  have hrow : ∀ i : S50000x128.Idx, idx_main_v46 (idx_main_v47 i) = ix1 (i 0) := fun i => by
    funext a
    match a with
    | ⟨0, _⟩ => rfl
  -- broadcasting the bias along the rows reads it at the column coordinate
  have hcol : ∀ i : S50000x128.Idx, idx_main_v50 (idx_main_v51 i) = ix1 (i 1) := fun i => by
    funext a
    match a with
    | ⟨0, _⟩ => rfl
  funext i
  unfold Cert.Gcn.layerRelu Cert.Gcn.preRelu Cert.Gcn.pre Cert.Gcn.scaled
  rw [val_main_v53_apply, val_main_v52_apply, val_main_v49_apply, val_main_v48_apply, val_main_v51_apply,
    val_main_v50_apply, val_main_v47_apply, val_main_v46_apply, val_main_call0_v0_apply, val_main_call0_cst_apply,
    hrow, hcol, hagg, hlin]
  rfl

/-- Layer 2's aggregation as a function of the product H: gather rows of H along the edge sources,
    scale by the edge weights, scatter-add into zeros along the edge targets. -/
def aggR2 (x1 : (⟨S2x800000, .i32⟩ : BufTy).Contents (Elt Ideal)) (H : FVec Ideal S50000x128 .f32) : FVec Ideal S50000x128 .f32 :=
  Host.scatterAdd (F := Ideal) scatter_S50000x128_S800000x1_S800000x128_1_0_0_1 (val_main_v80 (F := Ideal)) (val_main_v81 (F := Ideal) x1)
    (mulf (F := Ideal) (Host.gather gather_S50000x128_S800000x1_S800000x128_1_0_n_n_0_1_1128 H (val_main_v75 (F := Ideal) x1)) (val_main_v78 (F := Ideal) x1))

/-- The second layer of the reference is the inner layer of the specification, applied to the layer before it. -/
theorem layer2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v91 (F := Ideal) x0 x1 x2 x3 x4 x5
      = Cert.Gcn.layerRelu (aggR2 x1) (val_main_v83 (F := Ideal) x1) x5 (val_main_v53 (F := Ideal) x0 x1 x2 x3) x4 := by
  -- the matrix product is the specification's finite sum
  have hlin : val_main_v54 (F := Ideal) x0 x1 x2 x3 x4 = Cert.Gcn.lin (val_main_v53 (F := Ideal) x0 x1 x2 x3) x4 := by
    funext i
    obtain ⟨r, c, rfl⟩ : ∃ r c, i = ix2 r c := ⟨i 0, i 1, eq_ix2 i⟩
    unfold val_main_v54
    simp only [Host.dotGeneral]
    exact Cert.PlainDot.dotGeneral_apply _ rfl none _ (val_main_v53 (F := Ideal) x0 x1 x2 x3) x4 r c
  -- the aggregation is the opaque function of the product
  have hagg : val_main_v82 (F := Ideal) x0 x1 x2 x3 x4 = aggR2 x1 (val_main_v54 (F := Ideal) x0 x1 x2 x3 x4) := rfl
  -- broadcasting d2 along the columns reads it at the row coordinate
  have hrow : ∀ i : S50000x128.Idx, idx_main_v84 (idx_main_v85 i) = ix1 (i 0) := fun i => by
    funext a
    match a with
    | ⟨0, _⟩ => rfl
  -- broadcasting the bias along the rows reads it at the column coordinate
  have hcol : ∀ i : S50000x128.Idx, idx_main_v88 (idx_main_v89 i) = ix1 (i 1) := fun i => by
    funext a
    match a with
    | ⟨0, _⟩ => rfl
  funext i
  unfold Cert.Gcn.layerRelu Cert.Gcn.preRelu Cert.Gcn.pre Cert.Gcn.scaled
  rw [val_main_v91_apply, val_main_v90_apply, val_main_v87_apply, val_main_v86_apply, val_main_v89_apply,
    val_main_v88_apply, val_main_v85_apply, val_main_v84_apply, val_main_call1_v0_apply, val_main_call1_cst_apply,
    hrow, hcol, hagg, hlin]
  rfl

/-- Layer 3's aggregation as a function of the product H: gather rows of H along the edge sources,
    scale by the edge weights, scatter-add into zeros along the edge targets. -/
def aggR3 (x1 : (⟨S2x800000, .i32⟩ : BufTy).Contents (Elt Ideal)) (H : FVec Ideal S50000x128 .f32) : FVec Ideal S50000x128 .f32 :=
  Host.scatterAdd (F := Ideal) scatter_S50000x128_S800000x1_S800000x128_1_0_0_1 (val_main_v118 (F := Ideal)) (val_main_v119 (F := Ideal) x1)
    (mulf (F := Ideal) (Host.gather gather_S50000x128_S800000x1_S800000x128_1_0_n_n_0_1_1128 H (val_main_v113 (F := Ideal) x1)) (val_main_v116 (F := Ideal) x1))

/-- The third layer of the reference is the inner layer of the specification, applied to the layer before it. -/
theorem layer3 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v129 (F := Ideal) x0 x1 x2 x3 x4 x5 x6 x7
      = Cert.Gcn.layerRelu (aggR3 x1) (val_main_v121 (F := Ideal) x1) x7 (val_main_v91 (F := Ideal) x0 x1 x2 x3 x4 x5) x6 := by
  -- the matrix product is the specification's finite sum
  have hlin : val_main_v92 (F := Ideal) x0 x1 x2 x3 x4 x5 x6 = Cert.Gcn.lin (val_main_v91 (F := Ideal) x0 x1 x2 x3 x4 x5) x6 := by
    funext i
    obtain ⟨r, c, rfl⟩ : ∃ r c, i = ix2 r c := ⟨i 0, i 1, eq_ix2 i⟩
    unfold val_main_v92
    simp only [Host.dotGeneral]
    exact Cert.PlainDot.dotGeneral_apply _ rfl none _ (val_main_v91 (F := Ideal) x0 x1 x2 x3 x4 x5) x6 r c
  -- the aggregation is the opaque function of the product
  have hagg : val_main_v120 (F := Ideal) x0 x1 x2 x3 x4 x5 x6 = aggR3 x1 (val_main_v92 (F := Ideal) x0 x1 x2 x3 x4 x5 x6) := rfl
  -- broadcasting d2 along the columns reads it at the row coordinate
  have hrow : ∀ i : S50000x128.Idx, idx_main_v122 (idx_main_v123 i) = ix1 (i 0) := fun i => by
    funext a
    match a with
    | ⟨0, _⟩ => rfl
  -- broadcasting the bias along the rows reads it at the column coordinate
  have hcol : ∀ i : S50000x128.Idx, idx_main_v126 (idx_main_v127 i) = ix1 (i 1) := fun i => by
    funext a
    match a with
    | ⟨0, _⟩ => rfl
  funext i
  unfold Cert.Gcn.layerRelu Cert.Gcn.preRelu Cert.Gcn.pre Cert.Gcn.scaled
  rw [val_main_v129_apply, val_main_v128_apply, val_main_v125_apply, val_main_v124_apply, val_main_v127_apply,
    val_main_v126_apply, val_main_v123_apply, val_main_v122_apply, val_main_call2_v0_apply, val_main_call2_cst_apply,
    hrow, hcol, hagg, hlin]
  rfl

/-- Layer 4's aggregation as a function of the product H: gather rows of H along the edge sources,
    scale by the edge weights, scatter-add into zeros along the edge targets. -/
def aggR4 (x1 : (⟨S2x800000, .i32⟩ : BufTy).Contents (Elt Ideal)) (H : FVec Ideal S50000x64 .f32) : FVec Ideal S50000x64 .f32 :=
  Host.scatterAdd (F := Ideal) scatter_S50000x64_S800000x1_S800000x64_1_0_0_1 (val_main_v156 (F := Ideal)) (val_main_v157 (F := Ideal) x1)
    (mulf (F := Ideal) (Host.gather gather_S50000x64_S800000x1_S800000x64_1_0_n_n_0_1_164 H (val_main_v151 (F := Ideal) x1)) (val_main_v154 (F := Ideal) x1))

/-- The last layer of the reference is the outer layer of the specification, applied to the layer before it. -/
theorem layer4 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) :
    val_main_v166 (F := Ideal) x0 x1 x2 x3 x4 x5 x6 x7 x8 x9
      = Cert.Gcn.layer (aggR4 x1) (val_main_v159 (F := Ideal) x1) x9 (val_main_v129 (F := Ideal) x0 x1 x2 x3 x4 x5 x6 x7) x8 := by
  -- the matrix product is the specification's finite sum
  have hlin : val_main_v130 (F := Ideal) x0 x1 x2 x3 x4 x5 x6 x7 x8 = Cert.Gcn.lin (val_main_v129 (F := Ideal) x0 x1 x2 x3 x4 x5 x6 x7) x8 := by
    funext i
    obtain ⟨r, c, rfl⟩ : ∃ r c, i = ix2 r c := ⟨i 0, i 1, eq_ix2 i⟩
    unfold val_main_v130
    simp only [Host.dotGeneral]
    exact Cert.PlainDot.dotGeneral_apply _ rfl none _ (val_main_v129 (F := Ideal) x0 x1 x2 x3 x4 x5 x6 x7) x8 r c
  -- the aggregation is the opaque function of the product
  have hagg : val_main_v158 (F := Ideal) x0 x1 x2 x3 x4 x5 x6 x7 x8 = aggR4 x1 (val_main_v130 (F := Ideal) x0 x1 x2 x3 x4 x5 x6 x7 x8) := rfl
  -- broadcasting d2 along the columns reads it at the row coordinate
  have hrow : ∀ i : S50000x64.Idx, idx_main_v160 (idx_main_v161 i) = ix1 (i 0) := fun i => by
    funext a
    match a with
    | ⟨0, _⟩ => rfl
  -- broadcasting the bias along the rows reads it at the column coordinate
  have hcol : ∀ i : S50000x64.Idx, idx_main_v164 (idx_main_v165 i) = ix1 (i 1) := fun i => by
    funext a
    match a with
    | ⟨0, _⟩ => rfl
  funext i
  unfold Cert.Gcn.layer Cert.Gcn.pre Cert.Gcn.scaled
  rw [val_main_v166_apply, val_main_v163_apply, val_main_v162_apply, val_main_v165_apply,
    val_main_v164_apply, val_main_v161_apply, val_main_v160_apply, hrow, hcol, hagg, hlin]
  rfl

end Cert.ReferenceIdeal.RefValue

end
-- ==== Proof.Bridge.lean ====
/-
  The two programs perform the same edge operations.

  Both programs start from the same edge list, a 2 × E integer array whose row 0 holds the sources and
  row 1 the targets. From it each computes the inverse square roots of the in-degrees plus one (ones
  scatter-added at the targets into zeros, plus one, then the inverse square root), the per-edge weight
  (that array read at the edge's source times it read at the edge's target) and, for a layer's product
  H, the aggregation: the rows of H gathered at the sources, row e scaled by edge e's weight, and the
  rows scatter-added into zeros at the targets. A negative index is read from the end: N is added to
  it before it is used as a start index.

  The reference program spells these steps out afresh in each of its four layers, each time from its
  own copies of the index, weight and zero arrays; the kernel program computes the sources, the targets
  and the weights once and reuses them. Layer by layer the two spellings are the same nest of the same
  array operations over the same literal shapes and dimension numbers, so each comparison below holds
  by unfolding definitions; nothing is read at an index and no property of the operations is used.

  Compared here, for every edge list: each layer's reference aggregation, as a function of H, with the
  kernel program's aggregation at the once-computed sources, targets and weights (on N × 128 arrays in
  the first three layers, on N × 64 arrays in the last); and each layer's squared inverse-square-root
  degrees with the elementwise square of the kernel program's inverse-square-root degrees.
-/
import proofs.«102909_j69947837382767_1_alg».proof.Proof.RefValue
import proofs.«102909_j69947837382767_1_alg».proof.Proof.KHost

noncomputable section

namespace Cert.Proof.Bridge

open Idealize.ShloMosaic Cert.ReferenceIdeal.Read Cert.ReferenceIdeal.RefValue Cert.KernelIdeal.Layers

/-! The aggregations. -/

set_option maxHeartbeats 400000 in
/-- Layer 1's reference aggregation is the kernel program's aggregation on N × 128 arrays. -/
theorem agg1_eq (x1 : (⟨Cert.ReferenceIdeal.S2x800000, .i32⟩ : BufTy).Contents (Elt Ideal)) :
    aggR1 x1 = agg128 (srcOf x1) (dstOf x1) (normOf (srcOf x1) (dstOf x1)) := rfl

set_option maxHeartbeats 400000 in
/-- The same for layer 2. -/
theorem agg2_eq (x1 : (⟨Cert.ReferenceIdeal.S2x800000, .i32⟩ : BufTy).Contents (Elt Ideal)) :
    aggR2 x1 = agg128 (srcOf x1) (dstOf x1) (normOf (srcOf x1) (dstOf x1)) := rfl

set_option maxHeartbeats 400000 in
/-- The same for layer 3. -/
theorem agg3_eq (x1 : (⟨Cert.ReferenceIdeal.S2x800000, .i32⟩ : BufTy).Contents (Elt Ideal)) :
    aggR3 x1 = agg128 (srcOf x1) (dstOf x1) (normOf (srcOf x1) (dstOf x1)) := rfl

set_option maxHeartbeats 400000 in
/-- Layer 4's reference aggregation is the kernel program's aggregation on N × 64 arrays. -/
theorem agg4_eq (x1 : (⟨Cert.ReferenceIdeal.S2x800000, .i32⟩ : BufTy).Contents (Elt Ideal)) :
    aggR4 x1 = agg64 (srcOf x1) (dstOf x1) (normOf (srcOf x1) (dstOf x1)) := rfl

/-! The squared inverse-square-root degrees. -/

set_option maxHeartbeats 400000 in
/-- Layer 1's squared inverse-square-root degrees are the square of the kernel program's. -/
theorem d2_eq1 (x1 : (⟨Cert.ReferenceIdeal.S2x800000, .i32⟩ : BufTy).Contents (Elt Ideal)) :
    val_main_v45 (F := Ideal) x1 = mulf (F := Ideal) (disOf (dstOf x1)) (disOf (dstOf x1)) := rfl

set_option maxHeartbeats 400000 in
/-- The same for layer 2. -/
theorem d2_eq2 (x1 : (⟨Cert.ReferenceIdeal.S2x800000, .i32⟩ : BufTy).Contents (Elt Ideal)) :
    val_main_v83 (F := Ideal) x1 = mulf (F := Ideal) (disOf (dstOf x1)) (disOf (dstOf x1)) := rfl

set_option maxHeartbeats 400000 in
/-- The same for layer 3. -/
theorem d2_eq3 (x1 : (⟨Cert.ReferenceIdeal.S2x800000, .i32⟩ : BufTy).Contents (Elt Ideal)) :
    val_main_v121 (F := Ideal) x1 = mulf (F := Ideal) (disOf (dstOf x1)) (disOf (dstOf x1)) := rfl

set_option maxHeartbeats 400000 in
/-- The same for layer 4. -/
theorem d2_eq4 (x1 : (⟨Cert.ReferenceIdeal.S2x800000, .i32⟩ : BufTy).Contents (Elt Ideal)) :
    val_main_v159 (F := Ideal) x1 = mulf (F := Ideal) (disOf (dstOf x1)) (disOf (dstOf x1)) := rfl

end Cert.Proof.Bridge

end
-- ==== Proof.lean ====
/-
  The certificate: a four-layer graph convolution computed by eight tiled calls among host operations is,
  on the extended reals, the same function of its ten arguments as the plain reference.

  Both programs compute, per layer, H = A · W, the neighbourhood aggregation of H over the edge list, the
  self term H scaled row by row by the squared inverse-square-root degrees, and the bias, added in the
  order (aggregation + self) + bias, with the maximum with zero after each of the first three layers. The
  kernel program does the product, the scaling and the final additions in row blocks of 5000 nodes; the
  narrowing of the product's operands to a shorter float format is the identity on extended reals, a
  blocked product is the product, and the blocks tile the arrays. The edge operations (degrees, inverse
  square roots, gathers, scatter-adds) are the same host operations in both programs and are never opened.
  No algebraic law of the extended reals is used, so the finiteness precondition is never opened either.

  The three frame claims are the generated frames (the reference's is its generated run with the result
  dropped); the idealization rewrote nothing, so its claim is trivial.
-/
import proofs.«102909_j69947837382767_1_alg».proof.Defs
import proofs.«102909_j69947837382767_1_alg».proof.Proof.Gen.Kernel
import proofs.«102909_j69947837382767_1_alg».proof.Proof.Gen.Kernel.Skeleton
import proofs.«102909_j69947837382767_1_alg».proof.Proof.Gen.Kernel.Launch
import proofs.«102909_j69947837382767_1_alg».proof.Proof.Gen.Kernel.Points
import proofs.«102909_j69947837382767_1_alg».proof.Proof.Gen.Kernel.Frame
import proofs.«102909_j69947837382767_1_alg».proof.Proof.Gen.KernelIdeal
import proofs.«102909_j69947837382767_1_alg».proof.Proof.Gen.KernelIdeal.Skeleton
import proofs.«102909_j69947837382767_1_alg».proof.Proof.Gen.KernelIdeal.Launch
import proofs.«102909_j69947837382767_1_alg».proof.Proof.Gen.KernelIdeal.Points
import proofs.«102909_j69947837382767_1_alg».proof.Proof.Gen.KernelIdeal.Frame
import proofs.«102909_j69947837382767_1_alg».proof.Proof.Gen.ReferenceIdeal
import proofs.«102909_j69947837382767_1_alg».proof.Proof.Gen.Pre_finite_inputs
import proofs.«102909_j69947837382767_1_alg».proof.Proof.Gen.ReferenceIdeal.Run
import proofs.«102909_j69947837382767_1_alg».proof.Proof.Gen.ReferenceIdeal.Read
import proofs.«102909_j69947837382767_1_alg».proof.Proof.KRun
import proofs.«102909_j69947837382767_1_alg».proof.Proof.KChain
import proofs.«102909_j69947837382767_1_alg».proof.Proof.RefValue
import proofs.«102909_j69947837382767_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result term, on arguments that agree with the kernel program's, is the kernel program's
    fourth layer: layer by layer the two are the same specification layer over the same edge operations. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v166 m' c = Cert.KernelIdeal.Layers.act4 m c := by
  rw [Cert.ReferenceIdeal.Read.val_main_v166_eq, Cert.ReferenceIdeal.RefValue.layer4, Cert.ReferenceIdeal.RefValue.layer3,
    Cert.ReferenceIdeal.RefValue.layer2, Cert.ReferenceIdeal.RefValue.layer1,
    Cert.Proof.Bridge.agg1_eq, Cert.Proof.Bridge.agg2_eq, Cert.Proof.Bridge.agg3_eq, Cert.Proof.Bridge.agg4_eq,
    Cert.Proof.Bridge.d2_eq1, Cert.Proof.Bridge.d2_eq2, Cert.Proof.Bridge.d2_eq3, Cert.Proof.Bridge.d2_eq4,
    h0, h1, h2, h3, h4, h5, h6, h7, h8, h9]
  rfl

/-- At the ideal instance the kernel program's result array ends at the fourth layer of its launch memory
    (the boundary contents followed through the thirteen segments) and the reference's at its composed term
    of arguments that agree: one function. -/
theorem algebraic : Cert.algebraic_KernelIdeal_ReferenceIdeal := by
  intro m ρ m' ρ' _ hagree
  refine ⟨fun c => Cert.KernelIdeal.Layers.act4 m c, ?_, ?_⟩
  · exact (θ_run Cert.KernelIdeal.defs _ _).mono
      (fun r h c => ⟨(h c).1.trans (Cert.KernelIdeal.Layers.lvl13_out m ρ c), (h c).2⟩)
      (Cert.KernelIdeal.Layers.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    exact result_eq m m' c h0 h1 h2 h3 h4 h5 h6 h7 h8 h9

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
